-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S524288x64 : Shape := ⟨2, ![524288, 64]⟩
abbrev S524288 : Shape := ⟨1, ![524288]⟩
abbrev S128x128 : Shape := ⟨2, ![128, 128]⟩
abbrev S128 : Shape := ⟨1, ![128]⟩
abbrev S64x128 : Shape := ⟨2, ![64, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_

variable [Facts]

def fn_part6 {F : FTy → Type} [FloatOps F] (main_arg23 : FVec F S128 .f32) (main_arg24 : FVec F S128x128 .f32) (main_arg25 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128x128 .f32 := Host.absf main_arg24
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg20 : FVec F S128x128 .f32) (main_arg21 : FVec F S128 .f32) (main_arg22 : FVec F S128 .f32) (main_arg23 : FVec F S128 .f32) (main_arg24 : FVec F S128x128 .f32) (main_arg25 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg20
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128x128 .f32) (main_arg25 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg18
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S128 .f32) (main_arg14 : FVec F S128x128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128x128 .f32) (main_arg25 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S128 .f32) (main_arg10 : FVec F S64x128 .f32) (main_arg11 : FVec F S128 .f32) (main_arg12 : FVec F S64x128 .f32) (main_arg13 : FVec F S128 .f32) (main_arg14 : FVec F S128x128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128x128 .f32) (main_arg25 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S64x128 .f32) (main_arg11 : FVec F S128 .f32) (main_arg12 : FVec F S64x128 .f32) (main_arg13 : FVec F S128 .f32) (main_arg14 : FVec F S128x128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128x128 .f32) (main_arg25 : FVec F S128 .f32) (main_v13 : IVec S_ 1) (main_v16 : IVec S524288x64 1) : IVec S_ 1 :=
  let main_c_5 : IVec S_ 1 := constantI S_ 1 1#1
  let main_v17 : IVec S_ 1 := (fun x v => Host.reduce IntOp.andi x v reducesTo_S524288x64_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S8192x128 .f32) (main_arg1 : FVec F S8192x128 .f32) (main_arg2 : FVec F S524288x64 .f32) (main_arg3 : FVec F S524288x64 .f32) (main_arg4 : IVec S524288 32) (main_arg5 : IVec S524288 32) (main_arg6 : FVec F S128x128 .f32) (main_arg7 : FVec F S128 .f32) (main_arg8 : FVec F S128x128 .f32) (main_arg9 : FVec F S128 .f32) (main_arg10 : FVec F S64x128 .f32) (main_arg11 : FVec F S128 .f32) (main_arg12 : FVec F S64x128 .f32) (main_arg13 : FVec F S128 .f32) (main_arg14 : FVec F S128x128 .f32) (main_arg15 : FVec F S128 .f32) (main_arg16 : FVec F S128 .f32) (main_arg17 : FVec F S128 .f32) (main_arg18 : FVec F S128x128 .f32) (main_arg19 : FVec F S128 .f32) (main_arg20 : FVec F S128x128 .f32) (main_arg21 : FVec F S128 .f32) (main_arg22 : FVec F S128 .f32) (main_arg23 : FVec F S128 .f32) (main_arg24 : FVec F S128x128 .f32) (main_arg25 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S524288x64 .f32 := Host.absf main_arg2
  let main_cst_2 : FVec F S_ .f32 := constant S_ .f32 0x7F800000#32
  let main_v10 : FVec F S524288x64 .f32 := broadcastInDim S524288x64 ![] bcast_S_S524288x64 main_cst_2
  let main_v11 : IVec S524288x64 1 := cmpf .olt main_v9 main_v10
  let main_c_3 : IVec S_ 1 := constantI S_ 1 1#1
  let main_v12 : IVec S_ 1 := (fun x v => Host.reduce IntOp.andi x v reducesTo_S524288x64_S_d0_1 h_S_) main_v11 main_c_3
  let main_v13 : IVec S_ 1 := andi main_v8 main_v12
  let main_v14 : FVec F S524288x64 .f32 := Host.absf main_arg3
  let main_cst_4 : FVec F S_ .f32 := constant S_ .f32 0x7F800000#32
  let main_v15 : FVec F S524288x64 .f32 := broadcastInDim S524288x64 ![] bcast_S_S524288x64 main_cst_4
  let main_v16 : IVec S524288x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S8192x128 : Shape := ⟨2, ![8192, 128]⟩
abbrev S524288x64 : Shape := ⟨2, ![524288, 64]⟩
abbrev S524288 : Shape := ⟨1, ![524288]⟩
abbrev S128x128 : Shape := ⟨2, ![128, 128]⟩
abbrev S128 : Shape := ⟨1, ![128]⟩
abbrev S64x128 : Shape := ⟨2, ![64, 128]⟩
abbrev S1x128 : Shape := ⟨2, ![1, 128]⟩
abbrev S1024x128 : Shape := ⟨2, ![1024, 128]⟩
abbrev S524288x128 : Shape := ⟨2, ![524288, 128]⟩
abbrev S8192x64 : Shape := ⟨2, ![8192, 64]⟩
abbrev S_ : Shape := ⟨0, ![]⟩
abbrev S524288x1 : Shape := ⟨2, ![524288, 1]⟩
abbrev S1024 : Shape := ⟨1, ![1024]⟩
abbrev S1024x1 : Shape := ⟨2, ![1024, 1]⟩

abbrev nBuf : Space → Nat
  | .hbm => 74
  | .vmem => 48
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S524288x64, .f32⟩
  | .hbm, ⟨3, _⟩ => ⟨S524288x64, .f32⟩
  | .hbm, ⟨4, _⟩ => ⟨S524288, .i32⟩
  | .hbm, ⟨5, _⟩ => ⟨S524288, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S64x128, .f32⟩
  | .hbm, ⟨11, _⟩ => ⟨S128, .f32⟩
  | .hbm, ⟨12, _⟩ => ⟨S64x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S128x128, .f32⟩
  | .hbm, ⟨21, _⟩ => ⟨S128, .f32⟩
  | .hbm, ⟨22, _⟩ => ⟨S128, .f32⟩
  | .hbm, ⟨23, _⟩ => ⟨S128, .f32⟩
  | .hbm, ⟨24, _⟩ => ⟨S128x128, .f32⟩
  | .hbm, ⟨25, _⟩ => ⟨S128, .f32⟩
  | .hbm, ⟨26, _⟩ => ⟨S1x128, .f32⟩
  | .hbm, ⟨27, _⟩ => ⟨S8192x128, .f32⟩
  | .hbm, ⟨28, _⟩ => ⟨S1x128, .f32⟩
  | .hbm, ⟨29, _⟩ => ⟨S8192x128, .f32⟩
  | .hbm, ⟨30, _⟩ => ⟨S1x128, .f32⟩
  | .hbm, ⟨31, _⟩ => ⟨S524288x128, .bf16⟩
  | .hbm, ⟨32, _⟩ => ⟨S1x128, .f32⟩
  | .hbm, ⟨33, _⟩ => ⟨S524288x128, .bf16⟩
  | .hbm, ⟨34, _⟩ => ⟨S_, .i32⟩
  | .hbm, ⟨35, _⟩ => ⟨S524288, .i32⟩
  | .hbm, ⟨36, _⟩ => ⟨S524288, .i1⟩
  | .hbm, ⟨37, _⟩ => ⟨S_, .i32⟩
  | .hbm, ⟨38, _⟩ => ⟨S524288, .i32⟩
  | .hbm, ⟨39, _⟩ => ⟨S524288, .i32⟩
  | .hbm, ⟨40, _⟩ => ⟨S524288, .i32⟩
  | .hbm, ⟨41, _⟩ => ⟨S524288x1, .i32⟩
  | .hbm, ⟨42, _⟩ => ⟨S524288x128, .f32⟩
  | .hbm, ⟨43, _⟩ => ⟨S524288x128, .f32⟩
  | .hbm, ⟨44, _⟩ => ⟨S524288x128, .f32⟩
  | .hbm, ⟨45, _⟩ => ⟨S_, .f32⟩
  | .hbm, ⟨46, _⟩ => ⟨S8192x128, .f32⟩
  | .hbm, ⟨47, _⟩ => ⟨S524288x1, .i32⟩
  | .hbm, ⟨48, _⟩ => ⟨S8192x128, .f32⟩
  | .hbm, ⟨49, _⟩ => ⟨S_, .i32⟩
  | .hbm, ⟨50, _⟩ => ⟨S524288, .i32⟩
  | .hbm, ⟨51, _⟩ => ⟨S524288, .i1⟩
  | .hbm, ⟨52, _⟩ => ⟨S_, .i32⟩
  | .hbm, ⟨53, _⟩ => ⟨S524288, .i32⟩
  | .hbm, ⟨54, _⟩ => ⟨S524288, .i32⟩
  | .hbm, ⟨55, _⟩ => ⟨S524288, .i32⟩
  | .hbm, ⟨56, _⟩ => ⟨S524288x1, .i32⟩
  | .hbm, ⟨57, _⟩ => ⟨S524288x128, .f32⟩
  | .hbm, ⟨58, _⟩ => ⟨S524288x128, .f32⟩
  | .hbm, ⟨59, _⟩ => ⟨S524288x128, .f32⟩
  | .hbm, ⟨60, _⟩ => ⟨S_, .f32⟩
  | .hbm, ⟨61, _⟩ => ⟨S8192x128, .f32⟩
  | .hbm, ⟨62, _⟩ => ⟨S524288x1, .i32⟩
  | .hbm, ⟨63, _⟩ => ⟨S8192x128, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S8192x128, .f32⟩
  | .hbm, ⟨69, _⟩ => ⟨S1x128, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S128x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S8192x64, .f32⟩
  | .local _ .vmem, ⟨13, _⟩ => ⟨S8192x64, .f32⟩
  | .local _ .vmem, ⟨14, _⟩ => ⟨S64x128, .f32⟩
  | .local _ .vmem, ⟨15, _⟩ => ⟨S1x128, .f32⟩
  | .local _ .vmem, ⟨16, _⟩ => ⟨S8192x128, .bf16⟩
  | .local _ .vmem, ⟨17, _⟩ => ⟨S8192x128, .bf16⟩
  | .local _ .vmem, ⟨18, _⟩ => ⟨S8192x64, .f32⟩
  | .local _ .vmem, ⟨19, _⟩ => ⟨S8192x64, .f32⟩
  | .local _ .vmem, ⟨20, _⟩ => ⟨S64x128, .f32⟩
  | .local _ .vmem, ⟨21, _⟩ => ⟨S1x128, .f32⟩
  | .local _ .vmem, ⟨22, _⟩ => ⟨S8192x128, .bf16⟩
  | .local _ .vmem, ⟨23, _⟩ => ⟨S8192x128, .bf16⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S128x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S1024x128, .f32⟩
  | .local _ .vmem, ⟨35, _⟩ => ⟨S1024x128, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S1024x128, .f32⟩
  | .local _ .vmem, ⟨47, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_1 : Ref sig .tc := ⟨.hbm, 49, rfl⟩
abbrev main_v20 : Ref sig .tc := ⟨.hbm, 50, rfl⟩
abbrev main_v21 : Ref sig .tc := ⟨.hbm, 51, rfl⟩
abbrev main_c_2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_3 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg7_0 : Ref sig .tc := ⟨.vmem, 33, rfl⟩
abbrev cc4_stg8_0 : Ref sig .tc := ⟨.vmem, 34, rfl⟩
abbrev cc4_stg8_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg5_0 : Ref sig .tc := ⟨.vmem, 43, rfl⟩
abbrev cc5_stg6_0 : Ref sig .tc := ⟨.vmem, 44, rfl⟩
abbrev cc5_stg7_0 : Ref sig .tc := ⟨.vmem, 45, rfl⟩
abbrev cc5_stg8_0 : Ref sig .tc := ⟨.vmem, 46, rfl⟩
abbrev cc5_stg8_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem7_0 : DmaSem sig := 33
abbrev cc4_sem8_0 : DmaSem sig := 34
abbrev cc4_sem8_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem6_0 : DmaSem sig := 44
abbrev cc5_sem7_0 : DmaSem sig := 45
abbrev cc5_sem8_0 : DmaSem sig := 46
abbrev cc5_sem8_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1024x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S1024x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1024x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 2 → Memref sig .tc .vmem S1024x128 .f32 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

class Facts₀ : Prop where
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S8192x64_S8192x64_0_0 : ∀ a, (![0, 0] : Fin 2 → Nat) a + S8192x64.size a ≤ S8192x64.size a
  h_S8192x64 : 0 < S8192x64.numel
  inb_S64x128_S64x128_0_0 : ∀ a, (![0, 0] : Fin 2 → Nat) a + S64x128.size a ≤ S64x128.size a
  h_S64x128 : 0 < S64x128.numel
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  packedbf16_S8192x128_S8192x128_0_0 : (Rect.unit (s := S8192x128) ![0, 0] S8192x128.size inb_S8192x128_S8192x128_0_0).PackedRows (EltTy.packing .bf16)
  bcast_S_S524288 : S_.BroadcastsInDim S524288 (![] : Fin 0 → Fin S524288.rank)
  bcast_S524288_S524288x1_0 : S524288.BroadcastsInDim S524288x1 (![0] : Fin 1 → Fin S524288x1.rank)
  bcast_S_S8192x128 : S_.BroadcastsInDim S8192x128 (![] : Fin 0 → Fin S8192x128.rank)
  shapeCasts_S1024x128_S1024x128 : S1024x128.ShapeCasts S1024x128
  reduces_S1024x128_S1024 : S1024x128.Reduces [1] S1024
  shapeCasts_S1024_S1024x1 : S1024.ShapeCasts S1024x1
  broadcasts_S1024x1_S1024x128 : S1024x1.Broadcasts S1024x128
  dot_S1024x128_S128x128_S1024x128_1_0_0_1_n_n_wf : DotDims.WF S1024x128 S128x128 S1024x128 [1] [0] [0] [1] [] []
  dot_S8192x64_S64x128_S8192x128_1_0_0_1_n_n_wf : DotDims.WF S8192x64 S64x128 S8192x128 [1] [0] [0] [1] [] []
  gather_S8192x128_S524288x1_S524288x128_1_0_n_n_0_1_1128_wf : GatherDims.WF S8192x128 S524288x1 S524288x128 [1] [0] [] [0] [] 1 ![1, 128]
  scatter_S8192x128_S524288x1_S524288x128_1_0_0_1_wf : ScatterDims.WF S8192x128 S524288x1 S524288x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S524288x64.size a
  hwx2_0 : ∀ i : grid2.Coords, EltTy.bits .f32 = 32 ∨ (Rect.block (s := S524288x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S524288x128.size a
  hwx2_3 : ∀ i : grid2.Coords, EltTy.bits .bf16 = 32 ∨ (Rect.block (s := S524288x128) S8192x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x64.size a ≤ S524288x64.size a
  hwx3_0 : ∀ i : grid3.Coords, EltTy.bits .f32 = 32 ∨ (Rect.block (s := S524288x64) S8192x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S524288x128.size a
  hwx3_3 : ∀ i : grid3.Coords, EltTy.bits .bf16 = 32 ∨ (Rect.block (s := S524288x128) S8192x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x128.size a ≤ S8192x128.size a
  hwx4_0 : ∀ i : grid4.Coords, EltTy.bits .f32 = 32 ∨ (Rect.block (s := S8192x128) S1024x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x128.size a ≤ S8192x128.size a
  hwx4_1 : ∀ i : grid4.Coords, EltTy.bits .f32 = 32 ∨ (Rect.block (s := S8192x128) S1024x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x128.size a ≤ S8192x128.size a
  hwx4_8 : ∀ i : grid4.Coords, EltTy.bits .f32 = 32 ∨ (Rect.block (s := S8192x128) S1024x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x128.size a ≤ S8192x128.size a
  hwx5_0 : ∀ i : grid5.Coords, EltTy.bits .f32 = 32 ∨ (Rect.block (s := S8192x128) S1024x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x128.size a ≤ S8192x128.size a
  hwx5_1 : ∀ i : grid5.Coords, EltTy.bits .f32 = 32 ∨ (Rect.block (s := S8192x128) S1024x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x128.size a ≤ S128x128.size a
  hwx5_6 : ∀ i : grid5.Coords, EltTy.bits .f32 = 32 ∨ (Rect.block (s := S128x128) S128x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S1024x128.size a ≤ S8192x128.size a
  hwx5_8 : ∀ i : grid5.Coords, EltTy.bits .f32 = 32 ∨ (Rect.block (s := S8192x128) S1024x128.size (cc5_transform_8 i) (hinb5_8 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def gather_S8192x128_S524288x1_S524288x128_1_0_n_n_0_1_1128 : GatherDims S8192x128 S524288x1 S524288x128 where
  offsetDims := [1]
  collapsedSliceDims := [0]
  operandBatchingDims := []
  startIndicesBatchingDims := []
  startIndexMap := [0]
  indexVectorDim := 1
  sliceSizes := ![1, 128]
  wf := gather_S8192x128_S524288x1_S524288x128_1_0_n_n_0_1_1128_wf
def scatter_S8192x128_S524288x1_S524288x128_1_0_0_1 : ScatterDims S8192x128 S524288x1 S524288x128 where
  updateWindowDims := [1]
  insertedWindowDims := [0]
  scatterDimsToOperandDims := [0]
  indexVectorDim := 1
  wf := scatter_S8192x128_S524288x1_S524288x128_1_0_0_1_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S8192x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S8192x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg3) S8192x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg12) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S8192x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v31) S1024x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S1024x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v33) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v34) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg18) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v35) S1x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v36) S1024x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v19) S1024x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg1) S1024x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg20) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v38) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v39) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_arg24) S128x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v40) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v41) S1024x128.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

class Facts : Prop extends Facts₀ where

variable [Facts]
-- ==== ReferenceIdeal.lean ====
abbrev S8192x128 : Shape := ⟨2, ![8192, 128]⟩
abbrev S524288x64 : Shape := ⟨2, ![524288, 64]⟩
abbrev S524288 : Shape := ⟨1, ![524288]⟩
abbrev S128x128 : Shape := ⟨2, ![128, 128]⟩
abbrev S128 : Shape := ⟨1, ![128]⟩
abbrev S64x128 : Shape := ⟨2, ![64, 128]⟩
abbrev S1x128 : Shape := ⟨2, ![1, 128]⟩
abbrev S524288x128 : Shape := ⟨2, ![524288, 128]⟩
abbrev S_ : Shape := ⟨0, ![]⟩
abbrev S524288x1 : Shape := ⟨2, ![524288, 1]⟩
abbrev S8192 : Shape := ⟨1, ![8192]⟩
abbrev S8192x1 : Shape := ⟨2, ![8192, 1]⟩

abbrev nBuf : Space → Nat
  | .hbm => 146
  | .vmem => 0
  | .smem => 0
  | _ => 0

abbrev hbmTy0_0 (i : Nat) : BufTy := match i % 128 with
  | 0 => ⟨S8192x128, .f32⟩
  | 1 => ⟨S8192x128, .f32⟩
  | 2 => ⟨S524288x64, .f32⟩
  | 3 => ⟨S524288x64, .f32⟩
  | 4 => ⟨S524288, .i32⟩
  | 5 => ⟨S524288, .i32⟩
  | 6 => ⟨S128x128, .f32⟩
  | 7 => ⟨S128, .f32⟩
  | 8 => ⟨S128x128, .f32⟩
  | 9 => ⟨S128, .f32⟩
  | 10 => ⟨S64x128, .f32⟩
  | 11 => ⟨S128, .f32⟩
  | 12 => ⟨S64x128, .f32⟩
  | 13 => ⟨S128, .f32⟩
  | 14 => ⟨S128x128, .f32⟩
  | 15 => ⟨S128, .f32⟩
  | 16 => ⟨S128, .f32⟩
  | 17 => ⟨S128, .f32⟩
  | 18 => ⟨S128x128, .f32⟩
  | 19 => ⟨S128, .f32⟩
  | 20 => ⟨S128x128, .f32⟩
  | 21 => ⟨S128, .f32⟩
  | 22 => ⟨S128, .f32⟩
  | 23 => ⟨S128, .f32⟩
  | 24 => ⟨S128x128, .f32⟩
  | 25 => ⟨S128, .f32⟩
  | 26 => ⟨S8192x128, .f32⟩
  | 27 => ⟨S1x128, .f32⟩
  | 28 => ⟨S8192x128, .f32⟩
  | 29 => ⟨S8192x128, .f32⟩
  | 30 => ⟨S8192x128, .f32⟩
  | 31 => ⟨S1x128, .f32⟩
  | 32 => ⟨S8192x128, .f32⟩
  | 33 => ⟨S8192x128, .f32⟩
  | 34 => ⟨S524288x128, .f32⟩
  | 35 => ⟨S1x128, .f32⟩
  | 36 => ⟨S524288x128, .f32⟩
  | 37 => ⟨S524288x128, .f32⟩
  | 38 => ⟨S524288x128, .f32⟩
  | 39 => ⟨S1x128, .f32⟩
  | 40 => ⟨S524288x128, .f32⟩
  | 41 => ⟨S524288x128, .f32⟩
  | 42 => ⟨S_, .i32⟩
  | 43 => ⟨S524288, .i32⟩
  | 44 => ⟨S524288, .i1⟩
  | 45 => ⟨S_, .i32⟩
  | 46 => ⟨S524288, .i32⟩
  | 47 => ⟨S524288, .i32⟩
  | 48 => ⟨S524288, .i32⟩
  | 49 => ⟨S524288x1, .i32⟩
  | 50 => ⟨S524288x128, .f32⟩
  | 51 => ⟨S524288x128, .f32⟩
  | 52 => ⟨S_, .f32⟩
  | 53 => ⟨S8192x128, .f32⟩
  | 54 => ⟨S524288x1, .i32⟩
  | 55 => ⟨S8192x128, .f32⟩
  | 56 => ⟨S_, .i32⟩
  | 57 => ⟨S524288, .i32⟩
  | 58 => ⟨S524288, .i1⟩
  | 59 => ⟨S_, .i32⟩
  | 60 => ⟨S524288, .i32⟩
  | 61 => ⟨S524288, .i32⟩
  | 62 => ⟨S524288, .i32⟩
  | 63 => ⟨S524288x1, .i32⟩
  | 64 => ⟨S524288x128, .f32⟩
  | 65 => ⟨S524288x128, .f32⟩
  | 66 => ⟨S_, .f32⟩
  | 67 => ⟨S8192x128, .f32⟩
  | 68 => ⟨S524288x1, .i32⟩
  | 69 => ⟨S8192x128, .f32⟩
  | 70 => ⟨S8192x128, .f32⟩
  | 71 => ⟨S1x128, .f32⟩
  | 72 => ⟨S8192x128, .f32⟩
  | 73 => ⟨S8192x128, .f32⟩
  | 74 => ⟨S_, .f32⟩
  | 75 => ⟨S8192, .f32⟩
  | 76 => ⟨S8192x1, .f32⟩
  | 77 => ⟨S_, .f32⟩
  | 78 => ⟨S8192x1, .f32⟩
  | 79 => ⟨S8192x1, .f32⟩
  | 80 => ⟨S8192x128, .f32⟩
  | 81 => ⟨S8192x128, .f32⟩
  | 82 => ⟨S8192x128, .f32⟩
  | 83 => ⟨S_, .f32⟩
  | 84 => ⟨S8192, .f32⟩
  | 85 => ⟨S8192x1, .f32⟩
  | 86 => ⟨S_, .f32⟩
  | 87 => ⟨S8192x1, .f32⟩
  | 88 => ⟨S8192x1, .f32⟩
  | 89 => ⟨S8192x128, .f32⟩
  | 90 => ⟨S8192x128, .f32⟩
  | 91 => ⟨S_, .f32⟩
  | 92 => ⟨S8192x1, .f32⟩
  | 93 => ⟨S8192x1, .f32⟩
  | 94 => ⟨S8192x1, .f32⟩
  | 95 => ⟨S8192x128, .f32⟩
  | 96 => ⟨S8192x128, .f32⟩
  | 97 => ⟨S1x128, .f32⟩
  | 98 => ⟨S8192x128, .f32⟩
  | 99 => ⟨S8192x128, .f32⟩
  | 100 => ⟨S1x128, .f32⟩
  | 101 => ⟨S8192x128, .f32⟩
  | 102 => ⟨S8192x128, .f32⟩
  | 103 => ⟨S8192x128, .f32⟩
  | 104 => ⟨S1x128, .f32⟩
  | 105 => ⟨S8192x128, .f32⟩
  | 106 => ⟨S8192x128, .f32⟩
  | 107 => ⟨S8192x128, .f32⟩
  | 108 => ⟨S8192x128, .f32⟩
  | 109 => ⟨S1x128, .f32⟩
  | 110 => ⟨S8192x128, .f32⟩
  | 111 => ⟨S8192x128, .f32⟩
  | 112 => ⟨S_, .f32⟩
  | 113 => ⟨S8192, .f32⟩
  | 114 => ⟨S8192x1, .f32⟩
  | 115 => ⟨S_, .f32⟩
  | 116 => ⟨S8192x1, .f32⟩
  | 117 => ⟨S8192x1, .f32⟩
  | 118 => ⟨S8192x128, .f32⟩
  | 119 => ⟨S8192x128, .f32⟩
  | 120 => ⟨S8192x128, .f32⟩
  | 121 => ⟨S_, .f32⟩
  | 122 => ⟨S8192, .f32⟩
  | 123 => ⟨S8192x1, .f32⟩
  | 124 => ⟨S_, .f32⟩
  | 125 => ⟨S8192x1, .f32⟩
  | 126 => ⟨S8192x1, .f32⟩
  | 127 => ⟨S8192x128, .f32⟩
  | _ => ⟨S8192x128, .f32⟩

abbrev hbmTy0_1 (i : Nat) : BufTy := match i % 128 with
  | 0 => ⟨S8192x128, .f32⟩
  | 1 => ⟨S_, .f32⟩
  | 2 => ⟨S8192x1, .f32⟩
  | 3 => ⟨S8192x1, .f32⟩
  | 4 => ⟨S8192x1, .f32⟩
  | 5 => ⟨S8192x128, .f32⟩
  | 6 => ⟨S8192x128, .f32⟩
  | 7 => ⟨S1x128, .f32⟩
  | 8 => ⟨S8192x128, .f32⟩
  | 9 => ⟨S8192x128, .f32⟩
  | 10 => ⟨S1x128, .f32⟩
  | 11 => ⟨S8192x128, .f32⟩
  | 12 => ⟨S8192x128, .f32⟩
  | 13 => ⟨S8192x128, .f32⟩
  | 14 => ⟨S1x128, .f32⟩
  | 15 => ⟨S8192x128, .f32⟩
  | 16 => ⟨S8192x128, .f32⟩
  | 17 => ⟨S8192x128, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c : Ref sig .tc := ⟨.hbm, 42, rfl⟩
abbrev main_v16 : Ref sig .tc := ⟨.hbm, 43, rfl⟩
abbrev main_v17 : Ref sig .tc := ⟨.hbm, 44, rfl⟩
abbrev main_c_0 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_1 : Ref sig .tc := ⟨.hbm, 56, rfl⟩
abbrev main_v27 : Ref sig .tc := ⟨.hbm, 57, rfl⟩
abbrev main_v28 : Ref sig .tc := ⟨.hbm, 58, rfl⟩
abbrev main_c_2 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_3 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_4 : Ref sig .tc := ⟨.hbm, 74, rfl⟩
abbrev main_v42 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_cst_6 : Ref sig .tc := ⟨.hbm, 83, rfl⟩
abbrev main_v49 : Ref sig .tc := ⟨.hbm, 84, rfl⟩
abbrev main_v50 : Ref sig .tc := ⟨.hbm, 85, rfl⟩
abbrev main_cst_7 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_8 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_9 : Ref sig .tc := ⟨.hbm, 112, rfl⟩
abbrev main_v75 : Ref sig .tc := ⟨.hbm, 113, rfl⟩
abbrev main_v76 : Ref sig .tc := ⟨.hbm, 114, rfl⟩
abbrev main_cst_10 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_11 : Ref sig .tc := ⟨.hbm, 121, rfl⟩
abbrev main_v82 : Ref sig .tc := ⟨.hbm, 122, rfl⟩
abbrev main_v83 : Ref sig .tc := ⟨.hbm, 123, rfl⟩
abbrev main_cst_12 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_13 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S1x128_S524288x128_0_1 : S1x128.BroadcastsInDim S524288x128 (![0, 1] : Fin 2 → Fin S524288x128.rank)
  bcast_S_S524288 : S_.BroadcastsInDim S524288 (![] : Fin 0 → Fin S524288.rank)
  bcast_S524288_S524288x1_0 : S524288.BroadcastsInDim S524288x1 (![0] : Fin 1 → Fin S524288x1.rank)
  bcast_S_S8192x128 : S_.BroadcastsInDim S8192x128 (![] : Fin 0 → Fin S8192x128.rank)
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  dot_S8192x128_S128x128_S8192x128_1_0_0_1_n_n_wf : DotDims.WF S8192x128 S128x128 S8192x128 [1] [0] [0] [1] [] []
  dot_S524288x64_S64x128_S524288x128_1_0_0_1_n_n_wf : DotDims.WF S524288x64 S64x128 S524288x128 [1] [0] [0] [1] [] []
  gather_S8192x128_S524288x1_S524288x128_1_0_n_n_0_1_1128_wf : GatherDims.WF S8192x128 S524288x1 S524288x128 [1] [0] [] [0] [] 1 ![1, 128]
  scatter_S8192x128_S524288x1_S524288x128_1_0_0_1_wf : ScatterDims.WF S8192x128 S524288x1 S524288x128 [1] [0] [0] 1

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S524288x64_S64x128_S524288x128_1_0_0_1_n_n : DotDims S524288x64 S64x128 S524288x128 where
  lhsContracting := [1]
  rhsContracting := [0]
  lhsNonContracting := [0]
  rhsNonContracting := [1]
  lhsBatch := []
  rhsBatch := []
  wf := dot_S524288x64_S64x128_S524288x128_1_0_0_1_n_n_wf
def gather_S8192x128_S524288x1_S524288x128_1_0_n_n_0_1_1128 : GatherDims S8192x128 S524288x1 S524288x128 where
  offsetDims := [1]
  collapsedSliceDims := [0]
  operandBatchingDims := []
  startIndicesBatchingDims := []
  startIndexMap := [0]
  indexVectorDim := 1
  sliceSizes := ![1, 128]
  wf := gather_S8192x128_S524288x1_S524288x128_1_0_n_n_0_1_1128_wf
def scatter_S8192x128_S524288x1_S524288x128_1_0_0_1 : ScatterDims S8192x128 S524288x1 S524288x128 where
  updateWindowDims := [1]
  insertedWindowDims := [0]
  scatterDimsToOperandDims := [0]
  indexVectorDim := 1
  wf := scatter_S8192x128_S524288x1_S524288x128_1_0_0_1_wf

class Facts : Prop extends Facts₀ where

variable [Facts]
-- ==== Proof.KernelRun.lean ====
/-
  The idealized kernel's run with its two results kept.

  @main is twelve segments: a stretch of host operations, then a pipelined call, six times over. The buffer contents at
  each boundary are a fold from the launch memory (the generated `W0 … W12`): a stretch applies its operations, a call
  replaces its windows' arrays by what its write-backs leave. Every weakly fair execution terminates with every
  unscoped buffer at the last boundary's contents `W12`; in particular the two result buffers hold `W12` there, and
  the argument buffers hold what they were launched with.
-/
import proofs.«152614_j19232863552107_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and in its final state every unscoped buffer of every core holds
    the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The run with the two result buffers named: they end at the last boundary's contents, the arguments as launched. -/
theorem run_results : θ_run defs (onTc (τ := τ) (main (F := F))) ⟨m, fun _ => 0, ρ⟩ (fun r => ∀ c : Dev nD,
      r.2.mem ((c.tc : Thread nD τ).loc main_v36) = W12 m ρ c (Proc.devRef .tc main_v36)
      ∧ r.2.mem ((c.tc : Thread nD τ).loc main_v41) = W12 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨h c _ (mem_uc main_v36 (by decide)), h c _ (mem_uc main_v41 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c),
     (h c _ (mem_uc main_arg15 (by decide))).trans (W12_main_arg15 m ρ c),
     (h c _ (mem_uc main_arg16 (by decide))).trans (W12_main_arg16 m ρ c),
     (h c _ (mem_uc main_arg17 (by decide))).trans (W12_main_arg17 m ρ c),
     (h c _ (mem_uc main_arg18 (by decide))).trans (W12_main_arg18 m ρ c),
     (h c _ (mem_uc main_arg19 (by decide))).trans (W12_main_arg19 m ρ c),
     (h c _ (mem_uc main_arg20 (by decide))).trans (W12_main_arg20 m ρ c),
     (h c _ (mem_uc main_arg21 (by decide))).trans (W12_main_arg21 m ρ c),
     (h c _ (mem_uc main_arg22 (by decide))).trans (W12_main_arg22 m ρ c),
     (h c _ (mem_uc main_arg23 (by decide))).trans (W12_main_arg23 m ρ c),
     (h c _ (mem_uc main_arg24 (by decide))).trans (W12_main_arg24 m ρ c),
     (h c _ (mem_uc main_arg25 (by decide))).trans (W12_main_arg25 m ρ c)⟩)
    (run_boundary m ρ)

end Cert.KernelIdeal.Hand

end
-- ==== Proof.KernelBoundary.lean ====
/-
  Which buffers each segment of the idealized kernel's @main leaves alone.

  The buffer contents at the twelve boundaries of @main are a fold from the launch memory. A stretch of host operations
  changes the buffers it writes and no other; a pipelined call changes its result array and no other (the arrays it reads
  are left as entered). So a buffer is carried unchanged across every segment that does not write it: an argument all the
  way from the launch memory, a call's result from that call's exit to wherever it is read.
-/
import proofs.«152614_j19232863552107_2_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A list of host operations leaves a buffer none of them writes: one inequality of references per operation. -/
macro "host_keeps " h:ident : tactic => `(tactic| (
  refine StableHlo.after_of_forall_not_mem _ _ (List.forall_iff_forall_mem.mp ?_)
  simp only [$h:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by first | assumption | decide)))

/-! ## The host stretches -/

/-- The one reshape before call 0 writes its own result only. -/
theorem host0_keeps (W : Valuation τ sig (Elt F)) (b : Ref sig .tc) (hb : b ≠ main_v0) :
    StableHlo.after hostOps0 W (Proc.devRef .tc b) = W (Proc.devRef .tc b) := by host_keeps hostOps0

/-- The one reshape before call 1 writes its own result only. -/
theorem host1_keeps (W : Valuation τ sig (Elt F)) (b : Ref sig .tc) (hb : b ≠ main_v2) :
    StableHlo.after hostOps1 W (Proc.devRef .tc b) = W (Proc.devRef .tc b) := by host_keeps hostOps1

/-- The one reshape before call 2 writes its own result only. -/
theorem host2_keeps (W : Valuation τ sig (Elt F)) (b : Ref sig .tc) (hb : b ≠ main_v4) :
    StableHlo.after hostOps2 W (Proc.devRef .tc b) = W (Proc.devRef .tc b) := by host_keeps hostOps2

/-- The one reshape before call 3 writes its own result only. -/
theorem host3_keeps (W : Valuation τ sig (Elt F)) (b : Ref sig .tc) (hb : b ≠ main_v6) :
    StableHlo.after hostOps3 W (Proc.devRef .tc b) = W (Proc.devRef .tc b) := by host_keeps hostOps3

/-- The long stretch between the fourth and the fifth call (index wrapping, gathers, products, scatter-adds, four
    reshapes) writes none of the arguments. -/
theorem host4_keeps_arg0 (W : Valuation τ sig (Elt F)) :
    StableHlo.after hostOps4 W (Proc.devRef .tc main_arg0) = W (Proc.devRef .tc main_arg0) := by host_keeps hostOps4
theorem host4_keeps_arg1 (W : Valuation τ sig (Elt F)) :
    StableHlo.after hostOps4 W (Proc.devRef .tc main_arg1) = W (Proc.devRef .tc main_arg1) := by host_keeps hostOps4
theorem host4_keeps_arg14 (W : Valuation τ sig (Elt F)) :
    StableHlo.after hostOps4 W (Proc.devRef .tc main_arg14) = W (Proc.devRef .tc main_arg14) := by host_keeps hostOps4
theorem host4_keeps_arg18 (W : Valuation τ sig (Elt F)) :
    StableHlo.after hostOps4 W (Proc.devRef .tc main_arg18) = W (Proc.devRef .tc main_arg18) := by host_keeps hostOps4
theorem host4_keeps_arg20 (W : Valuation τ sig (Elt F)) :
    StableHlo.after hostOps4 W (Proc.devRef .tc main_arg20) = W (Proc.devRef .tc main_arg20) := by host_keeps hostOps4
theorem host4_keeps_arg21 (W : Valuation τ sig (Elt F)) :
    StableHlo.after hostOps4 W (Proc.devRef .tc main_arg21) = W (Proc.devRef .tc main_arg21) := by host_keeps hostOps4
theorem host4_keeps_arg22 (W : Valuation τ sig (Elt F)) :
    StableHlo.after hostOps4 W (Proc.devRef .tc main_arg22) = W (Proc.devRef .tc main_arg22) := by host_keeps hostOps4
theorem host4_keeps_arg23 (W : Valuation τ sig (Elt F)) :
    StableHlo.after hostOps4 W (Proc.devRef .tc main_arg23) = W (Proc.devRef .tc main_arg23) := by host_keeps hostOps4
theorem host4_keeps_arg24 (W : Valuation τ sig (Elt F)) :
    StableHlo.after hostOps4 W (Proc.devRef .tc main_arg24) = W (Proc.devRef .tc main_arg24) := by host_keeps hostOps4
theorem host4_keeps_arg25 (W : Valuation τ sig (Elt F)) :
    StableHlo.after hostOps4 W (Proc.devRef .tc main_arg25) = W (Proc.devRef .tc main_arg25) := by host_keeps hostOps4

/-- The four reshapes before the last call write neither an argument nor an earlier result. -/
theorem host5_keeps_v36 (W : Valuation τ sig (Elt F)) :
    StableHlo.after hostOps5 W (Proc.devRef .tc main_v36) = W (Proc.devRef .tc main_v36) := by host_keeps hostOps5
theorem host5_keeps_v19 (W : Valuation τ sig (Elt F)) :
    StableHlo.after hostOps5 W (Proc.devRef .tc main_v19) = W (Proc.devRef .tc main_v19) := by host_keeps hostOps5
theorem host5_keeps_arg1 (W : Valuation τ sig (Elt F)) :
    StableHlo.after hostOps5 W (Proc.devRef .tc main_arg1) = W (Proc.devRef .tc main_arg1) := by host_keeps hostOps5
theorem host5_keeps_arg20 (W : Valuation τ sig (Elt F)) :
    StableHlo.after hostOps5 W (Proc.devRef .tc main_arg20) = W (Proc.devRef .tc main_arg20) := by host_keeps hostOps5
theorem host5_keeps_arg24 (W : Valuation τ sig (Elt F)) :
    StableHlo.after hostOps5 W (Proc.devRef .tc main_arg24) = W (Proc.devRef .tc main_arg24) := by host_keeps hostOps5

/-! ## The calls -/

/-- Call 0 changes one array only, its result's: an array it reads through an input window is left as entered, and any
    other buffer is not touched. -/
theorem call0_keeps (c : Dev nD) (b : Ref sig .tc) (hb : b ≠ main_v1) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, hb => exact absurd rfl hb

/-- Call 1 changes one array only, its result's: an array it reads through an input window is left as entered, and any
    other buffer is not touched. -/
theorem call1_keeps (c : Dev nD) (b : Ref sig .tc) (hb : b ≠ main_v3) :
    W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    match w, hb with
    | ⟨0, _⟩, _ => exact (W4_arr m ρ c 0).trans (((dat1 (V3 m ρ) c).arrAt_in 0 rfl _).trans (A_eq1 (V3 m ρ) c 0))
    | ⟨1, _⟩, _ => exact (W4_arr m ρ c 1).trans (((dat1 (V3 m ρ) c).arrAt_in 1 rfl _).trans (A_eq1 (V3 m ρ) c 1))
    | ⟨2, _⟩, _ => exact (W4_arr m ρ c 2).trans (((dat1 (V3 m ρ) c).arrAt_in 2 rfl _).trans (A_eq1 (V3 m ρ) c 2))
    | ⟨3, _⟩, hb => exact absurd rfl hb

/-- Call 2 changes one array only, its result's: an array it reads through an input window is left as entered, and any
    other buffer is not touched. -/
theorem call2_keeps (c : Dev nD) (b : Ref sig .tc) (hb : b ≠ main_v5) :
    W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    match w, hb with
    | ⟨0, _⟩, _ => exact (W6_arr m ρ c 0).trans (((dat2 (V5 m ρ) c).arrAt_in 0 rfl _).trans (A_eq2 (V5 m ρ) c 0))
    | ⟨1, _⟩, _ => exact (W6_arr m ρ c 1).trans (((dat2 (V5 m ρ) c).arrAt_in 1 rfl _).trans (A_eq2 (V5 m ρ) c 1))
    | ⟨2, _⟩, _ => exact (W6_arr m ρ c 2).trans (((dat2 (V5 m ρ) c).arrAt_in 2 rfl _).trans (A_eq2 (V5 m ρ) c 2))
    | ⟨3, _⟩, hb => exact absurd rfl hb

/-- Call 3 changes one array only, its result's: an array it reads through an input window is left as entered, and any
    other buffer is not touched. -/
theorem call3_keeps (c : Dev nD) (b : Ref sig .tc) (hb : b ≠ main_v7) :
    W8 m ρ c (Proc.devRef .tc b) = W7 m ρ c (Proc.devRef .tc b) := by
  by_cases h : ∀ w, Pipeline.arrRef spec3 w ≠ b
  · exact W8_of_ne m ρ c b h
  · push Not at h
    obtain ⟨w, rfl⟩ := h
    match w, hb with
    | ⟨0, _⟩, _ => exact (W8_arr m ρ c 0).trans (((dat3 (V7 m ρ) c).arrAt_in 0 rfl _).trans (A_eq3 (V7 m ρ) c 0))
    | ⟨1, _⟩, _ => exact (W8_arr m ρ c 1).trans (((dat3 (V7 m ρ) c).arrAt_in 1 rfl _).trans (A_eq3 (V7 m ρ) c 1))
    | ⟨2, _⟩, _ => exact (W8_arr m ρ c 2).trans (((dat3 (V7 m ρ) c).arrAt_in 2 rfl _).trans (A_eq3 (V7 m ρ) c 2))
    | ⟨3, _⟩, hb => exact absurd rfl hb

/-- Call 4 changes one array only, its result's: an array it reads through an input window is left as entered, and any
    other buffer is not touched. -/
theorem call4_keeps (c : Dev nD) (b : Ref sig .tc) (hb : b ≠ main_v36) :
    W10 m ρ c (Proc.devRef .tc b) = W9 m ρ c (Proc.devRef .tc b) := by
  by_cases h : ∀ w, Pipeline.arrRef spec4 w ≠ b
  · exact W10_of_ne m ρ c b h
  · push Not at h
    obtain ⟨w, rfl⟩ := h
    match w, hb with
    | ⟨0, _⟩, _ => exact (W10_arr m ρ c 0).trans (((dat4 (V9 m ρ) c).arrAt_in 0 rfl _).trans (A_eq4 (V9 m ρ) c 0))
    | ⟨1, _⟩, _ => exact (W10_arr m ρ c 1).trans (((dat4 (V9 m ρ) c).arrAt_in 1 rfl _).trans (A_eq4 (V9 m ρ) c 1))
    | ⟨2, _⟩, _ => exact (W10_arr m ρ c 2).trans (((dat4 (V9 m ρ) c).arrAt_in 2 rfl _).trans (A_eq4 (V9 m ρ) c 2))
    | ⟨3, _⟩, _ => exact (W10_arr m ρ c 3).trans (((dat4 (V9 m ρ) c).arrAt_in 3 rfl _).trans (A_eq4 (V9 m ρ) c 3))
    | ⟨4, _⟩, _ => exact (W10_arr m ρ c 4).trans (((dat4 (V9 m ρ) c).arrAt_in 4 rfl _).trans (A_eq4 (V9 m ρ) c 4))
    | ⟨5, _⟩, _ => exact (W10_arr m ρ c 5).trans (((dat4 (V9 m ρ) c).arrAt_in 5 rfl _).trans (A_eq4 (V9 m ρ) c 5))
    | ⟨6, _⟩, _ => exact (W10_arr m ρ c 6).trans (((dat4 (V9 m ρ) c).arrAt_in 6 rfl _).trans (A_eq4 (V9 m ρ) c 6))
    | ⟨7, _⟩, _ => exact (W10_arr m ρ c 7).trans (((dat4 (V9 m ρ) c).arrAt_in 7 rfl _).trans (A_eq4 (V9 m ρ) c 7))
    | ⟨8, _⟩, hb => exact absurd rfl hb

/-- Call 5 changes one array only, its result's: an array it reads through an input window is left as entered, and any
    other buffer is not touched. -/
theorem call5_keeps (c : Dev nD) (b : Ref sig .tc) (hb : b ≠ main_v41) :
    W12 m ρ c (Proc.devRef .tc b) = W11 m ρ c (Proc.devRef .tc b) := by
  by_cases h : ∀ w, Pipeline.arrRef spec5 w ≠ b
  · exact W12_of_ne m ρ c b h
  · push Not at h
    obtain ⟨w, rfl⟩ := h
    match w, hb with
    | ⟨0, _⟩, _ => exact (W12_arr m ρ c 0).trans (((dat5 (V11 m ρ) c).arrAt_in 0 rfl _).trans (A_eq5 (V11 m ρ) c 0))
    | ⟨1, _⟩, _ => exact (W12_arr m ρ c 1).trans (((dat5 (V11 m ρ) c).arrAt_in 1 rfl _).trans (A_eq5 (V11 m ρ) c 1))
    | ⟨2, _⟩, _ => exact (W12_arr m ρ c 2).trans (((dat5 (V11 m ρ) c).arrAt_in 2 rfl _).trans (A_eq5 (V11 m ρ) c 2))
    | ⟨3, _⟩, _ => exact (W12_arr m ρ c 3).trans (((dat5 (V11 m ρ) c).arrAt_in 3 rfl _).trans (A_eq5 (V11 m ρ) c 3))
    | ⟨4, _⟩, _ => exact (W12_arr m ρ c 4).trans (((dat5 (V11 m ρ) c).arrAt_in 4 rfl _).trans (A_eq5 (V11 m ρ) c 4))
    | ⟨5, _⟩, _ => exact (W12_arr m ρ c 5).trans (((dat5 (V11 m ρ) c).arrAt_in 5 rfl _).trans (A_eq5 (V11 m ρ) c 5))
    | ⟨6, _⟩, _ => exact (W12_arr m ρ c 6).trans (((dat5 (V11 m ρ) c).arrAt_in 6 rfl _).trans (A_eq5 (V11 m ρ) c 6))
    | ⟨7, _⟩, _ => exact (W12_arr m ρ c 7).trans (((dat5 (V11 m ρ) c).arrAt_in 7 rfl _).trans (A_eq5 (V11 m ρ) c 7))
    | ⟨8, _⟩, hb => exact absurd rfl hb

/-! ## From a boundary back to the launch memory -/

/-- Before any call, a buffer the first reshape does not write holds what it was launched with. -/
theorem launch_1 (c : Dev nD) (b : Ref sig .tc) (h0 : b ≠ main_v0) :
    W1 m ρ c (Proc.devRef .tc b) = m ((c : Thread nD τ).loc b) := (host0_keeps (W0 m ρ c) b h0).trans rfl
theorem launch_2 (c : Dev nD) (b : Ref sig .tc) (h0 : b ≠ main_v0) (h1 : b ≠ main_v1) :
    W2 m ρ c (Proc.devRef .tc b) = m ((c : Thread nD τ).loc b) := (call0_keeps m ρ c b h1).trans (launch_1 m ρ c b h0)
theorem launch_3 (c : Dev nD) (b : Ref sig .tc) (h0 : b ≠ main_v0) (h1 : b ≠ main_v1) (h2 : b ≠ main_v2) :
    W3 m ρ c (Proc.devRef .tc b) = m ((c : Thread nD τ).loc b) := (host1_keeps (W2 m ρ c) b h2).trans (launch_2 m ρ c b h0 h1)
theorem launch_4 (c : Dev nD) (b : Ref sig .tc) (h0 : b ≠ main_v0) (h1 : b ≠ main_v1) (h2 : b ≠ main_v2) (h3 : b ≠ main_v3) :
    W4 m ρ c (Proc.devRef .tc b) = m ((c : Thread nD τ).loc b) := (call1_keeps m ρ c b h3).trans (launch_3 m ρ c b h0 h1 h2)
theorem launch_5 (c : Dev nD) (b : Ref sig .tc) (h0 : b ≠ main_v0) (h1 : b ≠ main_v1) (h2 : b ≠ main_v2) (h3 : b ≠ main_v3) (h4 : b ≠ main_v4) :
    W5 m ρ c (Proc.devRef .tc b) = m ((c : Thread nD τ).loc b) := (host2_keeps (W4 m ρ c) b h4).trans (launch_4 m ρ c b h0 h1 h2 h3)
theorem launch_6 (c : Dev nD) (b : Ref sig .tc) (h0 : b ≠ main_v0) (h1 : b ≠ main_v1) (h2 : b ≠ main_v2) (h3 : b ≠ main_v3) (h4 : b ≠ main_v4) (h5 : b ≠ main_v5) :
    W6 m ρ c (Proc.devRef .tc b) = m ((c : Thread nD τ).loc b) := (call2_keeps m ρ c b h5).trans (launch_5 m ρ c b h0 h1 h2 h3 h4)
theorem launch_7 (c : Dev nD) (b : Ref sig .tc) (h0 : b ≠ main_v0) (h1 : b ≠ main_v1) (h2 : b ≠ main_v2) (h3 : b ≠ main_v3) (h4 : b ≠ main_v4) (h5 : b ≠ main_v5) (h6 : b ≠ main_v6) :
    W7 m ρ c (Proc.devRef .tc b) = m ((c : Thread nD τ).loc b) := (host3_keeps (W6 m ρ c) b h6).trans (launch_6 m ρ c b h0 h1 h2 h3 h4 h5)
theorem launch_8 (c : Dev nD) (b : Ref sig .tc) (h0 : b ≠ main_v0) (h1 : b ≠ main_v1) (h2 : b ≠ main_v2) (h3 : b ≠ main_v3) (h4 : b ≠ main_v4) (h5 : b ≠ main_v5) (h6 : b ≠ main_v6) (h7 : b ≠ main_v7) :
    W8 m ρ c (Proc.devRef .tc b) = m ((c : Thread nD τ).loc b) := (call3_keeps m ρ c b h7).trans (launch_7 m ρ c b h0 h1 h2 h3 h4 h5 h6)

/-! ## A call's result carried to the fifth call's stretch -/

theorem carry_8_6 (c : Dev nD) (b : Ref sig .tc) (h6 : b ≠ main_v6) (h7 : b ≠ main_v7) :
    W8 m ρ c (Proc.devRef .tc b) = W6 m ρ c (Proc.devRef .tc b) :=
  (call3_keeps m ρ c b h7).trans (host3_keeps (W6 m ρ c) b h6)
theorem carry_8_4 (c : Dev nD) (b : Ref sig .tc) (h4 : b ≠ main_v4) (h5 : b ≠ main_v5) (h6 : b ≠ main_v6) (h7 : b ≠ main_v7) :
    W8 m ρ c (Proc.devRef .tc b) = W4 m ρ c (Proc.devRef .tc b) :=
  (carry_8_6 m ρ c b h6 h7).trans ((call2_keeps m ρ c b h5).trans (host2_keeps (W4 m ρ c) b h4))
theorem carry_8_2 (c : Dev nD) (b : Ref sig .tc) (h2 : b ≠ main_v2) (h3 : b ≠ main_v3) (h4 : b ≠ main_v4) (h5 : b ≠ main_v5)
    (h6 : b ≠ main_v6) (h7 : b ≠ main_v7) :
    W8 m ρ c (Proc.devRef .tc b) = W2 m ρ c (Proc.devRef .tc b) :=
  (carry_8_4 m ρ c b h4 h5 h6 h7).trans ((call1_keeps m ρ c b h3).trans (host1_keeps (W2 m ρ c) b h2))

end Cert.KernelIdeal.Hand

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDenseLayer.lean ====
/-
  Dense (fully connected) layers on the extended reals, and the same layers as a vector unit computes them.

  A matrix is a function of a rank-2 index. The AFFINE layer  l · w + b  has entry (p, c) equal to
  Σ_q l[p,q] · w[q,c] + b[0,c], the bias a 1×N row repeated down the rows; the HIDDEN layer takes the maximum of that with
  the float word of 0.0 (relu; the word is never evaluated). Three kinds of facts, any extents, no program needed:

  * entry (p, c) of a layer depends only on row p of the left operand, column c of the weights and entry c of the bias
    row (`affine_congr`, `hidden_congr`; `network_rows` for a stack of two hidden layers and an affine one), which is what
    lets a block computed from a tile of an operand be read as a block of the layer of the whole arrays;
  * a product into a zero accumulator, plus the bias row broadcast down the rows, and the maximum with the zero splat,
    is the layer as a whole array (`affine_eq`, `hidden_eq`; `product_apply` for the product alone), for dimension numbers
    contracting the left operand's second axis against the right operand's first, any operand formats;
  * a change of float format is the identity (`truncf_eq`) and a vector reshaped to a 1×A row is `row` of it
    (`reshape_row`).
-/
import Idealize.ShloMosaic.PureOps.Ideal.Laws
import Idealize.ShloMosaic.Lib.ValueIdx
import Idealize.ShloMosaic.Lib.ValueLayout
import proofs.«152614_j19232863552107_2_alg».proof.Proof.LibPlainDot

noncomputable section

open scoped BigOperators

namespace Cert.DenseLayer

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-- The float word of 0.0 read on the extended reals. -/
abbrev zeroWord : EReal := Ideal.ofBits .f32 0x00000000#32

/-- A vector laid out as a 1×A row. -/
def row {A : Nat} (v : Vect A) : Mat 1 A := fun i => v (ix1 (i 1))

theorem row_apply {A : Nat} (v : Vect A) (u : Fin 1) (c : Fin A) : row v (ix2 u c) = v (ix1 c) := rfl

/-- A vector reshaped to a 1×A row is `row` of it. -/
theorem reshape_row {A : Nat} (v : Vect A) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- l · w + b, the bias a 1×N row repeated down the rows. -/
def affine {M K N : Nat} (l : Mat M K) (w : Mat K N) (b : Mat 1 N) : Mat M N :=
  fun j => (∑ q : Fin K, l (ix2 (j 0) q) * w (ix2 q (j 1))) + b (ix2 (0 : Fin 1) (j 1))

theorem affine_apply {M K N : Nat} (l : Mat M K) (w : Mat K N) (b : Mat 1 N) (p : Fin M) (c : Fin N) :
    affine l w b (ix2 p c) = (∑ q : Fin K, l (ix2 p q) * w (ix2 q c)) + b (ix2 (0 : Fin 1) c) := rfl

/-- relu(l · w + b). -/
def hidden {M K N : Nat} (l : Mat M K) (w : Mat K N) (b : Mat 1 N) : Mat M N :=
  fun j => max (affine l w b j) zeroWord

theorem hidden_apply {M K N : Nat} (l : Mat M K) (w : Mat K N) (b : Mat 1 N) (p : Fin M) (c : Fin N) :
    hidden l w b (ix2 p c) = max ((∑ q : Fin K, l (ix2 p q) * w (ix2 q c)) + b (ix2 (0 : Fin 1) c)) zeroWord := rfl

/-! ## An entry depends on one row, one column and one bias entry -/

section Congr
variable {M M' K N N' : Nat}

theorem affine_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    affine l w b (ix2 p c) = affine l' w' b' (ix2 p' c') := by
  rw [affine_apply, affine_apply, hb]
  exact congrArg (· + b' (ix2 (0 : Fin 1) c')) (Finset.sum_congr rfl fun q _ => by rw [hl q, hw q])

theorem hidden_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    hidden l w b (ix2 p c) = hidden l' w' b' (ix2 p' c') :=
  congrArg (max · zeroWord) (affine_congr l l' w w' b b' p p' c c' hl hw hb)

/-- Rows of a network of two hidden layers and an affine one: a block of input rows gives the same rows of the output. -/
theorem network_rows {K1 K2 K3 : Nat} (x : Mat M K1) (x' : Mat M' K1) (w1 : Mat K1 K2) (b1 : Mat 1 K2) (w2 : Mat K2 K3) (b2 : Mat 1 K3)
    (w3 : Mat K3 N) (b3 : Mat 1 N) (p : Fin M) (p' : Fin M') (hx : ∀ q : Fin K1, x (ix2 p q) = x' (ix2 p' q)) (c : Fin N) :
    affine (hidden (hidden x w1 b1) w2 b2) w3 b3 (ix2 p c) = affine (hidden (hidden x' w1 b1) w2 b2) w3 b3 (ix2 p' c) :=
  affine_congr _ _ w3 w3 b3 b3 p p' c c
    (fun n => hidden_congr _ _ w2 w2 b2 b2 p p' n n
      (fun k => hidden_congr x x' w1 w1 b1 b1 p p' k k hx (fun _ => rfl) rfl) (fun _ => rfl) rfl)
    (fun _ => rfl) rfl

end Congr

/-! ## The layers as the vector unit computes them -/

section Unit
variable {M K N : Nat} {d : DotDims ⟨2, ![M, K]⟩ ⟨2, ![K, N]⟩ ⟨2, ![M, N]⟩}

/-- Product into a zero accumulator plus the bias row: the affine layer. -/
theorem affine_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    addf (matmul d prec l w (constant ⟨2, ![M, N]⟩ .f32 0x00000000#32)) (broadcastTo ⟨2, ![M, N]⟩ b hb)
      = affine l w b := by
  funext j
  obtain ⟨p, c, rfl⟩ : ∃ (p : Fin M) (c : Fin N), j = ix2 p c := ⟨j 0, j 1, eq_ix2 j⟩
  rw [addf_apply, Cert.PlainDot.matmul_zero_apply hd, broadcastTo_1b_ab_apply, affine_apply]

/-- … and the maximum with the zero splat: the hidden layer. -/
theorem hidden_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec l w (constant ⟨2, ![M, N]⟩ .f32 0x00000000#32)) (broadcastTo ⟨2, ![M, N]⟩ b hb))
        (broadcast ⟨2, ![M, N]⟩ (Scalar.ofBits (F := Ideal) .f32 0x00000000#32))
      = hidden l w b := by
  rw [affine_eq hd]
  rfl

/-- A product into a zero accumulator alone, entry by entry. -/
theorem product_apply (hd : Cert.PlainDot.IsPlain d) (prec : Option ContractPrecision) {φ₁ φ₂ : FTy}
    (l : FVec Ideal ⟨2, ![M, K]⟩ φ₁) (w : FVec Ideal ⟨2, ![K, N]⟩ φ₂) (p : Fin M) (c : Fin N) :
    matmul d prec l w (constant ⟨2, ![M, N]⟩ .f32 0x00000000#32) (ix2 p c) = ∑ q : Fin K, l (ix2 p q) * w (ix2 q c) :=
  Cert.PlainDot.matmul_zero_apply hd prec l w p c

end Unit

/-- A change of float format is the identity on the extended reals. -/
theorem truncf_eq {s : Shape} {φ ψ : FTy} (a : FVec Ideal s φ) (h : ψ.bits < φ.bits) :
    (truncf ψ a h : FVec Ideal s ψ) = a := rfl

end Cert.DenseLayer

end
-- ==== Proof.LibLayerNorm.lean ====
/-
  Layer normalisation along the rows of a matrix of extended reals, and the residual block built on it.

  For a matrix h with R rows and C lanes, a divisor n and an offset ε (extended reals, kept as parameters: a float word
  read on the extended reals is never evaluated here):
    mean n h p          = (Σ_k h[p,k]) / n
    variance n h p      = (Σ_k (h[p,k] − mean)·(h[p,k] − mean)) / n
    norm n ε h g β      at (p,c) = (h[p,c] − mean) · rsqrt(variance + ε) · g[0,c] + β[0,c]     (g, β 1×C rows)
    residual            at (p,c) = e[p,c] + (norm(a·w1 + b1)·w2 + b2)[p,c]
  the quotient, the inverse square root, the difference and the sum being those of the extended reals. Entry (p,c) of
  each depends on row p of the matrix operands only (`norm_congr`, `residual_congr`), which is what lets a block
  computed from a tile of rows be read as a block of the whole arrays' result.
-/
import Idealize.ShloMosaic.PureOps.Ideal.Laws
import Idealize.ShloMosaic.Lib.ValueIdx
import proofs.«152614_j19232863552107_2_alg».proof.Proof.LibDenseLayer

noncomputable section

open scoped BigOperators

namespace Cert.LayerNorm

open Idealize.ShloMosaic Idealize.ShloMosaic.ValueIdx Cert.DenseLayer

/-- The mean of row p: the row's sum divided by n. -/
def mean {R C : Nat} (n : EReal) (h : Mat R C) (p : Fin R) : EReal :=
  Ideal.div (∑ k : Fin C, h (ix2 p k)) n

/-- The variance of row p: the sum of the squared deviations from the row's mean, divided by n. -/
def variance {R C : Nat} (n : EReal) (h : Mat R C) (p : Fin R) : EReal :=
  Ideal.div (∑ k : Fin C, (h (ix2 p k) - mean n h p) * (h (ix2 p k) - mean n h p)) n

/-- Row-wise normalisation with a gain row g and an offset row β. -/
def norm {R C : Nat} (n ε : EReal) (h : Mat R C) (g β : Mat 1 C) : Mat R C := fun j =>
  (h j - mean n h (j 0)) * Ideal.rsqrt (variance n h (j 0) + ε) * g (ix2 (0 : Fin 1) (j 1)) + β (ix2 (0 : Fin 1) (j 1))

theorem norm_apply {R C : Nat} (n ε : EReal) (h : Mat R C) (g β : Mat 1 C) (p : Fin R) (c : Fin C) :
    norm n ε h g β (ix2 p c)
      = (h (ix2 p c) - mean n h p) * Ideal.rsqrt (variance n h p + ε) * g (ix2 (0 : Fin 1) c) + β (ix2 (0 : Fin 1) c) := rfl

/-- e + (norm(a·w1 + b1)·w2 + b2): a dense layer, normalised, a second dense layer, added onto e. -/
def residual {R K C N : Nat} (n ε : EReal) (a : Mat R K) (e : Mat R N) (w1 : Mat K C) (b1 g β : Mat 1 C) (w2 : Mat C N) (b2 : Mat 1 N) :
    Mat R N := fun j => e j + affine (norm n ε (affine a w1 b1) g β) w2 b2 j

theorem residual_apply {R K C N : Nat} (n ε : EReal) (a : Mat R K) (e : Mat R N) (w1 : Mat K C) (b1 g β : Mat 1 C) (w2 : Mat C N)
    (b2 : Mat 1 N) (j : (⟨2, ![R, N]⟩ : Shape).Idx) :
    residual n ε a e w1 b1 g β w2 b2 j = e j + affine (norm n ε (affine a w1 b1) g β) w2 b2 j := rfl

/-! ## An entry depends on one row -/

section Congr
variable {R R' K C N : Nat}

theorem mean_congr (n : EReal) (h : Mat R C) (h' : Mat R' C) (p : Fin R) (p' : Fin R')
    (hh : ∀ k : Fin C, h (ix2 p k) = h' (ix2 p' k)) : mean n h p = mean n h' p' := by
  unfold mean
  exact congrArg (Ideal.div · n) (Finset.sum_congr rfl fun k _ => hh k)

theorem variance_congr (n : EReal) (h : Mat R C) (h' : Mat R' C) (p : Fin R) (p' : Fin R')
    (hh : ∀ k : Fin C, h (ix2 p k) = h' (ix2 p' k)) : variance n h p = variance n h' p' := by
  unfold variance
  rw [mean_congr n h h' p p' hh]
  exact congrArg (Ideal.div · n) (Finset.sum_congr rfl fun k _ => by rw [hh k])

theorem norm_congr (n ε : EReal) (h : Mat R C) (h' : Mat R' C) (g β : Mat 1 C) (p : Fin R) (p' : Fin R') (c : Fin C)
    (hh : ∀ k : Fin C, h (ix2 p k) = h' (ix2 p' k)) : norm n ε h g β (ix2 p c) = norm n ε h' g β (ix2 p' c) := by
  rw [norm_apply, norm_apply, mean_congr n h h' p p' hh, variance_congr n h h' p p' hh, hh c]

theorem residual_congr (n ε : EReal) (a : Mat R K) (a' : Mat R' K) (e : Mat R N) (e' : Mat R' N) (w1 : Mat K C) (b1 g β : Mat 1 C)
    (w2 : Mat C N) (b2 : Mat 1 N) (p : Fin R) (p' : Fin R') (c : Fin N)
    (ha : ∀ q : Fin K, a (ix2 p q) = a' (ix2 p' q)) (he : e (ix2 p c) = e' (ix2 p' c)) :
    residual n ε a e w1 b1 g β w2 b2 (ix2 p c) = residual n ε a' e' w1 b1 g β w2 b2 (ix2 p' c) := by
  rw [residual_apply, residual_apply, he]
  refine congrArg (e' (ix2 p' c) + ·) ?_
  exact affine_congr _ _ w2 w2 b2 b2 p p' c c
    (fun k => norm_congr n ε _ _ g β p p' k fun k' => affine_congr a a' w1 w1 b1 b1 p p' k' k' ha (fun _ => rfl) rfl)
    (fun _ => rfl) rfl

end Congr

end Cert.LayerNorm

end
-- ==== Proof.Spec.lean ====
/-
  What the two programs compute, as whole-array functions of the argument arrays on the extended reals.

  A bipartite graph has 8192 nodes on each side and 524288 edges in each direction; a node carries 128 features, an edge
  64. For one direction: the node features and the edge features each go through a dense layer (x·W + b); every edge
  takes the transformed row of the node it points at (an index below zero wrapped by the node count) times its own
  transformed row, and these products are summed onto the rows of the nodes the edges point at (`aggregate`); the sums
  go through a dense layer, a layer normalisation along the 128 lanes and a second dense layer, and are added onto the
  nodes' own embedding (`Cert.LayerNorm.residual`). `side` is that composition; each program's two results are `side`
  of the two directions' arguments.
-/
import Idealize.ShloMosaic.PureOps.Ideal.Laws
import Idealize.ShloMosaic.Lib.ValueIdx
import proofs.«152614_j19232863552107_2_alg».proof.Proof.LibDenseLayer
import proofs.«152614_j19232863552107_2_alg».proof.Proof.LibLayerNorm

noncomputable section

namespace Cert.Spec

open Idealize.ShloMosaic Idealize.ShloMosaic.ValueIdx Cert.DenseLayer Cert.LayerNorm

abbrev nodes : Shape := ⟨2, ![8192, 128]⟩
abbrev edges : Shape := ⟨1, ![524288]⟩
abbrev edgeCol : Shape := ⟨2, ![524288, 1]⟩
abbrev edgeRows : Shape := ⟨2, ![524288, 128]⟩
abbrev scalar : Shape := ⟨0, ![]⟩

/-- The lane count 128.0 and the offset 1e-5 rounded to a float, as the float words both programs carry. -/
abbrev laneCount : EReal := Ideal.ofBits .f32 0x43000000#32
abbrev offset : EReal := Ideal.ofBits .f32 0x3727C5AC#32

/-- Each edge takes the node row it points at (an index below zero wrapped by 8192) times its message row; the
    products are summed onto the rows the edges point at, from an all-zero array. -/
def aggregate (gd : GatherDims nodes edgeCol edgeRows) (sd : ScatterDims nodes edgeCol edgeRows)
    (hs : scalar.BroadcastsInDim edges ![]) (hc : edges.BroadcastsInDim edgeCol ![0]) (hz : scalar.BroadcastsInDim nodes ![])
    (h : FVec Ideal nodes .f32) (msg : FVec Ideal edgeRows .f32) (e : IVec edges 32) : FVec Ideal nodes .f32 :=
  Host.scatterAdd sd (broadcastInDim nodes ![] hz (constant (F := Ideal) scalar .f32 0x00000000#32)) (broadcastInDim edgeCol ![0] hc e)
    (mulf (Host.gather gd h (broadcastInDim edgeCol ![0] hc
        (select (cmpi .slt e (broadcastInDim edges ![] hs (constantI scalar 32 0#32)))
          (addi e (broadcastInDim edges ![] hs (constantI scalar 32 8192#32))) e))) msg)

/-- One direction of the layer: dense layers on the node and the edge features, the aggregation over the edges, the
    residual block onto the embedding. -/
def side (gd : GatherDims nodes edgeCol edgeRows) (sd : ScatterDims nodes edgeCol edgeRows)
    (hs : scalar.BroadcastsInDim edges ![]) (hc : edges.BroadcastsInDim edgeCol ![0]) (hz : scalar.BroadcastsInDim nodes ![])
    (x : Mat 8192 128) (wn : Mat 128 128) (bn : Vect 128) (v : Mat 524288 64) (wm : Mat 64 128) (bm : Vect 128) (e : IVec edges 32)
    (emb : Mat 8192 128) (w1 : Mat 128 128) (b1 g β : Vect 128) (w2 : Mat 128 128) (b2 : Vect 128) : Mat 8192 128 :=
  residual laneCount offset (aggregate gd sd hs hc hz (affine x wn (row bn)) (affine v wm (row bm)) e) emb
    w1 (row b1) (row g) (row β) w2 (row b2)

end Cert.Spec

end
-- ==== Proof.KernelHost.lean ====
/-
  What the host stretches of the idealized kernel's @main leave in the buffers the calls read.

  A bias, gain or offset vector of length 128 is reshaped to a 1×128 row: `row` of it. Between the fourth and the fifth
  call the two edge aggregations are computed: for each direction, the node rows the edges point at (an index below zero
  wrapped) times the edges' message rows, summed onto the rows the edges point at — `Cert.Spec.aggregate` of the two
  earlier results and the edge index argument, the message rows' change of float format being the identity.
-/
import proofs.«152614_j19232863552107_2_alg».proof.Proof.Gen.KernelIdeal.Frame
import proofs.«152614_j19232863552107_2_alg».proof.Proof.LibDenseLayer
import proofs.«152614_j19232863552107_2_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.DenseLayer

/-! ## The reshaped vectors -/

theorem host0_v0 (W : Valuation τ sig (Elt Ideal)) :
    (StableHlo.after hostOps0 W (Proc.devRef .tc main_v0) : S1x128.Idx → EReal) = row (W (Proc.devRef .tc main_arg7) : S128.Idx → EReal) := by
  after_results
  exact reshape_row _ _

theorem host1_v2 (W : Valuation τ sig (Elt Ideal)) :
    (StableHlo.after hostOps1 W (Proc.devRef .tc main_v2) : S1x128.Idx → EReal) = row (W (Proc.devRef .tc main_arg9) : S128.Idx → EReal) := by
  after_results
  exact reshape_row _ _

theorem host2_v4 (W : Valuation τ sig (Elt Ideal)) :
    (StableHlo.after hostOps2 W (Proc.devRef .tc main_v4) : S1x128.Idx → EReal) = row (W (Proc.devRef .tc main_arg11) : S128.Idx → EReal) := by
  after_results
  exact reshape_row _ _

theorem host3_v6 (W : Valuation τ sig (Elt Ideal)) :
    (StableHlo.after hostOps3 W (Proc.devRef .tc main_v6) : S1x128.Idx → EReal) = row (W (Proc.devRef .tc main_arg13) : S128.Idx → EReal) := by
  after_results
  exact reshape_row _ _

theorem host4_v32 (W : Valuation τ sig (Elt Ideal)) :
    (StableHlo.after hostOps4 W (Proc.devRef .tc main_v32) : S1x128.Idx → EReal) = row (W (Proc.devRef .tc main_arg15) : S128.Idx → EReal) := by
  after_results
  exact reshape_row _ _

theorem host4_v33 (W : Valuation τ sig (Elt Ideal)) :
    (StableHlo.after hostOps4 W (Proc.devRef .tc main_v33) : S1x128.Idx → EReal) = row (W (Proc.devRef .tc main_arg16) : S128.Idx → EReal) := by
  after_results
  exact reshape_row _ _

theorem host4_v34 (W : Valuation τ sig (Elt Ideal)) :
    (StableHlo.after hostOps4 W (Proc.devRef .tc main_v34) : S1x128.Idx → EReal) = row (W (Proc.devRef .tc main_arg17) : S128.Idx → EReal) := by
  after_results
  exact reshape_row _ _

theorem host4_v35 (W : Valuation τ sig (Elt Ideal)) :
    (StableHlo.after hostOps4 W (Proc.devRef .tc main_v35) : S1x128.Idx → EReal) = row (W (Proc.devRef .tc main_arg19) : S128.Idx → EReal) := by
  after_results
  exact reshape_row _ _

theorem host5_v37 (W : Valuation τ sig (Elt Ideal)) :
    (StableHlo.after hostOps5 W (Proc.devRef .tc main_v37) : S1x128.Idx → EReal) = row (W (Proc.devRef .tc main_arg21) : S128.Idx → EReal) := by
  after_results
  exact reshape_row _ _

theorem host5_v38 (W : Valuation τ sig (Elt Ideal)) :
    (StableHlo.after hostOps5 W (Proc.devRef .tc main_v38) : S1x128.Idx → EReal) = row (W (Proc.devRef .tc main_arg22) : S128.Idx → EReal) := by
  after_results
  exact reshape_row _ _

theorem host5_v39 (W : Valuation τ sig (Elt Ideal)) :
    (StableHlo.after hostOps5 W (Proc.devRef .tc main_v39) : S1x128.Idx → EReal) = row (W (Proc.devRef .tc main_arg23) : S128.Idx → EReal) := by
  after_results
  exact reshape_row _ _

theorem host5_v40 (W : Valuation τ sig (Elt Ideal)) :
    (StableHlo.after hostOps5 W (Proc.devRef .tc main_v40) : S1x128.Idx → EReal) = row (W (Proc.devRef .tc main_arg25) : S128.Idx → EReal) := by
  after_results
  exact reshape_row _ _

/-! ## The two aggregations -/

/-- The aggregation onto the source side: rows of the first call's result at the wrapped second edge index, times the
    fourth call's result, summed at that edge index. -/
theorem host4_v31 (W : Valuation τ sig (Elt Ideal)) :
    (StableHlo.after hostOps4 W (Proc.devRef .tc main_v31) : S8192x128.Idx → EReal)
      = Cert.Spec.aggregate gather_S8192x128_S524288x1_S524288x128_1_0_n_n_0_1_1128 scatter_S8192x128_S524288x1_S524288x128_1_0_0_1
          bcast_S_S524288 bcast_S524288_S524288x1_0 bcast_S_S8192x128
          (W (Proc.devRef .tc main_v1)) (W (Proc.devRef .tc main_v7)) (W (Proc.devRef .tc main_arg5)) := by
  after_results_simp
  rfl

/-- The aggregation onto the destination side: rows of the second call's result at the wrapped first edge index, times
    the third call's result, summed at that edge index. -/
theorem host4_v19 (W : Valuation τ sig (Elt Ideal)) :
    (StableHlo.after hostOps4 W (Proc.devRef .tc main_v19) : S8192x128.Idx → EReal)
      = Cert.Spec.aggregate gather_S8192x128_S524288x1_S524288x128_1_0_n_n_0_1_1128 scatter_S8192x128_S524288x1_S524288x128_1_0_0_1
          bcast_S_S524288 bcast_S524288_S524288x1_0 bcast_S_S8192x128
          (W (Proc.devRef .tc main_v3)) (W (Proc.devRef .tc main_v5)) (W (Proc.devRef .tc main_arg4)) := by
  after_results_simp
  rfl

end Cert.KernelIdeal.Hand

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibLayerNormUnit.lean ====
/-
  Layer normalisation as a vector unit spells it, equal to the specification's row-wise normalisation.

  For an R×C matrix h of extended reals, 1×C rows g and β, and float words nw, εw (read on the extended reals, never
  evaluated), the unit computes
    s = the row sums of h (a reduction by addition along axis 1 from a zero word), laid out as an R×1 column,
    μ = s / nw,                       d = h − μ (the column repeated across the C lanes),
    v = (row sums of d·d) / nw,       r = rsqrt(v + εw),
    result = d · r · g + β            (r repeated across the lanes, g and β down the rows).
  Entry (p, c) of the result is (h[p,c] − mean_p) · rsqrt(variance_p + ε) · g[0,c] + β[0,c] with mean_p and variance_p
  the mean and the variance of row p for the divisor nw: that is `Cert.LayerNorm.norm` of the two words' values.
  Any extents; depends on no program. The left side of `norm_unit_eq` is spelt out in full so that it meets a printed
  sequence of operations as it stands.
-/
import Idealize.ShloMosaic.PureOps.Ideal.Laws
import Idealize.ShloMosaic.Lib.ValueIdx
import Idealize.ShloMosaic.Lib.ValueLayout
import proofs.«152614_j19232863552107_2_alg».proof.Proof.LibAxisFold
import proofs.«152614_j19232863552107_2_alg».proof.Proof.LibColumn
import proofs.«152614_j19232863552107_2_alg».proof.Proof.LibDenseLayer
import proofs.«152614_j19232863552107_2_alg».proof.Proof.LibLayerNorm

noncomputable section

open scoped BigOperators

namespace Cert.LayerNorm

open Idealize.ShloMosaic Idealize.ShloMosaic.ValueIdx Cert.DenseLayer

section Unit
variable {R C : Nat}

/-- The row sums of m as a column, divided by the value of the word nw: at row p, (Σ_k m[p,k]) / nw. -/
theorem rowAvg_apply (nw : BitVec 32) (m : FVec Ideal ⟨2, ![R, C]⟩ .f32)
    (hr : (⟨2, ![R, C]⟩ : Shape).Reduces [1] ⟨1, ![R]⟩) (hφ : FKind.Formats .f32)
    (hacc : (0x00000000#32 : BitVec (FTy.f32).bits) = FKind.add.neutral .f32 hφ)
    (hc : (⟨1, ![R]⟩ : Shape).ShapeCasts ⟨2, ![R, 1]⟩) (p : Fin R) (u : Fin 1) :
    divf (shapeCast ⟨2, ![R, 1]⟩ (multiReduction .add [1] ⟨1, ![R]⟩ m 0x00000000#32 hr hφ hacc) hc) (broadcast ⟨2,
      ![R, 1]⟩ (Scalar.ofBits (F := Ideal) .f32 nw)) (ix2 p u)
      = Ideal.div (∑ k : Fin C, m (ix2 p k)) (Ideal.ofBits .f32 nw) := by
  rw [divf_apply, broadcast_apply, Cert.Column.shapeCast_a_a1_apply, Cert.AxisFold.row_sum]
  rfl

/-- A matrix minus a column repeated across the lanes: at (p, c), m[p,c] − col[p,0]. -/
theorem dev_apply (m : FVec Ideal ⟨2, ![R, C]⟩ .f32) (col : FVec Ideal ⟨2, ![R, 1]⟩ .f32)
    (hb : (⟨2, ![R, 1]⟩ : Shape).Broadcasts ⟨2, ![R, C]⟩) (p : Fin R) (c : Fin C) :
    subf m (broadcastTo ⟨2, ![R, C]⟩ col hb) (ix2 p c) = m (ix2 p c) - col (ix2 p (0 : Fin 1)) := by
  rw [subf_apply, Cert.Column.broadcastTo_a1_ab_apply]

/-- Scaling by a column repeated across the lanes, then by a gain row, plus an offset row: at (p, c),
    m[p,c] · col[p,0] · g[0,c] + β[0,c]. -/
theorem scale_apply (m : FVec Ideal ⟨2, ![R, C]⟩ .f32) (col : FVec Ideal ⟨2, ![R, 1]⟩ .f32) (g β : FVec Ideal ⟨2, ![1, C]⟩ .f32)
    (hb : (⟨2, ![R, 1]⟩ : Shape).Broadcasts ⟨2, ![R, C]⟩) (hb1 : (⟨2, ![1, C]⟩ : Shape).Broadcasts ⟨2, ![R, C]⟩)
    (p : Fin R) (c : Fin C) :
    addf (mulf (mulf m (broadcastTo ⟨2, ![R, C]⟩ col hb)) (broadcastTo ⟨2, ![R, C]⟩ g hb1)) (broadcastTo ⟨2, ![R, C]⟩ β hb1) (ix2 p c)
      = m (ix2 p c) * col (ix2 p (0 : Fin 1)) * g (ix2 (0 : Fin 1) c) + β (ix2 (0 : Fin 1) c) := by
  rw [addf_apply, mulf_apply, mulf_apply, Cert.Column.broadcastTo_a1_ab_apply, broadcastTo_1b_ab_apply,
    broadcastTo_1b_ab_apply]

/-- The inverse square root of a column plus the value of the word εw, entry by entry. -/
theorem rsqrt_offset_apply (εw : BitVec 32) (col : FVec Ideal ⟨2, ![R, 1]⟩ .f32) (i : (⟨2, ![R, 1]⟩ : Shape).Idx) :
    rsqrt (addf col (broadcast ⟨2, ![R, 1]⟩ (Scalar.ofBits (F := Ideal) .f32 εw))) i = Ideal.rsqrt (col i + Ideal.ofBits .f32 εw) := rfl

/-- The vector unit's layer normalisation is the specification's, as a whole array. -/
theorem norm_unit_eq (nw εw : BitVec 32) (h : FVec Ideal ⟨2, ![R, C]⟩ .f32) (g β : FVec Ideal ⟨2, ![1, C]⟩ .f32)
    (hr : (⟨2, ![R, C]⟩ : Shape).Reduces [1] ⟨1, ![R]⟩) (hφ : FKind.Formats .f32)
    (hacc : (0x00000000#32 : BitVec (FTy.f32).bits) = FKind.add.neutral .f32 hφ)
    (hc : (⟨1, ![R]⟩ : Shape).ShapeCasts ⟨2, ![R, 1]⟩) (hb : (⟨2, ![R, 1]⟩ : Shape).Broadcasts ⟨2, ![R, C]⟩)
    (hb1 : (⟨2, ![1, C]⟩ : Shape).Broadcasts ⟨2, ![R, C]⟩) :
    addf (mulf (mulf (subf h (broadcastTo ⟨2, ![R, C]⟩ (divf (shapeCast ⟨2, ![R, 1]⟩ (multiReduction .add [1] ⟨1,
      ![R]⟩ h 0x00000000#32 hr hφ hacc) hc) (broadcast ⟨2, ![R, 1]⟩ (Scalar.ofBits (F := Ideal) .f32 nw))) hb))
      (broadcastTo ⟨2, ![R, C]⟩ (rsqrt (addf (divf (shapeCast ⟨2, ![R, 1]⟩ (multiReduction .add [1] ⟨1, ![R]⟩ (mulf
      (subf h (broadcastTo ⟨2, ![R, C]⟩ (divf (shapeCast ⟨2, ![R, 1]⟩ (multiReduction .add [1] ⟨1, ![R]⟩ h
      0x00000000#32 hr hφ hacc) hc) (broadcast ⟨2, ![R, 1]⟩ (Scalar.ofBits (F := Ideal) .f32 nw))) hb)) (subf h
      (broadcastTo ⟨2, ![R, C]⟩ (divf (shapeCast ⟨2, ![R, 1]⟩ (multiReduction .add [1] ⟨1, ![R]⟩ h 0x00000000#32 hr hφ
      hacc) hc) (broadcast ⟨2, ![R, 1]⟩ (Scalar.ofBits (F := Ideal) .f32 nw))) hb))) 0x00000000#32 hr hφ hacc) hc)
      (broadcast ⟨2, ![R, 1]⟩ (Scalar.ofBits (F := Ideal) .f32 nw))) (broadcast ⟨2, ![R, 1]⟩ (Scalar.ofBits (F :=
      Ideal) .f32 εw)))) hb)) (broadcastTo ⟨2, ![R, C]⟩ g hb1)) (broadcastTo ⟨2, ![R, C]⟩ β hb1)
      = norm (Ideal.ofBits .f32 nw) (Ideal.ofBits .f32 εw) h g β := by
  funext j
  obtain ⟨p, c, rfl⟩ : ∃ (p : Fin R) (c : Fin C), j = ix2 p c := ⟨j 0, j 1, eq_ix2 j⟩
  -- the deviation of entry (p, k) from the mean of row p
  have hd : ∀ k : Fin C,
      (subf h (broadcastTo ⟨2, ![R, C]⟩ (divf (shapeCast ⟨2, ![R, 1]⟩ (multiReduction .add [1] ⟨1, ![R]⟩ h
        0x00000000#32 hr hφ hacc) hc) (broadcast ⟨2, ![R, 1]⟩ (Scalar.ofBits (F := Ideal) .f32 nw))) hb)) (ix2 p k)
        = h (ix2 p k) - mean (Ideal.ofBits .f32 nw) h p := fun k => by
    rw [dev_apply, rowAvg_apply]
    rfl
  rw [scale_apply, rsqrt_offset_apply, rowAvg_apply, hd c, norm_apply]
  -- the sum of the squared deviations is the variance's numerator
  have hs : ∑ k : Fin C,
      mulf (subf h (broadcastTo ⟨2, ![R, C]⟩ (divf (shapeCast ⟨2, ![R, 1]⟩ (multiReduction .add [1] ⟨1, ![R]⟩ h
        0x00000000#32 hr hφ hacc) hc) (broadcast ⟨2, ![R, 1]⟩ (Scalar.ofBits (F := Ideal) .f32 nw))) hb)) (subf h
        (broadcastTo ⟨2, ![R, C]⟩ (divf (shapeCast ⟨2, ![R, 1]⟩ (multiReduction .add [1] ⟨1, ![R]⟩ h 0x00000000#32 hr
        hφ hacc) hc) (broadcast ⟨2, ![R, 1]⟩ (Scalar.ofBits (F := Ideal) .f32 nw))) hb)) (ix2 p k)
        = ∑ k : Fin C, (h (ix2 p k) - mean (Ideal.ofBits .f32 nw) h p) * (h (ix2 p k) - mean (Ideal.ofBits .f32 nw) h p) :=
    Finset.sum_congr rfl fun k _ => by rw [mulf_apply, hd k]
  rw [hs]
  rfl

end Unit

end Cert.LayerNorm

end
-- ==== Proof.KernelPayload.lean ====
/-
  The kernel's arithmetic as the specification's functions, on the extended reals.

  Each value a kernel body stores is, as a whole array, a function of the blocks it read:
    * the two node-feature bodies and the two edge-feature bodies store a dense layer  x · W + b  of their blocks
      (the changes of float format on the way are the identity on the extended reals);
    * the two update bodies store  e + (norm(a · W1 + b1) · W2 + b2):  a dense layer, the layer normalisation along
      the 128 lanes (row sums divided by the lane count, deviations, their squared sums divided by the lane count, the
      inverse square root of that plus the offset, the gain and offset rows), a second dense layer, added onto the
      embedding block — the specification's residual block of the same operands.
-/
import proofs.«152614_j19232863552107_2_alg».proof.Proof.Gen.KernelIdeal.Skeleton
import proofs.«152614_j19232863552107_2_alg».proof.Proof.LibDenseLayer
import proofs.«152614_j19232863552107_2_alg».proof.Proof.LibLayerNorm
import proofs.«152614_j19232863552107_2_alg».proof.Proof.LibLayerNormUnit
import proofs.«152614_j19232863552107_2_alg».proof.Proof.Spec
import Idealize.ShloMosaic.Lib.Pipeline.Value

noncomputable section

namespace Cert.KernelIdeal.Payload

open Idealize.ShloMosaic Idealize.ShloMosaic.ValueIdx Cert.KernelIdeal Cert.KernelIdeal.Gen Cert.DenseLayer Cert.LayerNorm

/-- The dimension numbers of the 1024×128 by 128×128 product are those of a plain matrix product. -/
theorem plain_node : Cert.PlainDot.IsPlain dot_S1024x128_S128x128_S1024x128_1_0_0_1_n_n := ⟨rfl, rfl, rfl, rfl, rfl, rfl⟩

/-- The dimension numbers of the 8192×64 by 64×128 product are those of a plain matrix product. -/
theorem plain_edge : Cert.PlainDot.IsPlain dot_S8192x64_S64x128_S8192x128_1_0_0_1_n_n := ⟨rfl, rfl, rfl, rfl, rfl, rfl⟩

/-- The first node-feature body stores the dense layer of its blocks. -/
theorem lin0 (x0 : Vec Ideal S1024x128 .f32) (x1 : Vec Ideal S128x128 .f32) (x2 : Vec Ideal S1x128 .f32) :
    k0_pay1 x0 x1 x2 = affine x0 x1 x2 := by
  unfold k0_pay1
  simp only [shapeCast_self]
  exact affine_eq plain_node none _ _ _ _

/-- The second node-feature body stores the dense layer of its blocks. -/
theorem lin1 (x0 : Vec Ideal S1024x128 .f32) (x1 : Vec Ideal S128x128 .f32) (x2 : Vec Ideal S1x128 .f32) :
    k1_pay1 x0 x1 x2 = affine x0 x1 x2 := by
  unfold k1_pay1
  simp only [shapeCast_self]
  exact affine_eq plain_node none _ _ _ _

/-- The first edge-feature body stores the dense layer of its blocks. -/
theorem edge2 (x0 : Vec Ideal S8192x64 .f32) (x1 : Vec Ideal S64x128 .f32) (x2 : Vec Ideal S1x128 .f32) :
    (k2_pay1 x0 x1 x2 : S8192x128.Idx → EReal) = affine x0 x1 x2 := by
  unfold k2_pay1
  simp only [shapeCast_self]
  exact affine_eq plain_edge none _ _ _ _

/-- The second edge-feature body stores the dense layer of its blocks. -/
theorem edge3 (x0 : Vec Ideal S8192x64 .f32) (x1 : Vec Ideal S64x128 .f32) (x2 : Vec Ideal S1x128 .f32) :
    (k3_pay1 x0 x1 x2 : S8192x128.Idx → EReal) = affine x0 x1 x2 := by
  unfold k3_pay1
  simp only [shapeCast_self]
  exact affine_eq plain_edge none _ _ _ _

/-- The first update body stores the residual block of its operands: x0 the aggregated block, x1 the embedding block,
    x2, x3 the first layer's weights and bias row, x4, x5 the gain and offset rows, x6, x7 the second layer's. -/
theorem apply4 (x0 x1 : Vec Ideal S1024x128 .f32) (x2 : Vec Ideal S128x128 .f32) (x3 x4 x5 : Vec Ideal S1x128 .f32)
    (x6 : Vec Ideal S128x128 .f32) (x7 : Vec Ideal S1x128 .f32) :
    k4_pay1 (k4_pay2 x0 x2 x3 x4 x5 x6) x7 x1
      = residual Cert.Spec.laneCount Cert.Spec.offset x0 x1 x2 x3 x4 x5 x6 x7 := by
  unfold k4_pay1 k4_pay2
  simp only [shapeCast_self]
  rw [affine_eq plain_node none, affine_eq plain_node none]
  erw [norm_unit_eq]
  rfl

/-- The second update body stores the residual block of its operands (as for the first). -/
theorem apply5 (x0 x1 : Vec Ideal S1024x128 .f32) (x2 : Vec Ideal S128x128 .f32) (x3 x4 x5 : Vec Ideal S1x128 .f32)
    (x6 : Vec Ideal S128x128 .f32) (x7 : Vec Ideal S1x128 .f32) :
    k5_pay1 (k5_pay2 x0 x2 x3 x4 x5 x6) x7 x1
      = residual Cert.Spec.laneCount Cert.Spec.offset x0 x1 x2 x3 x4 x5 x6 x7 := by
  unfold k5_pay1 k5_pay2
  simp only [shapeCast_self]
  rw [affine_eq plain_node none, affine_eq plain_node none]
  erw [norm_unit_eq]
  rfl

end Cert.KernelIdeal.Payload

end
-- ==== Proof.KernelBlocks.lean ====
/-
  From blocks to arrays: what each pipelined call of the idealized kernel leaves in its result array.

  Every call cuts its first operand (for the last two calls also its second) and its result into blocks of consecutive
  rows, one block per grid point, and reads its other operands whole at every point. An entry of a dense layer, and of
  the residual block, depends on one row of the row-cut operands only; so what point t computes from its blocks is
  block t of the layer of the whole arrays, the blocks cover the result array, and the array ends holding that layer —
  `affine` for the first four calls, `residual` for the last two — of whatever the call found in the arrays it reads.
-/
import proofs.«152614_j19232863552107_2_alg».proof.Proof.Gen.KernelIdeal.Frame
import proofs.«152614_j19232863552107_2_alg».proof.Proof.LibDenseLayer
import proofs.«152614_j19232863552107_2_alg».proof.Proof.LibLayerNorm
import proofs.«152614_j19232863552107_2_alg».proof.Proof.Spec
import proofs.«152614_j19232863552107_2_alg».proof.Proof.KernelPayload
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.DenseLayer Cert.LayerNorm

variable (V : (c : Dev nD) → (b : Ref sig .tc) → Buf (Elt Ideal) ((c : Thread nD τ).loc b))

theorem hz : (![0, 0] : Fin 2 → Nat) = fun _ => 0 := funext fun a => by fin_cases a <;> rfl

/-! ## Call 0 -/

theorem N0 : cfg0.N = 8 := by decide

/-- The printed index maps over the grid: a window cut by rows sits at block (t, 0), a window read whole at (0, 0). -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Row x of window 0's block at point t is row 1024·t + x of its array. -/
theorem blk0_0 (c : Dev nD) (t : Fin cfg0.N) (x : Fin 1024) (k : Fin 128) (r : Fin 8192) (hr : r.val = 1024 * t.val + x.val) :
    (iblk0 V c 0 t : S1024x128.Idx → EReal) (ix2 x k) = (V c main_arg0 : S8192x128.Idx → EReal) (ix2 r k) := by
  unfold iblk0
  rw [View.read_apply]
  show V c main_arg0 _ = V c main_arg0 _
  refine congrArg (V c main_arg0) ?_
  funext a
  apply Fin.ext
  match a with
  | ⟨0, _⟩ => show win0_0.index t (0 : Fin 2) * 1024 + 1 * x.val = r.val; rw [(idx0 t).1, hr]; omega
  | ⟨1, _⟩ => show win0_0.index t (1 : Fin 2) * 128 + 1 * k.val = k.val; rw [(idx0 t).2.1]; omega

/-- Window 1 is read whole at every point. -/
theorem blk0_1 (c : Dev nD) (t : Fin cfg0.N) (x : Fin 128) (k : Fin 128) :
    (iblk0 V c 1 t : S128x128.Idx → EReal) (ix2 x k) = (V c main_arg6 : S128x128.Idx → EReal) (ix2 x k) := by
  unfold iblk0
  rw [View.read_apply]
  show V c main_arg6 _ = V c main_arg6 _
  refine congrArg (V c main_arg6) ?_
  funext a
  apply Fin.ext
  match a with
  | ⟨0, _⟩ => show win0_1.index t (0 : Fin 2) * 128 + 1 * x.val = x.val; rw [(idx0 t).2.2.1]; omega
  | ⟨1, _⟩ => show win0_1.index t (1 : Fin 2) * 128 + 1 * k.val = k.val; rw [(idx0 t).2.2.2.1]; omega

/-- Window 2 is read whole at every point. -/
theorem blk0_2 (c : Dev nD) (t : Fin cfg0.N) (x : Fin 1) (k : Fin 128) :
    (iblk0 V c 2 t : S1x128.Idx → EReal) (ix2 x k) = (V c main_v0 : S1x128.Idx → EReal) (ix2 x k) := by
  unfold iblk0
  rw [View.read_apply]
  show V c main_v0 _ = V c main_v0 _
  refine congrArg (V c main_v0) ?_
  funext a
  apply Fin.ext
  match a with
  | ⟨0, _⟩ => show win0_2.index t (0 : Fin 2) * 1 + 1 * x.val = x.val; rw [(idx0 t).2.2.2.2.1]; omega
  | ⟨1, _⟩ => show win0_2.index t (1 : Fin 2) * 128 + 1 * k.val = k.val; rw [(idx0 t).2.2.2.2.2.1]; omega

/-- What point t writes back is block t of the whole arrays' result. -/
theorem flushed0 (c : Dev nD) (t : Fin cfg0.N) :
    (dat0 V c).flushed 3 t = ((cfg0.win 3).blk t).view.read (Elt Ideal) (affine (V c main_arg0) (V c main_arg6) (V c main_v0)) := by
  show (cfg0.win 3).cut (grid0.coords t) ((dat0 V c).after 3 t) = _
  rw [after0_3]
  unfold out0_3
  rw [View.canon_unit_zero hz]
  simp only [View.ld_unit_zero (S := S1024x128) hz, View.ld_unit_zero (S := S128x128) hz, View.ld_unit_zero (S := S1x128) hz]
  rw [Cert.KernelIdeal.Payload.lin0]
  funext j
  obtain ⟨x, q, rfl⟩ : ∃ (x : Fin 1024) (q : Fin 128), j = ix2 x q := ⟨j 0, j 1, eq_ix2 j⟩
  have hx : 1024 * t.val + x.val < 8192 := by have h1 : t.val < 8 := lt_of_lt_of_eq t.isLt N0; have h2 := x.isLt; omega
  show (affine (iblk0 V c 0 t) (iblk0 V c 1 t) (iblk0 V c 2 t) : S1024x128.Idx → EReal) (ix2 x q)
    = (affine (V c main_arg0) (V c main_arg6) (V c main_v0) : S8192x128.Idx → EReal) (((cfg0.win 3).blk t).view.emb (ix2 x q))
  have he : ((cfg0.win 3).blk t).view.emb (ix2 x q) = ix2 (⟨1024 * t.val + x.val, hx⟩ : Fin 8192) q := by
    funext a
    apply Fin.ext
    match a with
    | ⟨0, _⟩ => show win0_3.index t (0 : Fin 2) * 1024 + 1 * x.val = 1024 * t.val + x.val; rw [(idx0 t).2.2.2.2.2.2.1]; omega
    | ⟨1, _⟩ => show win0_3.index t (1 : Fin 2) * 128 + 1 * q.val = q.val; rw [(idx0 t).2.2.2.2.2.2.2]; omega
  rw [he]
  exact affine_congr _ _ _ _ _ _ x _ q q (fun k => blk0_0 V c t x k _ rfl) (fun k => blk0_1 V c t k q) (blk0_2 V c t 0 q)

/-- An index of the result array is in point t's block iff each coordinate is in the block's range on its axis. -/
theorem mem_blk0 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v1).slice (win0_3.rect t)).set ↔ _
  rw [View.set_slice_whole, Rect.mem_set_unit]
  exact Iff.rfl

/-- Every row of the result array lies in some point's block: row r in that of point r / 1024. -/
theorem covered0 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have ht : (i 0).val / 1024 < cfg0.N := by rw [N0]; omega
  refine ⟨⟨(i 0).val / 1024, ht⟩, flush0_3 _, ?_⟩
  rw [mem_blk0]
  have e6 := (idx0 ⟨(i 0).val / 1024, ht⟩).2.2.2.2.2.2.1
  have e7 := (idx0 ⟨(i 0).val / 1024, ht⟩).2.2.2.2.2.2.2
  intro a
  match a with
  | ⟨0, _⟩ =>
    show win0_3.index _ (0 : Fin 2) * 1024 ≤ (i 0).val ∧ (i 0).val < win0_3.index _ (0 : Fin 2) * 1024 + 1024
    rw [e6]; show (i 0).val / 1024 * 1024 ≤ (i 0).val ∧ (i 0).val < (i 0).val / 1024 * 1024 + 1024; omega
  | ⟨1, _⟩ =>
    show win0_3.index _ (1 : Fin 2) * 128 ≤ (i 1).val ∧ (i 1).val < win0_3.index _ (1 : Fin 2) * 128 + 128
    rw [e7]; omega

/-- The result array after call 0: the whole arrays' result, whatever the call found in them at entry. -/
theorem final0 (c : Dev nD) : (dat0 V c).arrAt 3 cfg0.N = (affine (V c main_arg0) (V c main_arg6) (V c main_v0) : S8192x128.Idx → EReal) :=
  (dat0 V c).arrAt_eq_of_cover 3 _ (fun t _ => flushed0 V c t) covered0

/-- The same, with what the call found in the arrays it reads given by equations. -/
theorem final0_at (c : Dev nD) (a0 : S8192x128.Idx → EReal) (a1 : S128x128.Idx → EReal) (a2 : S1x128.Idx → EReal)
    (h0 : (V c main_arg0 : S8192x128.Idx → EReal) = a0) (h1 : (V c main_arg6 : S128x128.Idx → EReal) = a1) (h2 : (V c main_v0 : S1x128.Idx → EReal) = a2) :
    (dat0 V c).arrAt 3 cfg0.N = (affine a0 a1 a2 : S8192x128.Idx → EReal) := by
  subst h0 h1 h2
  exact final0 V c

/-! ## Call 1 -/

theorem N1 : cfg1.N = 8 := by decide

/-- The printed index maps over the grid: a window cut by rows sits at block (t, 0), a window read whole at (0, 0). -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Row x of window 0's block at point t is row 1024·t + x of its array. -/
theorem blk1_0 (c : Dev nD) (t : Fin cfg1.N) (x : Fin 1024) (k : Fin 128) (r : Fin 8192) (hr : r.val = 1024 * t.val + x.val) :
    (iblk1 V c 0 t : S1024x128.Idx → EReal) (ix2 x k) = (V c main_arg1 : S8192x128.Idx → EReal) (ix2 r k) := by
  unfold iblk1
  rw [View.read_apply]
  show V c main_arg1 _ = V c main_arg1 _
  refine congrArg (V c main_arg1) ?_
  funext a
  apply Fin.ext
  match a with
  | ⟨0, _⟩ => show win1_0.index t (0 : Fin 2) * 1024 + 1 * x.val = r.val; rw [(idx1 t).1, hr]; omega
  | ⟨1, _⟩ => show win1_0.index t (1 : Fin 2) * 128 + 1 * k.val = k.val; rw [(idx1 t).2.1]; omega

/-- Window 1 is read whole at every point. -/
theorem blk1_1 (c : Dev nD) (t : Fin cfg1.N) (x : Fin 128) (k : Fin 128) :
    (iblk1 V c 1 t : S128x128.Idx → EReal) (ix2 x k) = (V c main_arg8 : S128x128.Idx → EReal) (ix2 x k) := by
  unfold iblk1
  rw [View.read_apply]
  show V c main_arg8 _ = V c main_arg8 _
  refine congrArg (V c main_arg8) ?_
  funext a
  apply Fin.ext
  match a with
  | ⟨0, _⟩ => show win1_1.index t (0 : Fin 2) * 128 + 1 * x.val = x.val; rw [(idx1 t).2.2.1]; omega
  | ⟨1, _⟩ => show win1_1.index t (1 : Fin 2) * 128 + 1 * k.val = k.val; rw [(idx1 t).2.2.2.1]; omega

/-- Window 2 is read whole at every point. -/
theorem blk1_2 (c : Dev nD) (t : Fin cfg1.N) (x : Fin 1) (k : Fin 128) :
    (iblk1 V c 2 t : S1x128.Idx → EReal) (ix2 x k) = (V c main_v2 : S1x128.Idx → EReal) (ix2 x k) := by
  unfold iblk1
  rw [View.read_apply]
  show V c main_v2 _ = V c main_v2 _
  refine congrArg (V c main_v2) ?_
  funext a
  apply Fin.ext
  match a with
  | ⟨0, _⟩ => show win1_2.index t (0 : Fin 2) * 1 + 1 * x.val = x.val; rw [(idx1 t).2.2.2.2.1]; omega
  | ⟨1, _⟩ => show win1_2.index t (1 : Fin 2) * 128 + 1 * k.val = k.val; rw [(idx1 t).2.2.2.2.2.1]; omega

/-- What point t writes back is block t of the whole arrays' result. -/
theorem flushed1 (c : Dev nD) (t : Fin cfg1.N) :
    (dat1 V c).flushed 3 t = ((cfg1.win 3).blk t).view.read (Elt Ideal) (affine (V c main_arg1) (V c main_arg8) (V c main_v2)) := by
  show (cfg1.win 3).cut (grid1.coords t) ((dat1 V c).after 3 t) = _
  rw [after1_3]
  unfold out1_3
  rw [View.canon_unit_zero hz]
  simp only [View.ld_unit_zero (S := S1024x128) hz, View.ld_unit_zero (S := S128x128) hz, View.ld_unit_zero (S := S1x128) hz]
  rw [Cert.KernelIdeal.Payload.lin1]
  funext j
  obtain ⟨x, q, rfl⟩ : ∃ (x : Fin 1024) (q : Fin 128), j = ix2 x q := ⟨j 0, j 1, eq_ix2 j⟩
  have hx : 1024 * t.val + x.val < 8192 := by have h1 : t.val < 8 := lt_of_lt_of_eq t.isLt N1; have h2 := x.isLt; omega
  show (affine (iblk1 V c 0 t) (iblk1 V c 1 t) (iblk1 V c 2 t) : S1024x128.Idx → EReal) (ix2 x q)
    = (affine (V c main_arg1) (V c main_arg8) (V c main_v2) : S8192x128.Idx → EReal) (((cfg1.win 3).blk t).view.emb (ix2 x q))
  have he : ((cfg1.win 3).blk t).view.emb (ix2 x q) = ix2 (⟨1024 * t.val + x.val, hx⟩ : Fin 8192) q := by
    funext a
    apply Fin.ext
    match a with
    | ⟨0, _⟩ => show win1_3.index t (0 : Fin 2) * 1024 + 1 * x.val = 1024 * t.val + x.val; rw [(idx1 t).2.2.2.2.2.2.1]; omega
    | ⟨1, _⟩ => show win1_3.index t (1 : Fin 2) * 128 + 1 * q.val = q.val; rw [(idx1 t).2.2.2.2.2.2.2]; omega
  rw [he]
  exact affine_congr _ _ _ _ _ _ x _ q q (fun k => blk1_0 V c t x k _ rfl) (fun k => blk1_1 V c t k q) (blk1_2 V c t 0 q)

/-- An index of the result array is in point t's block iff each coordinate is in the block's range on its axis. -/
theorem mem_blk1 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v3).slice (win1_3.rect t)).set ↔ _
  rw [View.set_slice_whole, Rect.mem_set_unit]
  exact Iff.rfl

/-- Every row of the result array lies in some point's block: row r in that of point r / 1024. -/
theorem covered1 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have ht : (i 0).val / 1024 < cfg1.N := by rw [N1]; omega
  refine ⟨⟨(i 0).val / 1024, ht⟩, flush1_3 _, ?_⟩
  rw [mem_blk1]
  have e6 := (idx1 ⟨(i 0).val / 1024, ht⟩).2.2.2.2.2.2.1
  have e7 := (idx1 ⟨(i 0).val / 1024, ht⟩).2.2.2.2.2.2.2
  intro a
  match a with
  | ⟨0, _⟩ =>
    show win1_3.index _ (0 : Fin 2) * 1024 ≤ (i 0).val ∧ (i 0).val < win1_3.index _ (0 : Fin 2) * 1024 + 1024
    rw [e6]; show (i 0).val / 1024 * 1024 ≤ (i 0).val ∧ (i 0).val < (i 0).val / 1024 * 1024 + 1024; omega
  | ⟨1, _⟩ =>
    show win1_3.index _ (1 : Fin 2) * 128 ≤ (i 1).val ∧ (i 1).val < win1_3.index _ (1 : Fin 2) * 128 + 128
    rw [e7]; omega

/-- The result array after call 1: the whole arrays' result, whatever the call found in them at entry. -/
theorem final1 (c : Dev nD) : (dat1 V c).arrAt 3 cfg1.N = (affine (V c main_arg1) (V c main_arg8) (V c main_v2) : S8192x128.Idx → EReal) :=
  (dat1 V c).arrAt_eq_of_cover 3 _ (fun t _ => flushed1 V c t) covered1

/-- The same, with what the call found in the arrays it reads given by equations. -/
theorem final1_at (c : Dev nD) (a0 : S8192x128.Idx → EReal) (a1 : S128x128.Idx → EReal) (a2 : S1x128.Idx → EReal)
    (h0 : (V c main_arg1 : S8192x128.Idx → EReal) = a0) (h1 : (V c main_arg8 : S128x128.Idx → EReal) = a1) (h2 : (V c main_v2 : S1x128.Idx → EReal) = a2) :
    (dat1 V c).arrAt 3 cfg1.N = (affine a0 a1 a2 : S8192x128.Idx → EReal) := by
  subst h0 h1 h2
  exact final1 V c

/-! ## Call 2 -/

theorem N2 : cfg2.N = 64 := by decide

/-- The printed index maps over the grid: a window cut by rows sits at block (t, 0), a window read whole at (0, 0). -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Row x of window 0's block at point t is row 8192·t + x of its array. -/
theorem blk2_0 (c : Dev nD) (t : Fin cfg2.N) (x : Fin 8192) (k : Fin 64) (r : Fin 524288) (hr : r.val = 8192 * t.val + x.val) :
    (iblk2 V c 0 t : S8192x64.Idx → EReal) (ix2 x k) = (V c main_arg2 : S524288x64.Idx → EReal) (ix2 r k) := by
  unfold iblk2
  rw [View.read_apply]
  show V c main_arg2 _ = V c main_arg2 _
  refine congrArg (V c main_arg2) ?_
  funext a
  apply Fin.ext
  match a with
  | ⟨0, _⟩ => show win2_0.index t (0 : Fin 2) * 8192 + 1 * x.val = r.val; rw [(idx2 t).1, hr]; omega
  | ⟨1, _⟩ => show win2_0.index t (1 : Fin 2) * 64 + 1 * k.val = k.val; rw [(idx2 t).2.1]; omega

/-- Window 1 is read whole at every point. -/
theorem blk2_1 (c : Dev nD) (t : Fin cfg2.N) (x : Fin 64) (k : Fin 128) :
    (iblk2 V c 1 t : S64x128.Idx → EReal) (ix2 x k) = (V c main_arg10 : S64x128.Idx → EReal) (ix2 x k) := by
  unfold iblk2
  rw [View.read_apply]
  show V c main_arg10 _ = V c main_arg10 _
  refine congrArg (V c main_arg10) ?_
  funext a
  apply Fin.ext
  match a with
  | ⟨0, _⟩ => show win2_1.index t (0 : Fin 2) * 64 + 1 * x.val = x.val; rw [(idx2 t).2.2.1]; omega
  | ⟨1, _⟩ => show win2_1.index t (1 : Fin 2) * 128 + 1 * k.val = k.val; rw [(idx2 t).2.2.2.1]; omega

/-- Window 2 is read whole at every point. -/
theorem blk2_2 (c : Dev nD) (t : Fin cfg2.N) (x : Fin 1) (k : Fin 128) :
    (iblk2 V c 2 t : S1x128.Idx → EReal) (ix2 x k) = (V c main_v4 : S1x128.Idx → EReal) (ix2 x k) := by
  unfold iblk2
  rw [View.read_apply]
  show V c main_v4 _ = V c main_v4 _
  refine congrArg (V c main_v4) ?_
  funext a
  apply Fin.ext
  match a with
  | ⟨0, _⟩ => show win2_2.index t (0 : Fin 2) * 1 + 1 * x.val = x.val; rw [(idx2 t).2.2.2.2.1]; omega
  | ⟨1, _⟩ => show win2_2.index t (1 : Fin 2) * 128 + 1 * k.val = k.val; rw [(idx2 t).2.2.2.2.2.1]; omega

/-- What point t writes back is block t of the whole arrays' result. -/
theorem flushed2 (c : Dev nD) (t : Fin cfg2.N) :
    (dat2 V c).flushed 3 t = ((cfg2.win 3).blk t).view.read (Elt Ideal) (affine (V c main_arg2) (V c main_arg10) (V c main_v4)) := by
  show (cfg2.win 3).cut (grid2.coords t) ((dat2 V c).after 3 t) = _
  rw [after2_3]
  unfold out2_3
  rw [View.canon_unit_zero hz]
  simp only [View.ld_unit_zero (S := S8192x64) hz, View.ld_unit_zero (S := S64x128) hz, View.ld_unit_zero (S := S1x128) hz]
  rw [Cert.KernelIdeal.Payload.edge2]
  funext j
  obtain ⟨x, q, rfl⟩ : ∃ (x : Fin 8192) (q : Fin 128), j = ix2 x q := ⟨j 0, j 1, eq_ix2 j⟩
  have hx : 8192 * t.val + x.val < 524288 := by have h1 : t.val < 64 := lt_of_lt_of_eq t.isLt N2; have h2 := x.isLt; omega
  show (affine (iblk2 V c 0 t) (iblk2 V c 1 t) (iblk2 V c 2 t) : S8192x128.Idx → EReal) (ix2 x q)
    = (affine (V c main_arg2) (V c main_arg10) (V c main_v4) : S524288x128.Idx → EReal) (((cfg2.win 3).blk t).view.emb (ix2 x q))
  have he : ((cfg2.win 3).blk t).view.emb (ix2 x q) = ix2 (⟨8192 * t.val + x.val, hx⟩ : Fin 524288) q := by
    funext a
    apply Fin.ext
    match a with
    | ⟨0, _⟩ => show win2_3.index t (0 : Fin 2) * 8192 + 1 * x.val = 8192 * t.val + x.val; rw [(idx2 t).2.2.2.2.2.2.1]; omega
    | ⟨1, _⟩ => show win2_3.index t (1 : Fin 2) * 128 + 1 * q.val = q.val; rw [(idx2 t).2.2.2.2.2.2.2]; omega
  rw [he]
  exact affine_congr _ _ _ _ _ _ x _ q q (fun k => blk2_0 V c t x k _ rfl) (fun k => blk2_1 V c t k q) (blk2_2 V c t 0 q)

/-- An index of the result array is in point t's block iff each coordinate is in the block's range on its axis. -/
theorem mem_blk2 (t : Fin cfg2.N) (i : S524288x128.Idx) :
    i ∈ ((cfg2.win 3).blk t).view.set ↔ ∀ a : Fin 2, win2_3.index t a * S8192x128.size a ≤ (i a).val ∧ (i a).val < win2_3.index t a * S8192x128.size a + S8192x128.size a := by
  show i ∈ ((View.whole main_v5).slice (win2_3.rect t)).set ↔ _
  rw [View.set_slice_whole, Rect.mem_set_unit]
  exact Iff.rfl

/-- Every row of the result array lies in some point's block: row r in that of point r / 8192. -/
theorem covered2 (i : S524288x128.Idx) : ∃ t : Fin cfg2.N, (cfg2.win 3).flush t = true ∧ i ∈ ((cfg2.win 3).blk t).view.set := by
  have hi0 : (i 0).val < 524288 := (i 0).isLt
  have hi1 : (i 1).val < 128 := (i 1).isLt
  have ht : (i 0).val / 8192 < cfg2.N := by rw [N2]; omega
  refine ⟨⟨(i 0).val / 8192, ht⟩, flush2_3 _, ?_⟩
  rw [mem_blk2]
  have e6 := (idx2 ⟨(i 0).val / 8192, ht⟩).2.2.2.2.2.2.1
  have e7 := (idx2 ⟨(i 0).val / 8192, ht⟩).2.2.2.2.2.2.2
  intro a
  match a with
  | ⟨0, _⟩ =>
    show win2_3.index _ (0 : Fin 2) * 8192 ≤ (i 0).val ∧ (i 0).val < win2_3.index _ (0 : Fin 2) * 8192 + 8192
    rw [e6]; show (i 0).val / 8192 * 8192 ≤ (i 0).val ∧ (i 0).val < (i 0).val / 8192 * 8192 + 8192; omega
  | ⟨1, _⟩ =>
    show win2_3.index _ (1 : Fin 2) * 128 ≤ (i 1).val ∧ (i 1).val < win2_3.index _ (1 : Fin 2) * 128 + 128
    rw [e7]; omega

/-- The result array after call 2: the whole arrays' result, whatever the call found in them at entry. -/
theorem final2 (c : Dev nD) : (dat2 V c).arrAt 3 cfg2.N = (affine (V c main_arg2) (V c main_arg10) (V c main_v4) : S524288x128.Idx → EReal) :=
  (dat2 V c).arrAt_eq_of_cover 3 _ (fun t _ => flushed2 V c t) covered2

/-- The same, with what the call found in the arrays it reads given by equations. -/
theorem final2_at (c : Dev nD) (a0 : S524288x64.Idx → EReal) (a1 : S64x128.Idx → EReal) (a2 : S1x128.Idx → EReal)
    (h0 : (V c main_arg2 : S524288x64.Idx → EReal) = a0) (h1 : (V c main_arg10 : S64x128.Idx → EReal) = a1) (h2 : (V c main_v4 : S1x128.Idx → EReal) = a2) :
    (dat2 V c).arrAt 3 cfg2.N = (affine a0 a1 a2 : S524288x128.Idx → EReal) := by
  subst h0 h1 h2
  exact final2 V c

/-! ## Call 3 -/

theorem N3 : cfg3.N = 64 := by decide

/-- The printed index maps over the grid: a window cut by rows sits at block (t, 0), a window read whole at (0, 0). -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Row x of window 0's block at point t is row 8192·t + x of its array. -/
theorem blk3_0 (c : Dev nD) (t : Fin cfg3.N) (x : Fin 8192) (k : Fin 64) (r : Fin 524288) (hr : r.val = 8192 * t.val + x.val) :
    (iblk3 V c 0 t : S8192x64.Idx → EReal) (ix2 x k) = (V c main_arg3 : S524288x64.Idx → EReal) (ix2 r k) := by
  unfold iblk3
  rw [View.read_apply]
  show V c main_arg3 _ = V c main_arg3 _
  refine congrArg (V c main_arg3) ?_
  funext a
  apply Fin.ext
  match a with
  | ⟨0, _⟩ => show win3_0.index t (0 : Fin 2) * 8192 + 1 * x.val = r.val; rw [(idx3 t).1, hr]; omega
  | ⟨1, _⟩ => show win3_0.index t (1 : Fin 2) * 64 + 1 * k.val = k.val; rw [(idx3 t).2.1]; omega

/-- Window 1 is read whole at every point. -/
theorem blk3_1 (c : Dev nD) (t : Fin cfg3.N) (x : Fin 64) (k : Fin 128) :
    (iblk3 V c 1 t : S64x128.Idx → EReal) (ix2 x k) = (V c main_arg12 : S64x128.Idx → EReal) (ix2 x k) := by
  unfold iblk3
  rw [View.read_apply]
  show V c main_arg12 _ = V c main_arg12 _
  refine congrArg (V c main_arg12) ?_
  funext a
  apply Fin.ext
  match a with
  | ⟨0, _⟩ => show win3_1.index t (0 : Fin 2) * 64 + 1 * x.val = x.val; rw [(idx3 t).2.2.1]; omega
  | ⟨1, _⟩ => show win3_1.index t (1 : Fin 2) * 128 + 1 * k.val = k.val; rw [(idx3 t).2.2.2.1]; omega

/-- Window 2 is read whole at every point. -/
theorem blk3_2 (c : Dev nD) (t : Fin cfg3.N) (x : Fin 1) (k : Fin 128) :
    (iblk3 V c 2 t : S1x128.Idx → EReal) (ix2 x k) = (V c main_v6 : S1x128.Idx → EReal) (ix2 x k) := by
  unfold iblk3
  rw [View.read_apply]
  show V c main_v6 _ = V c main_v6 _
  refine congrArg (V c main_v6) ?_
  funext a
  apply Fin.ext
  match a with
  | ⟨0, _⟩ => show win3_2.index t (0 : Fin 2) * 1 + 1 * x.val = x.val; rw [(idx3 t).2.2.2.2.1]; omega
  | ⟨1, _⟩ => show win3_2.index t (1 : Fin 2) * 128 + 1 * k.val = k.val; rw [(idx3 t).2.2.2.2.2.1]; omega

/-- What point t writes back is block t of the whole arrays' result. -/
theorem flushed3 (c : Dev nD) (t : Fin cfg3.N) :
    (dat3 V c).flushed 3 t = ((cfg3.win 3).blk t).view.read (Elt Ideal) (affine (V c main_arg3) (V c main_arg12) (V c main_v6)) := by
  show (cfg3.win 3).cut (grid3.coords t) ((dat3 V c).after 3 t) = _
  rw [after3_3]
  unfold out3_3
  rw [View.canon_unit_zero hz]
  simp only [View.ld_unit_zero (S := S8192x64) hz, View.ld_unit_zero (S := S64x128) hz, View.ld_unit_zero (S := S1x128) hz]
  rw [Cert.KernelIdeal.Payload.edge3]
  funext j
  obtain ⟨x, q, rfl⟩ : ∃ (x : Fin 8192) (q : Fin 128), j = ix2 x q := ⟨j 0, j 1, eq_ix2 j⟩
  have hx : 8192 * t.val + x.val < 524288 := by have h1 : t.val < 64 := lt_of_lt_of_eq t.isLt N3; have h2 := x.isLt; omega
  show (affine (iblk3 V c 0 t) (iblk3 V c 1 t) (iblk3 V c 2 t) : S8192x128.Idx → EReal) (ix2 x q)
    = (affine (V c main_arg3) (V c main_arg12) (V c main_v6) : S524288x128.Idx → EReal) (((cfg3.win 3).blk t).view.emb (ix2 x q))
  have he : ((cfg3.win 3).blk t).view.emb (ix2 x q) = ix2 (⟨8192 * t.val + x.val, hx⟩ : Fin 524288) q := by
    funext a
    apply Fin.ext
    match a with
    | ⟨0, _⟩ => show win3_3.index t (0 : Fin 2) * 8192 + 1 * x.val = 8192 * t.val + x.val; rw [(idx3 t).2.2.2.2.2.2.1]; omega
    | ⟨1, _⟩ => show win3_3.index t (1 : Fin 2) * 128 + 1 * q.val = q.val; rw [(idx3 t).2.2.2.2.2.2.2]; omega
  rw [he]
  exact affine_congr _ _ _ _ _ _ x _ q q (fun k => blk3_0 V c t x k _ rfl) (fun k => blk3_1 V c t k q) (blk3_2 V c t 0 q)

/-- An index of the result array is in point t's block iff each coordinate is in the block's range on its axis. -/
theorem mem_blk3 (t : Fin cfg3.N) (i : S524288x128.Idx) :
    i ∈ ((cfg3.win 3).blk t).view.set ↔ ∀ a : Fin 2, win3_3.index t a * S8192x128.size a ≤ (i a).val ∧ (i a).val < win3_3.index t a * S8192x128.size a + S8192x128.size a := by
  show i ∈ ((View.whole main_v7).slice (win3_3.rect t)).set ↔ _
  rw [View.set_slice_whole, Rect.mem_set_unit]
  exact Iff.rfl

/-- Every row of the result array lies in some point's block: row r in that of point r / 8192. -/
theorem covered3 (i : S524288x128.Idx) : ∃ t : Fin cfg3.N, (cfg3.win 3).flush t = true ∧ i ∈ ((cfg3.win 3).blk t).view.set := by
  have hi0 : (i 0).val < 524288 := (i 0).isLt
  have hi1 : (i 1).val < 128 := (i 1).isLt
  have ht : (i 0).val / 8192 < cfg3.N := by rw [N3]; omega
  refine ⟨⟨(i 0).val / 8192, ht⟩, flush3_3 _, ?_⟩
  rw [mem_blk3]
  have e6 := (idx3 ⟨(i 0).val / 8192, ht⟩).2.2.2.2.2.2.1
  have e7 := (idx3 ⟨(i 0).val / 8192, ht⟩).2.2.2.2.2.2.2
  intro a
  match a with
  | ⟨0, _⟩ =>
    show win3_3.index _ (0 : Fin 2) * 8192 ≤ (i 0).val ∧ (i 0).val < win3_3.index _ (0 : Fin 2) * 8192 + 8192
    rw [e6]; show (i 0).val / 8192 * 8192 ≤ (i 0).val ∧ (i 0).val < (i 0).val / 8192 * 8192 + 8192; omega
  | ⟨1, _⟩ =>
    show win3_3.index _ (1 : Fin 2) * 128 ≤ (i 1).val ∧ (i 1).val < win3_3.index _ (1 : Fin 2) * 128 + 128
    rw [e7]; omega

/-- The result array after call 3: the whole arrays' result, whatever the call found in them at entry. -/
theorem final3 (c : Dev nD) : (dat3 V c).arrAt 3 cfg3.N = (affine (V c main_arg3) (V c main_arg12) (V c main_v6) : S524288x128.Idx → EReal) :=
  (dat3 V c).arrAt_eq_of_cover 3 _ (fun t _ => flushed3 V c t) covered3

/-- The same, with what the call found in the arrays it reads given by equations. -/
theorem final3_at (c : Dev nD) (a0 : S524288x64.Idx → EReal) (a1 : S64x128.Idx → EReal) (a2 : S1x128.Idx → EReal)
    (h0 : (V c main_arg3 : S524288x64.Idx → EReal) = a0) (h1 : (V c main_arg12 : S64x128.Idx → EReal) = a1) (h2 : (V c main_v6 : S1x128.Idx → EReal) = a2) :
    (dat3 V c).arrAt 3 cfg3.N = (affine a0 a1 a2 : S524288x128.Idx → EReal) := by
  subst h0 h1 h2
  exact final3 V c

/-! ## Call 4 -/

theorem N4 : cfg4.N = 8 := by decide

/-- The printed index maps over the grid: a window cut by rows sits at block (t, 0), a window read whole at (0, 0). -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = 0
    ∧ win4_5.index t (1 : Fin 2) = 0
    ∧ win4_6.index t (0 : Fin 2) = 0
    ∧ win4_6.index t (1 : Fin 2) = 0
    ∧ win4_7.index t (0 : Fin 2) = 0
    ∧ win4_7.index t (1 : Fin 2) = 0
    ∧ win4_8.index t (0 : Fin 2) = t.val
    ∧ win4_8.index t (1 : Fin 2) = 0 :=
  (by decide +kernel : ∀ t : Fin grid4.N, _)

/-- Row x of window 0's block at point t is row 1024·t + x of its array. -/
theorem blk4_0 (c : Dev nD) (t : Fin cfg4.N) (x : Fin 1024) (k : Fin 128) (r : Fin 8192) (hr : r.val = 1024 * t.val + x.val) :
    (iblk4 V c 0 t : S1024x128.Idx → EReal) (ix2 x k) = (V c main_v31 : S8192x128.Idx → EReal) (ix2 r k) := by
  unfold iblk4
  rw [View.read_apply]
  show V c main_v31 _ = V c main_v31 _
  refine congrArg (V c main_v31) ?_
  funext a
  apply Fin.ext
  match a with
  | ⟨0, _⟩ => show win4_0.index t (0 : Fin 2) * 1024 + 1 * x.val = r.val; rw [(idx4 t).1, hr]; omega
  | ⟨1, _⟩ => show win4_0.index t (1 : Fin 2) * 128 + 1 * k.val = k.val; rw [(idx4 t).2.1]; omega

/-- Row x of window 1's block at point t is row 1024·t + x of its array. -/
theorem blk4_1 (c : Dev nD) (t : Fin cfg4.N) (x : Fin 1024) (k : Fin 128) (r : Fin 8192) (hr : r.val = 1024 * t.val + x.val) :
    (iblk4 V c 1 t : S1024x128.Idx → EReal) (ix2 x k) = (V c main_arg0 : S8192x128.Idx → EReal) (ix2 r k) := by
  unfold iblk4
  rw [View.read_apply]
  show V c main_arg0 _ = V c main_arg0 _
  refine congrArg (V c main_arg0) ?_
  funext a
  apply Fin.ext
  match a with
  | ⟨0, _⟩ => show win4_1.index t (0 : Fin 2) * 1024 + 1 * x.val = r.val; rw [(idx4 t).2.2.1, hr]; omega
  | ⟨1, _⟩ => show win4_1.index t (1 : Fin 2) * 128 + 1 * k.val = k.val; rw [(idx4 t).2.2.2.1]; omega

/-- Window 2 is read whole at every point. -/
theorem blk4_2 (c : Dev nD) (t : Fin cfg4.N) (x : Fin 128) (k : Fin 128) :
    (iblk4 V c 2 t : S128x128.Idx → EReal) (ix2 x k) = (V c main_arg14 : S128x128.Idx → EReal) (ix2 x k) := by
  unfold iblk4
  rw [View.read_apply]
  show V c main_arg14 _ = V c main_arg14 _
  refine congrArg (V c main_arg14) ?_
  funext a
  apply Fin.ext
  match a with
  | ⟨0, _⟩ => show win4_2.index t (0 : Fin 2) * 128 + 1 * x.val = x.val; rw [(idx4 t).2.2.2.2.1]; omega
  | ⟨1, _⟩ => show win4_2.index t (1 : Fin 2) * 128 + 1 * k.val = k.val; rw [(idx4 t).2.2.2.2.2.1]; omega

/-- Window 3 is read whole at every point. -/
theorem blk4_3 (c : Dev nD) (t : Fin cfg4.N) (x : Fin 1) (k : Fin 128) :
    (iblk4 V c 3 t : S1x128.Idx → EReal) (ix2 x k) = (V c main_v32 : S1x128.Idx → EReal) (ix2 x k) := by
  unfold iblk4
  rw [View.read_apply]
  show V c main_v32 _ = V c main_v32 _
  refine congrArg (V c main_v32) ?_
  funext a
  apply Fin.ext
  match a with
  | ⟨0, _⟩ => show win4_3.index t (0 : Fin 2) * 1 + 1 * x.val = x.val; rw [(idx4 t).2.2.2.2.2.2.1]; omega
  | ⟨1, _⟩ => show win4_3.index t (1 : Fin 2) * 128 + 1 * k.val = k.val; rw [(idx4 t).2.2.2.2.2.2.2.1]; omega

/-- Window 4 is read whole at every point. -/
theorem blk4_4 (c : Dev nD) (t : Fin cfg4.N) (x : Fin 1) (k : Fin 128) :
    (iblk4 V c 4 t : S1x128.Idx → EReal) (ix2 x k) = (V c main_v33 : S1x128.Idx → EReal) (ix2 x k) := by
  unfold iblk4
  rw [View.read_apply]
  show V c main_v33 _ = V c main_v33 _
  refine congrArg (V c main_v33) ?_
  funext a
  apply Fin.ext
  match a with
  | ⟨0, _⟩ => show win4_4.index t (0 : Fin 2) * 1 + 1 * x.val = x.val; rw [(idx4 t).2.2.2.2.2.2.2.2.1]; omega
  | ⟨1, _⟩ => show win4_4.index t (1 : Fin 2) * 128 + 1 * k.val = k.val; rw [(idx4 t).2.2.2.2.2.2.2.2.2.1]; omega

/-- Window 5 is read whole at every point. -/
theorem blk4_5 (c : Dev nD) (t : Fin cfg4.N) (x : Fin 1) (k : Fin 128) :
    (iblk4 V c 5 t : S1x128.Idx → EReal) (ix2 x k) = (V c main_v34 : S1x128.Idx → EReal) (ix2 x k) := by
  unfold iblk4
  rw [View.read_apply]
  show V c main_v34 _ = V c main_v34 _
  refine congrArg (V c main_v34) ?_
  funext a
  apply Fin.ext
  match a with
  | ⟨0, _⟩ => show win4_5.index t (0 : Fin 2) * 1 + 1 * x.val = x.val; rw [(idx4 t).2.2.2.2.2.2.2.2.2.2.1]; omega
  | ⟨1, _⟩ => show win4_5.index t (1 : Fin 2) * 128 + 1 * k.val = k.val; rw [(idx4 t).2.2.2.2.2.2.2.2.2.2.2.1]; omega

/-- Window 6 is read whole at every point. -/
theorem blk4_6 (c : Dev nD) (t : Fin cfg4.N) (x : Fin 128) (k : Fin 128) :
    (iblk4 V c 6 t : S128x128.Idx → EReal) (ix2 x k) = (V c main_arg18 : S128x128.Idx → EReal) (ix2 x k) := by
  unfold iblk4
  rw [View.read_apply]
  show V c main_arg18 _ = V c main_arg18 _
  refine congrArg (V c main_arg18) ?_
  funext a
  apply Fin.ext
  match a with
  | ⟨0, _⟩ => show win4_6.index t (0 : Fin 2) * 128 + 1 * x.val = x.val; rw [(idx4 t).2.2.2.2.2.2.2.2.2.2.2.2.1]; omega
  | ⟨1, _⟩ => show win4_6.index t (1 : Fin 2) * 128 + 1 * k.val = k.val; rw [(idx4 t).2.2.2.2.2.2.2.2.2.2.2.2.2.1]; omega

/-- Window 7 is read whole at every point. -/
theorem blk4_7 (c : Dev nD) (t : Fin cfg4.N) (x : Fin 1) (k : Fin 128) :
    (iblk4 V c 7 t : S1x128.Idx → EReal) (ix2 x k) = (V c main_v35 : S1x128.Idx → EReal) (ix2 x k) := by
  unfold iblk4
  rw [View.read_apply]
  show V c main_v35 _ = V c main_v35 _
  refine congrArg (V c main_v35) ?_
  funext a
  apply Fin.ext
  match a with
  | ⟨0, _⟩ => show win4_7.index t (0 : Fin 2) * 1 + 1 * x.val = x.val; rw [(idx4 t).2.2.2.2.2.2.2.2.2.2.2.2.2.2.1]; omega
  | ⟨1, _⟩ => show win4_7.index t (1 : Fin 2) * 128 + 1 * k.val = k.val; rw [(idx4 t).2.2.2.2.2.2.2.2.2.2.2.2.2.2.2.1]; omega

/-- What point t writes back is block t of the whole arrays' result. -/
theorem flushed4 (c : Dev nD) (t : Fin cfg4.N) :
    (dat4 V c).flushed 8 t = ((cfg4.win 8).blk t).view.read (Elt Ideal) (residual Cert.Spec.laneCount Cert.Spec.offset (V c main_v31) (V c main_arg0) (V c main_arg14) (V c main_v32) (V c main_v33) (V c main_v34) (V c main_arg18) (V c main_v35)) := by
  show (cfg4.win 8).cut (grid4.coords t) ((dat4 V c).after 8 t) = _
  rw [after4_8]
  unfold out4_8
  rw [View.canon_unit_zero hz]
  simp only [View.ld_unit_zero (S := S1024x128) hz, View.ld_unit_zero (S := S128x128) hz, View.ld_unit_zero (S := S1x128) hz]
  rw [Cert.KernelIdeal.Payload.apply4]
  funext j
  obtain ⟨x, q, rfl⟩ : ∃ (x : Fin 1024) (q : Fin 128), j = ix2 x q := ⟨j 0, j 1, eq_ix2 j⟩
  have hx : 1024 * t.val + x.val < 8192 := by have h1 : t.val < 8 := lt_of_lt_of_eq t.isLt N4; have h2 := x.isLt; omega
  show (residual Cert.Spec.laneCount Cert.Spec.offset (iblk4 V c 0 t) (iblk4 V c 1 t) (iblk4 V c 2 t) (iblk4 V c 3 t) (iblk4 V c 4 t) (iblk4 V c 5 t) (iblk4 V c 6 t) (iblk4 V c 7 t) : S1024x128.Idx → EReal) (ix2 x q)
    = (residual Cert.Spec.laneCount Cert.Spec.offset (V c main_v31) (V c main_arg0) (V c main_arg14) (V c main_v32) (V c main_v33) (V c main_v34) (V c main_arg18) (V c main_v35) : S8192x128.Idx → EReal) (((cfg4.win 8).blk t).view.emb (ix2 x q))
  have he : ((cfg4.win 8).blk t).view.emb (ix2 x q) = ix2 (⟨1024 * t.val + x.val, hx⟩ : Fin 8192) q := by
    funext a
    apply Fin.ext
    match a with
    | ⟨0, _⟩ => show win4_8.index t (0 : Fin 2) * 1024 + 1 * x.val = 1024 * t.val + x.val; rw [(idx4 t).2.2.2.2.2.2.2.2.2.2.2.2.2.2.2.2.1]; omega
    | ⟨1, _⟩ => show win4_8.index t (1 : Fin 2) * 128 + 1 * q.val = q.val; rw [(idx4 t).2.2.2.2.2.2.2.2.2.2.2.2.2.2.2.2.2]; omega
  rw [he]
  have hw1 : (iblk4 V c 2 t : S128x128.Idx → EReal) = V c main_arg14 := funext fun j => by
    obtain ⟨a, b, rfl⟩ : ∃ (a : Fin 128) (b : Fin 128), j = ix2 a b := ⟨j 0, j 1, eq_ix2 j⟩
    exact blk4_2 V c t a b
  have hb1 : (iblk4 V c 3 t : S1x128.Idx → EReal) = V c main_v32 := funext fun j => by
    obtain ⟨a, b, rfl⟩ : ∃ (a : Fin 1) (b : Fin 128), j = ix2 a b := ⟨j 0, j 1, eq_ix2 j⟩
    exact blk4_3 V c t a b
  have hg : (iblk4 V c 4 t : S1x128.Idx → EReal) = V c main_v33 := funext fun j => by
    obtain ⟨a, b, rfl⟩ : ∃ (a : Fin 1) (b : Fin 128), j = ix2 a b := ⟨j 0, j 1, eq_ix2 j⟩
    exact blk4_4 V c t a b
  have hβ : (iblk4 V c 5 t : S1x128.Idx → EReal) = V c main_v34 := funext fun j => by
    obtain ⟨a, b, rfl⟩ : ∃ (a : Fin 1) (b : Fin 128), j = ix2 a b := ⟨j 0, j 1, eq_ix2 j⟩
    exact blk4_5 V c t a b
  have hw2 : (iblk4 V c 6 t : S128x128.Idx → EReal) = V c main_arg18 := funext fun j => by
    obtain ⟨a, b, rfl⟩ : ∃ (a : Fin 128) (b : Fin 128), j = ix2 a b := ⟨j 0, j 1, eq_ix2 j⟩
    exact blk4_6 V c t a b
  have hb2 : (iblk4 V c 7 t : S1x128.Idx → EReal) = V c main_v35 := funext fun j => by
    obtain ⟨a, b, rfl⟩ : ∃ (a : Fin 1) (b : Fin 128), j = ix2 a b := ⟨j 0, j 1, eq_ix2 j⟩
    exact blk4_7 V c t a b
  rw [hw1, hb1, hg, hβ, hw2, hb2]
  exact residual_congr _ _ _ _ _ _ _ _ _ _ _ _ x _ q (fun k => blk4_0 V c t x k _ rfl) (blk4_1 V c t x q _ rfl)

/-- An index of the result array is in point t's block iff each coordinate is in the block's range on its axis. -/
theorem mem_blk4 (t : Fin cfg4.N) (i : S8192x128.Idx) :
    i ∈ ((cfg4.win 8).blk t).view.set ↔ ∀ a : Fin 2, win4_8.index t a * S1024x128.size a ≤ (i a).val ∧ (i a).val < win4_8.index t a * S1024x128.size a + S1024x128.size a := by
  show i ∈ ((View.whole main_v36).slice (win4_8.rect t)).set ↔ _
  rw [View.set_slice_whole, Rect.mem_set_unit]
  exact Iff.rfl

/-- Every row of the result array lies in some point's block: row r in that of point r / 1024. -/
theorem covered4 (i : S8192x128.Idx) : ∃ t : Fin cfg4.N, (cfg4.win 8).flush t = true ∧ i ∈ ((cfg4.win 8).blk t).view.set := by
  have hi0 : (i 0).val < 8192 := (i 0).isLt
  have hi1 : (i 1).val < 128 := (i 1).isLt
  have ht : (i 0).val / 1024 < cfg4.N := by rw [N4]; omega
  refine ⟨⟨(i 0).val / 1024, ht⟩, flush4_8 _, ?_⟩
  rw [mem_blk4]
  have e6 := (idx4 ⟨(i 0).val / 1024, ht⟩).2.2.2.2.2.2.2.2.2.2.2.2.2.2.2.2.1
  have e7 := (idx4 ⟨(i 0).val / 1024, ht⟩).2.2.2.2.2.2.2.2.2.2.2.2.2.2.2.2.2
  intro a
  match a with
  | ⟨0, _⟩ =>
    show win4_8.index _ (0 : Fin 2) * 1024 ≤ (i 0).val ∧ (i 0).val < win4_8.index _ (0 : Fin 2) * 1024 + 1024
    rw [e6]; show (i 0).val / 1024 * 1024 ≤ (i 0).val ∧ (i 0).val < (i 0).val / 1024 * 1024 + 1024; omega
  | ⟨1, _⟩ =>
    show win4_8.index _ (1 : Fin 2) * 128 ≤ (i 1).val ∧ (i 1).val < win4_8.index _ (1 : Fin 2) * 128 + 128
    rw [e7]; omega

/-- The result array after call 4: the whole arrays' result, whatever the call found in them at entry. -/
theorem final4 (c : Dev nD) : (dat4 V c).arrAt 8 cfg4.N = (residual Cert.Spec.laneCount Cert.Spec.offset (V c main_v31) (V c main_arg0) (V c main_arg14) (V c main_v32) (V c main_v33) (V c main_v34) (V c main_arg18) (V c main_v35) : S8192x128.Idx → EReal) :=
  (dat4 V c).arrAt_eq_of_cover 8 _ (fun t _ => flushed4 V c t) covered4

/-- The same, with what the call found in the arrays it reads given by equations. -/
theorem final4_at (c : Dev nD) (a0 : S8192x128.Idx → EReal) (a1 : S8192x128.Idx → EReal) (a2 : S128x128.Idx → EReal) (a3 : S1x128.Idx → EReal) (a4 : S1x128.Idx → EReal) (a5 : S1x128.Idx → EReal) (a6 : S128x128.Idx → EReal) (a7 : S1x128.Idx → EReal)
    (h0 : (V c main_v31 : S8192x128.Idx → EReal) = a0) (h1 : (V c main_arg0 : S8192x128.Idx → EReal) = a1) (h2 : (V c main_arg14 : S128x128.Idx → EReal) = a2) (h3 : (V c main_v32 : S1x128.Idx → EReal) = a3) (h4 : (V c main_v33 : S1x128.Idx → EReal) = a4) (h5 : (V c main_v34 : S1x128.Idx → EReal) = a5) (h6 : (V c main_arg18 : S128x128.Idx → EReal) = a6) (h7 : (V c main_v35 : S1x128.Idx → EReal) = a7) :
    (dat4 V c).arrAt 8 cfg4.N = (residual Cert.Spec.laneCount Cert.Spec.offset a0 a1 a2 a3 a4 a5 a6 a7 : S8192x128.Idx → EReal) := by
  subst h0 h1 h2 h3 h4 h5 h6 h7
  exact final4 V c

/-! ## Call 5 -/

theorem N5 : cfg5.N = 8 := by decide

/-- The printed index maps over the grid: a window cut by rows sits at block (t, 0), a window read whole at (0, 0). -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = 0
    ∧ win5_5.index t (1 : Fin 2) = 0
    ∧ win5_6.index t (0 : Fin 2) = 0
    ∧ win5_6.index t (1 : Fin 2) = 0
    ∧ win5_7.index t (0 : Fin 2) = 0
    ∧ win5_7.index t (1 : Fin 2) = 0
    ∧ win5_8.index t (0 : Fin 2) = t.val
    ∧ win5_8.index t (1 : Fin 2) = 0 :=
  (by decide +kernel : ∀ t : Fin grid5.N, _)

/-- Row x of window 0's block at point t is row 1024·t + x of its array. -/
theorem blk5_0 (c : Dev nD) (t : Fin cfg5.N) (x : Fin 1024) (k : Fin 128) (r : Fin 8192) (hr : r.val = 1024 * t.val + x.val) :
    (iblk5 V c 0 t : S1024x128.Idx → EReal) (ix2 x k) = (V c main_v19 : S8192x128.Idx → EReal) (ix2 r k) := by
  unfold iblk5
  rw [View.read_apply]
  show V c main_v19 _ = V c main_v19 _
  refine congrArg (V c main_v19) ?_
  funext a
  apply Fin.ext
  match a with
  | ⟨0, _⟩ => show win5_0.index t (0 : Fin 2) * 1024 + 1 * x.val = r.val; rw [(idx5 t).1, hr]; omega
  | ⟨1, _⟩ => show win5_0.index t (1 : Fin 2) * 128 + 1 * k.val = k.val; rw [(idx5 t).2.1]; omega

/-- Row x of window 1's block at point t is row 1024·t + x of its array. -/
theorem blk5_1 (c : Dev nD) (t : Fin cfg5.N) (x : Fin 1024) (k : Fin 128) (r : Fin 8192) (hr : r.val = 1024 * t.val + x.val) :
    (iblk5 V c 1 t : S1024x128.Idx → EReal) (ix2 x k) = (V c main_arg1 : S8192x128.Idx → EReal) (ix2 r k) := by
  unfold iblk5
  rw [View.read_apply]
  show V c main_arg1 _ = V c main_arg1 _
  refine congrArg (V c main_arg1) ?_
  funext a
  apply Fin.ext
  match a with
  | ⟨0, _⟩ => show win5_1.index t (0 : Fin 2) * 1024 + 1 * x.val = r.val; rw [(idx5 t).2.2.1, hr]; omega
  | ⟨1, _⟩ => show win5_1.index t (1 : Fin 2) * 128 + 1 * k.val = k.val; rw [(idx5 t).2.2.2.1]; omega

/-- Window 2 is read whole at every point. -/
theorem blk5_2 (c : Dev nD) (t : Fin cfg5.N) (x : Fin 128) (k : Fin 128) :
    (iblk5 V c 2 t : S128x128.Idx → EReal) (ix2 x k) = (V c main_arg20 : S128x128.Idx → EReal) (ix2 x k) := by
  unfold iblk5
  rw [View.read_apply]
  show V c main_arg20 _ = V c main_arg20 _
  refine congrArg (V c main_arg20) ?_
  funext a
  apply Fin.ext
  match a with
  | ⟨0, _⟩ => show win5_2.index t (0 : Fin 2) * 128 + 1 * x.val = x.val; rw [(idx5 t).2.2.2.2.1]; omega
  | ⟨1, _⟩ => show win5_2.index t (1 : Fin 2) * 128 + 1 * k.val = k.val; rw [(idx5 t).2.2.2.2.2.1]; omega

/-- Window 3 is read whole at every point. -/
theorem blk5_3 (c : Dev nD) (t : Fin cfg5.N) (x : Fin 1) (k : Fin 128) :
    (iblk5 V c 3 t : S1x128.Idx → EReal) (ix2 x k) = (V c main_v37 : S1x128.Idx → EReal) (ix2 x k) := by
  unfold iblk5
  rw [View.read_apply]
  show V c main_v37 _ = V c main_v37 _
  refine congrArg (V c main_v37) ?_
  funext a
  apply Fin.ext
  match a with
  | ⟨0, _⟩ => show win5_3.index t (0 : Fin 2) * 1 + 1 * x.val = x.val; rw [(idx5 t).2.2.2.2.2.2.1]; omega
  | ⟨1, _⟩ => show win5_3.index t (1 : Fin 2) * 128 + 1 * k.val = k.val; rw [(idx5 t).2.2.2.2.2.2.2.1]; omega

/-- Window 4 is read whole at every point. -/
theorem blk5_4 (c : Dev nD) (t : Fin cfg5.N) (x : Fin 1) (k : Fin 128) :
    (iblk5 V c 4 t : S1x128.Idx → EReal) (ix2 x k) = (V c main_v38 : S1x128.Idx → EReal) (ix2 x k) := by
  unfold iblk5
  rw [View.read_apply]
  show V c main_v38 _ = V c main_v38 _
  refine congrArg (V c main_v38) ?_
  funext a
  apply Fin.ext
  match a with
  | ⟨0, _⟩ => show win5_4.index t (0 : Fin 2) * 1 + 1 * x.val = x.val; rw [(idx5 t).2.2.2.2.2.2.2.2.1]; omega
  | ⟨1, _⟩ => show win5_4.index t (1 : Fin 2) * 128 + 1 * k.val = k.val; rw [(idx5 t).2.2.2.2.2.2.2.2.2.1]; omega

/-- Window 5 is read whole at every point. -/
theorem blk5_5 (c : Dev nD) (t : Fin cfg5.N) (x : Fin 1) (k : Fin 128) :
    (iblk5 V c 5 t : S1x128.Idx → EReal) (ix2 x k) = (V c main_v39 : S1x128.Idx → EReal) (ix2 x k) := by
  unfold iblk5
  rw [View.read_apply]
  show V c main_v39 _ = V c main_v39 _
  refine congrArg (V c main_v39) ?_
  funext a
  apply Fin.ext
  match a with
  | ⟨0, _⟩ => show win5_5.index t (0 : Fin 2) * 1 + 1 * x.val = x.val; rw [(idx5 t).2.2.2.2.2.2.2.2.2.2.1]; omega
  | ⟨1, _⟩ => show win5_5.index t (1 : Fin 2) * 128 + 1 * k.val = k.val; rw [(idx5 t).2.2.2.2.2.2.2.2.2.2.2.1]; omega

/-- Window 6 is read whole at every point. -/
theorem blk5_6 (c : Dev nD) (t : Fin cfg5.N) (x : Fin 128) (k : Fin 128) :
    (iblk5 V c 6 t : S128x128.Idx → EReal) (ix2 x k) = (V c main_arg24 : S128x128.Idx → EReal) (ix2 x k) := by
  unfold iblk5
  rw [View.read_apply]
  show V c main_arg24 _ = V c main_arg24 _
  refine congrArg (V c main_arg24) ?_
  funext a
  apply Fin.ext
  match a with
  | ⟨0, _⟩ => show win5_6.index t (0 : Fin 2) * 128 + 1 * x.val = x.val; rw [(idx5 t).2.2.2.2.2.2.2.2.2.2.2.2.1]; omega
  | ⟨1, _⟩ => show win5_6.index t (1 : Fin 2) * 128 + 1 * k.val = k.val; rw [(idx5 t).2.2.2.2.2.2.2.2.2.2.2.2.2.1]; omega

/-- Window 7 is read whole at every point. -/
theorem blk5_7 (c : Dev nD) (t : Fin cfg5.N) (x : Fin 1) (k : Fin 128) :
    (iblk5 V c 7 t : S1x128.Idx → EReal) (ix2 x k) = (V c main_v40 : S1x128.Idx → EReal) (ix2 x k) := by
  unfold iblk5
  rw [View.read_apply]
  show V c main_v40 _ = V c main_v40 _
  refine congrArg (V c main_v40) ?_
  funext a
  apply Fin.ext
  match a with
  | ⟨0, _⟩ => show win5_7.index t (0 : Fin 2) * 1 + 1 * x.val = x.val; rw [(idx5 t).2.2.2.2.2.2.2.2.2.2.2.2.2.2.1]; omega
  | ⟨1, _⟩ => show win5_7.index t (1 : Fin 2) * 128 + 1 * k.val = k.val; rw [(idx5 t).2.2.2.2.2.2.2.2.2.2.2.2.2.2.2.1]; omega

/-- What point t writes back is block t of the whole arrays' result. -/
theorem flushed5 (c : Dev nD) (t : Fin cfg5.N) :
    (dat5 V c).flushed 8 t = ((cfg5.win 8).blk t).view.read (Elt Ideal) (residual Cert.Spec.laneCount Cert.Spec.offset (V c main_v19) (V c main_arg1) (V c main_arg20) (V c main_v37) (V c main_v38) (V c main_v39) (V c main_arg24) (V c main_v40)) := by
  show (cfg5.win 8).cut (grid5.coords t) ((dat5 V c).after 8 t) = _
  rw [after5_8]
  unfold out5_8
  rw [View.canon_unit_zero hz]
  simp only [View.ld_unit_zero (S := S1024x128) hz, View.ld_unit_zero (S := S128x128) hz, View.ld_unit_zero (S := S1x128) hz]
  rw [Cert.KernelIdeal.Payload.apply5]
  funext j
  obtain ⟨x, q, rfl⟩ : ∃ (x : Fin 1024) (q : Fin 128), j = ix2 x q := ⟨j 0, j 1, eq_ix2 j⟩
  have hx : 1024 * t.val + x.val < 8192 := by have h1 : t.val < 8 := lt_of_lt_of_eq t.isLt N5; have h2 := x.isLt; omega
  show (residual Cert.Spec.laneCount Cert.Spec.offset (iblk5 V c 0 t) (iblk5 V c 1 t) (iblk5 V c 2 t) (iblk5 V c 3 t) (iblk5 V c 4 t) (iblk5 V c 5 t) (iblk5 V c 6 t) (iblk5 V c 7 t) : S1024x128.Idx → EReal) (ix2 x q)
    = (residual Cert.Spec.laneCount Cert.Spec.offset (V c main_v19) (V c main_arg1) (V c main_arg20) (V c main_v37) (V c main_v38) (V c main_v39) (V c main_arg24) (V c main_v40) : S8192x128.Idx → EReal) (((cfg5.win 8).blk t).view.emb (ix2 x q))
  have he : ((cfg5.win 8).blk t).view.emb (ix2 x q) = ix2 (⟨1024 * t.val + x.val, hx⟩ : Fin 8192) q := by
    funext a
    apply Fin.ext
    match a with
    | ⟨0, _⟩ => show win5_8.index t (0 : Fin 2) * 1024 + 1 * x.val = 1024 * t.val + x.val; rw [(idx5 t).2.2.2.2.2.2.2.2.2.2.2.2.2.2.2.2.1]; omega
    | ⟨1, _⟩ => show win5_8.index t (1 : Fin 2) * 128 + 1 * q.val = q.val; rw [(idx5 t).2.2.2.2.2.2.2.2.2.2.2.2.2.2.2.2.2]; omega
  rw [he]
  have hw1 : (iblk5 V c 2 t : S128x128.Idx → EReal) = V c main_arg20 := funext fun j => by
    obtain ⟨a, b, rfl⟩ : ∃ (a : Fin 128) (b : Fin 128), j = ix2 a b := ⟨j 0, j 1, eq_ix2 j⟩
    exact blk5_2 V c t a b
  have hb1 : (iblk5 V c 3 t : S1x128.Idx → EReal) = V c main_v37 := funext fun j => by
    obtain ⟨a, b, rfl⟩ : ∃ (a : Fin 1) (b : Fin 128), j = ix2 a b := ⟨j 0, j 1, eq_ix2 j⟩
    exact blk5_3 V c t a b
  have hg : (iblk5 V c 4 t : S1x128.Idx → EReal) = V c main_v38 := funext fun j => by
    obtain ⟨a, b, rfl⟩ : ∃ (a : Fin 1) (b : Fin 128), j = ix2 a b := ⟨j 0, j 1, eq_ix2 j⟩
    exact blk5_4 V c t a b
  have hβ : (iblk5 V c 5 t : S1x128.Idx → EReal) = V c main_v39 := funext fun j => by
    obtain ⟨a, b, rfl⟩ : ∃ (a : Fin 1) (b : Fin 128), j = ix2 a b := ⟨j 0, j 1, eq_ix2 j⟩
    exact blk5_5 V c t a b
  have hw2 : (iblk5 V c 6 t : S128x128.Idx → EReal) = V c main_arg24 := funext fun j => by
    obtain ⟨a, b, rfl⟩ : ∃ (a : Fin 128) (b : Fin 128), j = ix2 a b := ⟨j 0, j 1, eq_ix2 j⟩
    exact blk5_6 V c t a b
  have hb2 : (iblk5 V c 7 t : S1x128.Idx → EReal) = V c main_v40 := funext fun j => by
    obtain ⟨a, b, rfl⟩ : ∃ (a : Fin 1) (b : Fin 128), j = ix2 a b := ⟨j 0, j 1, eq_ix2 j⟩
    exact blk5_7 V c t a b
  rw [hw1, hb1, hg, hβ, hw2, hb2]
  exact residual_congr _ _ _ _ _ _ _ _ _ _ _ _ x _ q (fun k => blk5_0 V c t x k _ rfl) (blk5_1 V c t x q _ rfl)

/-- An index of the result array is in point t's block iff each coordinate is in the block's range on its axis. -/
theorem mem_blk5 (t : Fin cfg5.N) (i : S8192x128.Idx) :
    i ∈ ((cfg5.win 8).blk t).view.set ↔ ∀ a : Fin 2, win5_8.index t a * S1024x128.size a ≤ (i a).val ∧ (i a).val < win5_8.index t a * S1024x128.size a + S1024x128.size a := by
  show i ∈ ((View.whole main_v41).slice (win5_8.rect t)).set ↔ _
  rw [View.set_slice_whole, Rect.mem_set_unit]
  exact Iff.rfl

/-- Every row of the result array lies in some point's block: row r in that of point r / 1024. -/
theorem covered5 (i : S8192x128.Idx) : ∃ t : Fin cfg5.N, (cfg5.win 8).flush t = true ∧ i ∈ ((cfg5.win 8).blk t).view.set := by
  have hi0 : (i 0).val < 8192 := (i 0).isLt
  have hi1 : (i 1).val < 128 := (i 1).isLt
  have ht : (i 0).val / 1024 < cfg5.N := by rw [N5]; omega
  refine ⟨⟨(i 0).val / 1024, ht⟩, flush5_8 _, ?_⟩
  rw [mem_blk5]
  have e6 := (idx5 ⟨(i 0).val / 1024, ht⟩).2.2.2.2.2.2.2.2.2.2.2.2.2.2.2.2.1
  have e7 := (idx5 ⟨(i 0).val / 1024, ht⟩).2.2.2.2.2.2.2.2.2.2.2.2.2.2.2.2.2
  intro a
  match a with
  | ⟨0, _⟩ =>
    show win5_8.index _ (0 : Fin 2) * 1024 ≤ (i 0).val ∧ (i 0).val < win5_8.index _ (0 : Fin 2) * 1024 + 1024
    rw [e6]; show (i 0).val / 1024 * 1024 ≤ (i 0).val ∧ (i 0).val < (i 0).val / 1024 * 1024 + 1024; omega
  | ⟨1, _⟩ =>
    show win5_8.index _ (1 : Fin 2) * 128 ≤ (i 1).val ∧ (i 1).val < win5_8.index _ (1 : Fin 2) * 128 + 128
    rw [e7]; omega

/-- The result array after call 5: the whole arrays' result, whatever the call found in them at entry. -/
theorem final5 (c : Dev nD) : (dat5 V c).arrAt 8 cfg5.N = (residual Cert.Spec.laneCount Cert.Spec.offset (V c main_v19) (V c main_arg1) (V c main_arg20) (V c main_v37) (V c main_v38) (V c main_v39) (V c main_arg24) (V c main_v40) : S8192x128.Idx → EReal) :=
  (dat5 V c).arrAt_eq_of_cover 8 _ (fun t _ => flushed5 V c t) covered5

/-- The same, with what the call found in the arrays it reads given by equations. -/
theorem final5_at (c : Dev nD) (a0 : S8192x128.Idx → EReal) (a1 : S8192x128.Idx → EReal) (a2 : S128x128.Idx → EReal) (a3 : S1x128.Idx → EReal) (a4 : S1x128.Idx → EReal) (a5 : S1x128.Idx → EReal) (a6 : S128x128.Idx → EReal) (a7 : S1x128.Idx → EReal)
    (h0 : (V c main_v19 : S8192x128.Idx → EReal) = a0) (h1 : (V c main_arg1 : S8192x128.Idx → EReal) = a1) (h2 : (V c main_arg20 : S128x128.Idx → EReal) = a2) (h3 : (V c main_v37 : S1x128.Idx → EReal) = a3) (h4 : (V c main_v38 : S1x128.Idx → EReal) = a4) (h5 : (V c main_v39 : S1x128.Idx → EReal) = a5) (h6 : (V c main_arg24 : S128x128.Idx → EReal) = a6) (h7 : (V c main_v40 : S1x128.Idx → EReal) = a7) :
    (dat5 V c).arrAt 8 cfg5.N = (residual Cert.Spec.laneCount Cert.Spec.offset a0 a1 a2 a3 a4 a5 a6 a7 : S8192x128.Idx → EReal) := by
  subst h0 h1 h2 h3 h4 h5 h6 h7
  exact final5 V c

end Cert.KernelIdeal.Hand

end
-- ==== Proof.KernelValue.lean ====
/-
  The idealized kernel's two results as functions of the launch arguments.

  Reading the last boundary's contents back through @main: the fifth and the sixth call each leave the residual block of
  what they found in their arrays; their first operand is the aggregation the long host stretch computed from two earlier
  calls' results and an edge index argument; those earlier results are dense layers of arguments; a bias, gain or offset
  row is a reshaped argument; and an argument is unchanged from the launch memory wherever it is read. Composed, the two
  results are `Cert.Spec.side` of the two directions' arguments.
-/
import proofs.«152614_j19232863552107_2_alg».proof.Proof.KernelRun
import proofs.«152614_j19232863552107_2_alg».proof.Proof.KernelBoundary
import proofs.«152614_j19232863552107_2_alg».proof.Proof.KernelHost
import proofs.«152614_j19232863552107_2_alg».proof.Proof.KernelBlocks
import proofs.«152614_j19232863552107_2_alg».proof.Proof.Spec

set_option maxRecDepth 16384

noncomputable section

namespace Cert.KernelIdeal.Hand

open Cert.KernelIdeal Cert.KernelIdeal.Gen
open Idealize.ShloMosaic Idealize.ShloMosaic.TcCoe Idealize.SL.Sem
open Cert.DenseLayer Cert.LayerNorm

variable (m : (ℓ : Loc nD τ sig) → Buf (Elt Ideal) ℓ) (ρ : Dev nD → PrngReg)

/-- The aggregation with this program's gather and scatter records. -/
abbrev agg (h : FVec Ideal Cert.Spec.nodes .f32) (msg : FVec Ideal Cert.Spec.edgeRows .f32) (e : IVec Cert.Spec.edges 32) :
    FVec Ideal Cert.Spec.nodes .f32 :=
  Cert.Spec.aggregate gather_S8192x128_S524288x1_S524288x128_1_0_n_n_0_1_1128 scatter_S8192x128_S524288x1_S524288x128_1_0_0_1
    bcast_S_S524288 bcast_S524288_S524288x1_0 bcast_S_S8192x128 h msg e

theorem agg_congr {h h' : FVec Ideal Cert.Spec.nodes .f32} {msg msg' : FVec Ideal Cert.Spec.edgeRows .f32} {e e' : IVec Cert.Spec.edges 32}
    (a : h = h') (b : msg = msg') (d : e = e') : agg h msg e = agg h' msg' e' := by subst a b d; rfl

/-- The first result: the source side, aggregating over the second edge index. -/
def rowSide (c : Dev nD) : Buf (Elt Ideal) ((c.tc : Thread nD τ).loc main_v36) :=
  Cert.Spec.side gather_S8192x128_S524288x1_S524288x128_1_0_n_n_0_1_1128 scatter_S8192x128_S524288x1_S524288x128_1_0_0_1
    bcast_S_S524288 bcast_S524288_S524288x1_0 bcast_S_S8192x128
    (m ((c.tc : Thread nD τ).loc main_arg0)) (m ((c.tc : Thread nD τ).loc main_arg6)) (m ((c.tc : Thread nD τ).loc main_arg7)) (m ((c.tc : Thread nD τ).loc main_arg3)) (m ((c.tc : Thread nD τ).loc main_arg12)) (m ((c.tc : Thread nD τ).loc main_arg13)) (m ((c.tc : Thread nD τ).loc main_arg5))
    (m ((c.tc : Thread nD τ).loc main_arg0)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))

/-- The second result: the destination side, aggregating over the first edge index. -/
def colSide (c : Dev nD) : Buf (Elt Ideal) ((c.tc : Thread nD τ).loc main_v41) :=
  Cert.Spec.side gather_S8192x128_S524288x1_S524288x128_1_0_n_n_0_1_1128 scatter_S8192x128_S524288x1_S524288x128_1_0_0_1
    bcast_S_S524288 bcast_S524288_S524288x1_0 bcast_S_S8192x128
    (m ((c.tc : Thread nD τ).loc main_arg1)) (m ((c.tc : Thread nD τ).loc main_arg8)) (m ((c.tc : Thread nD τ).loc main_arg9)) (m ((c.tc : Thread nD τ).loc main_arg2)) (m ((c.tc : Thread nD τ).loc main_arg10)) (m ((c.tc : Thread nD τ).loc main_arg11)) (m ((c.tc : Thread nD τ).loc main_arg4))
    (m ((c.tc : Thread nD τ).loc main_arg1)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))

/-! ## The first four calls' results, where the long host stretch reads them -/

theorem w8_v1 (c : Dev nD) : (W8 m ρ c (Proc.devRef .tc main_v1) : S8192x128.Idx → EReal)
    = affine (m ((c.tc : Thread nD τ).loc main_arg0)) (m ((c.tc : Thread nD τ).loc main_arg6)) (row (m ((c.tc : Thread nD τ).loc main_arg7))) :=
  (carry_8_2 m ρ c main_v1 (by decide) (by decide) (by decide) (by decide) (by decide) (by decide)).trans
    ((W2_arr m ρ c 3).trans (final0_at (V1 m ρ) c _ _ _
      (launch_1 m ρ c main_arg0 (by decide)) (launch_1 m ρ c main_arg6 (by decide)) (host0_v0 (W0 m ρ c))))

theorem w8_v3 (c : Dev nD) : (W8 m ρ c (Proc.devRef .tc main_v3) : S8192x128.Idx → EReal)
    = affine (m ((c.tc : Thread nD τ).loc main_arg1)) (m ((c.tc : Thread nD τ).loc main_arg8)) (row (m ((c.tc : Thread nD τ).loc main_arg9))) :=
  (carry_8_4 m ρ c main_v3 (by decide) (by decide) (by decide) (by decide)).trans
    ((W4_arr m ρ c 3).trans (final1_at (V3 m ρ) c _ _ _
      (launch_3 m ρ c main_arg1 (by decide) (by decide) (by decide)) (launch_3 m ρ c main_arg8 (by decide) (by decide) (by decide))
      ((host1_v2 (W2 m ρ c)).trans (congrArg (fun v : S128.Idx → EReal => row v) (launch_2 m ρ c main_arg9 (by decide) (by decide))))))

theorem w8_v5 (c : Dev nD) : (W8 m ρ c (Proc.devRef .tc main_v5) : S524288x128.Idx → EReal)
    = affine (m ((c.tc : Thread nD τ).loc main_arg2)) (m ((c.tc : Thread nD τ).loc main_arg10)) (row (m ((c.tc : Thread nD τ).loc main_arg11))) :=
  (carry_8_6 m ρ c main_v5 (by decide) (by decide)).trans
    ((W6_arr m ρ c 3).trans (final2_at (V5 m ρ) c _ _ _
      (launch_5 m ρ c main_arg2 (by decide) (by decide) (by decide) (by decide) (by decide)) (launch_5 m ρ c main_arg10 (by decide) (by decide) (by decide) (by decide) (by decide))
      ((host2_v4 (W4 m ρ c)).trans (congrArg (fun v : S128.Idx → EReal => row v) (launch_4 m ρ c main_arg11 (by decide) (by decide) (by decide) (by decide))))))

theorem w8_v7 (c : Dev nD) : (W8 m ρ c (Proc.devRef .tc main_v7) : S524288x128.Idx → EReal)
    = affine (m ((c.tc : Thread nD τ).loc main_arg3)) (m ((c.tc : Thread nD τ).loc main_arg12)) (row (m ((c.tc : Thread nD τ).loc main_arg13))) :=
  (W8_arr m ρ c 3).trans (final3_at (V7 m ρ) c _ _ _
    (launch_7 m ρ c main_arg3 (by decide) (by decide) (by decide) (by decide) (by decide) (by decide) (by decide)) (launch_7 m ρ c main_arg12 (by decide) (by decide) (by decide) (by decide) (by decide) (by decide) (by decide))
    ((host3_v6 (W6 m ρ c)).trans (congrArg (fun v : S128.Idx → EReal => row v) (launch_6 m ρ c main_arg13 (by decide) (by decide) (by decide) (by decide) (by decide) (by decide)))))

/-! ## The arguments where the last call's stretch reads them -/

theorem w10_arg1 (c : Dev nD) : W10 m ρ c (Proc.devRef .tc main_arg1) = m ((c.tc : Thread nD τ).loc main_arg1) :=
  (call4_keeps m ρ c main_arg1 (by decide)).trans ((host4_keeps_arg1 (W8 m ρ c)).trans (launch_8 m ρ c main_arg1 (by decide) (by decide) (by decide) (by decide) (by decide) (by decide) (by decide) (by decide)))
theorem w10_arg20 (c : Dev nD) : W10 m ρ c (Proc.devRef .tc main_arg20) = m ((c.tc : Thread nD τ).loc main_arg20) :=
  (call4_keeps m ρ c main_arg20 (by decide)).trans ((host4_keeps_arg20 (W8 m ρ c)).trans (launch_8 m ρ c main_arg20 (by decide) (by decide) (by decide) (by decide) (by decide) (by decide) (by decide) (by decide)))
theorem w10_arg21 (c : Dev nD) : W10 m ρ c (Proc.devRef .tc main_arg21) = m ((c.tc : Thread nD τ).loc main_arg21) :=
  (call4_keeps m ρ c main_arg21 (by decide)).trans ((host4_keeps_arg21 (W8 m ρ c)).trans (launch_8 m ρ c main_arg21 (by decide) (by decide) (by decide) (by decide) (by decide) (by decide) (by decide) (by decide)))
theorem w10_arg22 (c : Dev nD) : W10 m ρ c (Proc.devRef .tc main_arg22) = m ((c.tc : Thread nD τ).loc main_arg22) :=
  (call4_keeps m ρ c main_arg22 (by decide)).trans ((host4_keeps_arg22 (W8 m ρ c)).trans (launch_8 m ρ c main_arg22 (by decide) (by decide) (by decide) (by decide) (by decide) (by decide) (by decide) (by decide)))
theorem w10_arg23 (c : Dev nD) : W10 m ρ c (Proc.devRef .tc main_arg23) = m ((c.tc : Thread nD τ).loc main_arg23) :=
  (call4_keeps m ρ c main_arg23 (by decide)).trans ((host4_keeps_arg23 (W8 m ρ c)).trans (launch_8 m ρ c main_arg23 (by decide) (by decide) (by decide) (by decide) (by decide) (by decide) (by decide) (by decide)))
theorem w10_arg24 (c : Dev nD) : W10 m ρ c (Proc.devRef .tc main_arg24) = m ((c.tc : Thread nD τ).loc main_arg24) :=
  (call4_keeps m ρ c main_arg24 (by decide)).trans ((host4_keeps_arg24 (W8 m ρ c)).trans (launch_8 m ρ c main_arg24 (by decide) (by decide) (by decide) (by decide) (by decide) (by decide) (by decide) (by decide)))
theorem w10_arg25 (c : Dev nD) : W10 m ρ c (Proc.devRef .tc main_arg25) = m ((c.tc : Thread nD τ).loc main_arg25) :=
  (call4_keeps m ρ c main_arg25 (by decide)).trans ((host4_keeps_arg25 (W8 m ρ c)).trans (launch_8 m ρ c main_arg25 (by decide) (by decide) (by decide) (by decide) (by decide) (by decide) (by decide) (by decide)))

/-! ## The two results -/

theorem value_v36 (c : Dev nD) : W12 m ρ c (Proc.devRef .tc main_v36) = rowSide m c := by
  have e0 : (V9 m ρ c main_v31 : S8192x128.Idx → EReal)
      = agg (affine (m ((c.tc : Thread nD τ).loc main_arg0)) (m ((c.tc : Thread nD τ).loc main_arg6)) (row (m ((c.tc : Thread nD τ).loc main_arg7)))) (affine (m ((c.tc : Thread nD τ).loc main_arg3)) (m ((c.tc : Thread nD τ).loc main_arg12)) (row (m ((c.tc : Thread nD τ).loc main_arg13)))) (m ((c.tc : Thread nD τ).loc main_arg5)) :=
    (host4_v31 (W8 m ρ c)).trans (agg_congr (w8_v1 m ρ c) (w8_v7 m ρ c) (launch_8 m ρ c main_arg5 (by decide) (by decide) (by decide) (by decide) (by decide) (by decide) (by decide) (by decide)))
  have e1 : (V9 m ρ c main_arg0 : S8192x128.Idx → EReal) = (m ((c.tc : Thread nD τ).loc main_arg0)) :=
    (host4_keeps_arg0 (W8 m ρ c)).trans (launch_8 m ρ c main_arg0 (by decide) (by decide) (by decide) (by decide) (by decide) (by decide) (by decide) (by decide))
  have e2 : (V9 m ρ c main_arg14 : S128x128.Idx → EReal) = (m ((c.tc : Thread nD τ).loc main_arg14)) :=
    (host4_keeps_arg14 (W8 m ρ c)).trans (launch_8 m ρ c main_arg14 (by decide) (by decide) (by decide) (by decide) (by decide) (by decide) (by decide) (by decide))
  have e3 : (V9 m ρ c main_v32 : S1x128.Idx → EReal) = row (m ((c.tc : Thread nD τ).loc main_arg15)) :=
    (host4_v32 (W8 m ρ c)).trans (congrArg (fun v : S128.Idx → EReal => row v) (launch_8 m ρ c main_arg15 (by decide) (by decide) (by decide) (by decide) (by decide) (by decide) (by decide) (by decide)))
  have e4 : (V9 m ρ c main_v33 : S1x128.Idx → EReal) = row (m ((c.tc : Thread nD τ).loc main_arg16)) :=
    (host4_v33 (W8 m ρ c)).trans (congrArg (fun v : S128.Idx → EReal => row v) (launch_8 m ρ c main_arg16 (by decide) (by decide) (by decide) (by decide) (by decide) (by decide) (by decide) (by decide)))
  have e5 : (V9 m ρ c main_v34 : S1x128.Idx → EReal) = row (m ((c.tc : Thread nD τ).loc main_arg17)) :=
    (host4_v34 (W8 m ρ c)).trans (congrArg (fun v : S128.Idx → EReal => row v) (launch_8 m ρ c main_arg17 (by decide) (by decide) (by decide) (by decide) (by decide) (by decide) (by decide) (by decide)))
  have e6 : (V9 m ρ c main_arg18 : S128x128.Idx → EReal) = (m ((c.tc : Thread nD τ).loc main_arg18)) :=
    (host4_keeps_arg18 (W8 m ρ c)).trans (launch_8 m ρ c main_arg18 (by decide) (by decide) (by decide) (by decide) (by decide) (by decide) (by decide) (by decide))
  have e7 : (V9 m ρ c main_v35 : S1x128.Idx → EReal) = row (m ((c.tc : Thread nD τ).loc main_arg19)) :=
    (host4_v35 (W8 m ρ c)).trans (congrArg (fun v : S128.Idx → EReal => row v) (launch_8 m ρ c main_arg19 (by decide) (by decide) (by decide) (by decide) (by decide) (by decide) (by decide) (by decide)))
  exact (call5_keeps m ρ c main_v36 (by decide)).trans ((host5_keeps_v36 (W10 m ρ c)).trans ((W10_arr m ρ c 8).trans
    (final4_at (V9 m ρ) c _ _ _ _ _ _ _ _ e0 e1 e2 e3 e4 e5 e6 e7)))

theorem value_v41 (c : Dev nD) : W12 m ρ c (Proc.devRef .tc main_v41) = colSide m c := by
  have e0 : (V11 m ρ c main_v19 : S8192x128.Idx → EReal)
      = agg (affine (m ((c.tc : Thread nD τ).loc main_arg1)) (m ((c.tc : Thread nD τ).loc main_arg8)) (row (m ((c.tc : Thread nD τ).loc main_arg9)))) (affine (m ((c.tc : Thread nD τ).loc main_arg2)) (m ((c.tc : Thread nD τ).loc main_arg10)) (row (m ((c.tc : Thread nD τ).loc main_arg11)))) (m ((c.tc : Thread nD τ).loc main_arg4)) :=
    (host5_keeps_v19 (W10 m ρ c)).trans ((call4_keeps m ρ c main_v19 (by decide)).trans
      ((host4_v19 (W8 m ρ c)).trans (agg_congr (w8_v3 m ρ c) (w8_v5 m ρ c) (launch_8 m ρ c main_arg4 (by decide) (by decide) (by decide) (by decide) (by decide) (by decide) (by decide) (by decide)))))
  have e1 : (V11 m ρ c main_arg1 : S8192x128.Idx → EReal) = (m ((c.tc : Thread nD τ).loc main_arg1)) :=
    (host5_keeps_arg1 (W10 m ρ c)).trans (w10_arg1 m ρ c)
  have e2 : (V11 m ρ c main_arg20 : S128x128.Idx → EReal) = (m ((c.tc : Thread nD τ).loc main_arg20)) :=
    (host5_keeps_arg20 (W10 m ρ c)).trans (w10_arg20 m ρ c)
  have e3 : (V11 m ρ c main_v37 : S1x128.Idx → EReal) = row (m ((c.tc : Thread nD τ).loc main_arg21)) :=
    (host5_v37 (W10 m ρ c)).trans (congrArg (fun v : S128.Idx → EReal => row v) (w10_arg21 m ρ c))
  have e4 : (V11 m ρ c main_v38 : S1x128.Idx → EReal) = row (m ((c.tc : Thread nD τ).loc main_arg22)) :=
    (host5_v38 (W10 m ρ c)).trans (congrArg (fun v : S128.Idx → EReal => row v) (w10_arg22 m ρ c))
  have e5 : (V11 m ρ c main_v39 : S1x128.Idx → EReal) = row (m ((c.tc : Thread nD τ).loc main_arg23)) :=
    (host5_v39 (W10 m ρ c)).trans (congrArg (fun v : S128.Idx → EReal => row v) (w10_arg23 m ρ c))
  have e6 : (V11 m ρ c main_arg24 : S128x128.Idx → EReal) = (m ((c.tc : Thread nD τ).loc main_arg24)) :=
    (host5_keeps_arg24 (W10 m ρ c)).trans (w10_arg24 m ρ c)
  have e7 : (V11 m ρ c main_v40 : S1x128.Idx → EReal) = row (m ((c.tc : Thread nD τ).loc main_arg25)) :=
    (host5_v40 (W10 m ρ c)).trans (congrArg (fun v : S128.Idx → EReal => row v) (w10_arg25 m ρ c))
  exact (W12_arr m ρ c 8).trans (final5_at (V11 m ρ) c _ _ _ _ _ _ _ _ e0 e1 e2 e3 e4 e5 e6 e7)

/-! ## The run, read -/

/-- Every weakly fair execution of the idealized kernel terminates with its two results at `rowSide` and `colSide` of the
    launch arguments, the arguments unchanged. -/
theorem run_sides : θ_run defs (onTc (τ := τ) (main (F := Ideal))) ⟨m, fun _ => 0, ρ⟩ (fun r => ∀ c : Dev nD,
      r.2.mem ((c.tc : Thread nD τ).loc main_v36) = rowSide m c
      ∧ r.2.mem ((c.tc : Thread nD τ).loc main_v41) = colSide m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c).1.trans (value_v36 m ρ c), (h c).2.1.trans (value_v41 m ρ c), (h c).2.2⟩)
    (run_results m ρ)

end Cert.KernelIdeal.Hand

end
-- ==== Proof.LibBroadcast.lean ====
/-
  BROADCASTS BY DIMENSION MAP, READ AT ONE ENTRY (general lemmas: any extents, any element type).

  * a vector `[E]` broadcast to the column `[E, 1]` along axis 0: the entry at `(e, 0)` is the vector's entry `e`;
  * a column `[N, 1]` broadcast to `[N, C]` along axes (0, 1): the entry at `(n, c)` is the column's entry at row `n`;
  * a vector `[C]` broadcast to the row `[1, C]` along axis 1 and then down `N` rows: the entry at `(n, c)` is the
    vector's entry `c`;
  * a rank-0 value broadcast over any shape: every entry is that value.
  (An operand axis of extent one is read at coordinate zero, so the extents that are not unit axes are assumed `≠ 1`.)
-/
import Idealize.ShloMosaic.Lib.Pipeline.Value
import Idealize.ShloMosaic.Lib.ValueIdx

noncomputable section

namespace Cert.Bcast

open Idealize.ShloMosaic Idealize.ShloMosaic.ValueIdx

/-- A vector as a column. -/
theorem col_apply {α : Type} {E : Nat} (hE : E ≠ 1) (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      rw [if_neg hE])

/-- A column repeated across `C` columns. -/
theorem rows_of_col_apply {α : Type} {N C : Nat} (hN : N ≠ 1) (x : (⟨2, ![N, 1]⟩ : Shape).Idx → α)
    (h : (⟨2, ![N, 1]⟩ : Shape).BroadcastsInDim ⟨2, ![N, C]⟩ ![0, 1]) (n : Fin N) (c : Fin C) :
    broadcastInDim ⟨2, ![N, C]⟩ ![0, 1] h x (ix2 n c) = x (ix2 n (0 : Fin 1)) :=
  broadcastInDim_apply ![0, 1] h x (ix2 n c) (ix2 n (0 : Fin 1)) (fun a => by
    match a with
    | ⟨0, _⟩ =>
      show n.val = if N = 1 then 0 else n.val
      rw [if_neg hN]
    | ⟨1, _⟩ =>
      show (0 : ℕ) = if (1 : ℕ) = 1 then 0 else c.val
      rw [if_pos rfl])

/-- A bias vector laid out as a row and repeated down `N` rows. -/
theorem bias_rows_apply {α : Type} {N C : Nat} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (n : Fin N) (c : Fin C) :
    broadcastInDim ⟨2, ![N, C]⟩ ![0, 1] h2 (broadcastInDim ⟨2, ![1, C]⟩ ![1] h1 b) (ix2 n c) = b (ix1 c) :=
  (broadcastInDim_apply ![0, 1] h2 _ (ix2 n c) (ix2 (0 : Fin 1) c) (fun a => by
    match a with
    | ⟨0, _⟩ =>
      show (0 : ℕ) = if (1 : ℕ) = 1 then 0 else n.val
      rw [if_pos rfl]
    | ⟨1, _⟩ =>
      show c.val = if C = 1 then 0 else c.val
      rw [if_neg hC])).trans
  (broadcastInDim_apply ![1] h1 b (ix2 (0 : Fin 1) c) (ix1 c) (fun a => by
    match a with
    | ⟨0, _⟩ =>
      show c.val = if C = 1 then 0 else c.val
      rw [if_neg hC]))

/-- A rank-0 value broadcast over a shape. -/
theorem scalar_apply {α : Type} {s : Shape} (x : (⟨0, ![]⟩ : Shape).Idx → α)
    (h : (⟨0, ![]⟩ : Shape).BroadcastsInDim s ![]) (i : s.Idx) :
    broadcastInDim s ![] h x i = x ix0 :=
  broadcastInDim_apply (s := ⟨0, ![]⟩) ![] h x i ix0 (fun a => a.elim0)

end Cert.Bcast

end
-- ==== Proof.LibHostDense.lean ====
/-
  Dense layers as the host spells them, on the extended reals.

  The host writes a fully connected layer as a `dot_general` contracting the left operand's second axis against
  the weights' first, plus the length-N bias laid out as a 1×N row (a broadcast along axis 1) and repeated down the
  rows (a broadcast along axes (0, 1)); a hidden layer takes the maximum of that with a rank-0 zero broadcast over
  the whole shape. As whole arrays these are the affine layer  l · w + b  and the hidden layer  relu(l · w + b)  of
  the bias as a row; a stack of a hidden and an affine layer is the two-layer network `mlp`. Any extents (a bias
  length of 1 excepted: the broadcast rule branches on it); no program needed.
-/
import Idealize.ShloMosaic.PureOps.Ideal.Laws
import Idealize.ShloMosaic.Lib.ValueIdx
import proofs.«152614_j19232863552107_2_alg».proof.Proof.LibPlainDot
import proofs.«152614_j19232863552107_2_alg».proof.Proof.LibDenseLayer
import proofs.«152614_j19232863552107_2_alg».proof.Proof.LibBroadcast

noncomputable section

open scoped BigOperators

namespace Cert.HostDense

open Idealize.ShloMosaic Idealize.ShloMosaic.ValueIdx Cert.DenseLayer

/-- The two-layer network  relu(x · w1 + b1) · w2 + b2,  the biases plain vectors. -/
def mlp {M K H N : Nat} (x : Mat M K) (w1 : Mat K H) (b1 : Vect H) (w2 : Mat H N) (b2 : Vect N) : Mat M N :=
  affine (hidden x w1 (row b1)) w2 (row b2)

section Layers
variable {M K N : Nat} {d : DotDims ⟨2, ![M, K]⟩ ⟨2, ![K, N]⟩ ⟨2, ![M, N]⟩}

/-- The host's product plus its bias broadcast twice is the affine layer of the bias as a row. -/
theorem affine_eq (hd : Cert.PlainDot.IsPlain d) (hN : N ≠ 1) (prec : Option ContractPrecision)
    (l : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral d prec l w) (broadcastInDim ⟨2, ![M, N]⟩ ![0, 1] h2 (broadcastInDim ⟨2, ![1, N]⟩ ![1] h1 b))
      = affine l w (row b) := by
  funext j
  obtain ⟨p, c, rfl⟩ : ∃ (p : Fin M) (c : Fin N), j = ix2 p c := ⟨j 0, j 1, eq_ix2 j⟩
  rw [addf_apply, Cert.PlainDot.dotGeneral_apply hd, Cert.Bcast.bias_rows_apply hN, affine_apply, row_apply]

/-- … and the maximum with the zero word broadcast over the shape: the hidden layer. -/
theorem hidden_eq (hd : Cert.PlainDot.IsPlain d) (hN : N ≠ 1) (prec : Option ContractPrecision)
    (l : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral d prec l w) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = hidden l w (row b) := by
  rw [affine_eq hd hN]
  funext j
  rw [maximumf_apply, Cert.Bcast.scalar_apply]
  rfl

end Layers

/-- The host's two layers in a row are the two-layer network. -/
theorem mlp_eq {M K H N : Nat} {d1 : DotDims ⟨2, ![M, K]⟩ ⟨2, ![K, H]⟩ ⟨2, ![M, H]⟩} {d2 : DotDims ⟨2, ![M, H]⟩ ⟨2, ![H, N]⟩ ⟨2, ![M, N]⟩}
    (hd1 : Cert.PlainDot.IsPlain d1) (hd2 : Cert.PlainDot.IsPlain d2) (hH : H ≠ 1) (hN : N ≠ 1) (prec1 prec2 : Option ContractPrecision)
    (x : FVec Ideal ⟨2, ![M, K]⟩ .f32) (w1 : FVec Ideal ⟨2, ![K, H]⟩ .f32) (b1 : FVec Ideal ⟨1, ![H]⟩ .f32)
    (w2 : FVec Ideal ⟨2, ![H, N]⟩ .f32) (b2 : FVec Ideal ⟨1, ![N]⟩ .f32)
    (g1 : (⟨1, ![H]⟩ : Shape).BroadcastsInDim ⟨2, ![1, H]⟩ ![1]) (g2 : (⟨2, ![1, H]⟩ : Shape).BroadcastsInDim ⟨2, ![M, H]⟩ ![0, 1])
    (g0 : (⟨0, ![]⟩ : Shape).BroadcastsInDim ⟨2, ![M, H]⟩ ![])
    (h1 : (⟨1, ![N]⟩ : Shape).BroadcastsInDim ⟨2, ![1, N]⟩ ![1]) (h2 : (⟨2, ![1, N]⟩ : Shape).BroadcastsInDim ⟨2, ![M, N]⟩ ![0, 1]) :
    addf (Host.dotGeneral d2 prec2
        (maximumf (addf (Host.dotGeneral d1 prec1 x w1) (broadcastInDim ⟨2, ![M, H]⟩ ![0, 1] g2 (broadcastInDim ⟨2, ![1, H]⟩ ![1] g1 b1)))
          (broadcastInDim ⟨2, ![M, H]⟩ ![] g0 (constant (F := Ideal) ⟨0, ![]⟩ .f32 0x00000000#32))) w2)
      (broadcastInDim ⟨2, ![M, N]⟩ ![0, 1] h2 (broadcastInDim ⟨2, ![1, N]⟩ ![1] h1 b2))
      = mlp x w1 b1 w2 b2 := by
  rw [hidden_eq hd1 hH, affine_eq hd2 hN]
  rfl

end Cert.HostDense

end
-- ==== Proof.LibHostRowFold.lean ====
/-
  The host's reductions along the second axis of a matrix, each read at one row, on the extended reals.

  A `stablehlo.reduce` of an [a, b] array across dimension 1 with a maximum body holds at row p the fold
  of `max` from the initial value over the entries (p, k), k < b; with an add body (the host's float sum)
  it holds the initial value plus the finite sum of the entries (p, k). These are the host-side companions
  of the vector unit's row maximum and row sum. Any extents; depends on no program.
-/
import Idealize.ShloMosaic.Lib.ValueIdx
import Idealize.ShloMosaic.PureOps.Ideal.Laws

noncomputable section

open scoped BigOperators

namespace Cert.HostRowFold

open Idealize.ShloMosaic Idealize.ShloMosaic.ValueIdx

/-- Dropping axis 1 of a rank-2 shape leaves a rank-1 shape, so the host's shape fact is also the vector
    unit's (which asks in addition that a result axis is left). -/
theorem reduces_of_to {a b : ℕ} (h' : (⟨2, ![a, b]⟩ : Shape).ReducesTo [1] ⟨1, ![a]⟩) :
    (⟨2, ![a, b]⟩ : Shape).Reduces [1] ⟨1, ![a]⟩ :=
  let ⟨e, hb⟩ := h'; ⟨e, Nat.one_pos, hb⟩

/-- The host's maximum along row `p`: the fold of `max` from the initial value over the row's entries. -/
theorem row_max {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduce FloatOps.maximumf x init h' hu (ix1 p)
      = (Finset.univ : Finset (Fin b)).fold max (init ix0) fun k => x (ix2 p k) := by
  rw [Host.reduce_eq_fold_single FloatOps.maximumf x init h' (reduces_of_to h') hu, eq_ix0 (Shape.Idx.first hu)]
  exact congrArg (fun f => Finset.fold max (init ix0) f (Finset.univ : Finset (Fin b)))
    (funext fun k => congrArg x (funext fun c => Fin.ext (by
      match c with
      | ⟨0, _⟩ => rfl
      | ⟨1, _⟩ => rfl)))

/-- The host's float sum along row `p`: the initial value plus the finite sum of the row's entries. -/
theorem row_sum {a b : ℕ} (x : FVec Ideal ⟨2, ![a, b]⟩ .f32) (init : FVec Ideal ⟨0, ![]⟩ .f32)
    (h' : (⟨2, ![a, b]⟩ : Shape).ReducesTo [1] ⟨1, ![a]⟩) (hu : 0 < (⟨0, ![]⟩ : Shape).numel) (p : Fin a) :
    Host.reduceAdd x init h' hu (ix1 p) = init ix0 + ∑ k : Fin b, x (ix2 p k) := by
  simp only [Host.reduceAdd, Ideal.hostReduceAdd_def]
  rw [Ideal.hostReduceAdd_single h' (reduces_of_to h'), eq_ix0 (Shape.Idx.first hu)]
  refine congrArg (init ix0 + ·) (Finset.sum_congr rfl fun k _ => ?_)
  exact congrArg x (funext fun c => Fin.ext (by
    match c with
    | ⟨0, _⟩ => rfl
    | ⟨1, _⟩ => rfl))

/-- From a zero initial value the host's float sum along row `p` is the finite sum of the row's entries. -/
theorem row_sum_zero {a b : ℕ} (x : FVec Ideal ⟨2, ![a, b]⟩ .f32)
    (h' : (⟨2, ![a, b]⟩ : Shape).ReducesTo [1] ⟨1, ![a]⟩) (hu : 0 < (⟨0, ![]⟩ : Shape).numel) (p : Fin a) :
    Host.reduceAdd x (constant (F := Ideal) ⟨0, ![]⟩ .f32 0x00000000#32) h' hu (ix1 p) = ∑ k : Fin b, x (ix2 p k) :=
  (row_sum x _ h' hu p).trans (by rw [constant_apply, Ideal.ofBits_zero_f32, zero_add])

end Cert.HostRowFold

end
-- ==== Proof.LibLayerNormHost.lean ====
/-
  The host's spelling of layer normalisation along the rows of a matrix, read as `Cert.LayerNorm.norm`.

  For a matrix h with R rows and C lanes, a divisor word nw and an offset word εw, the host computes, array by array,
    s  = the row sums of h from a zero initial value                       (a vector of R entries)
    μ  = (s as an R×1 column) / (the divisor splat over the column)        (Ideal.div, entry by entry)
    d  = h − (μ repeated across the C lanes)
    v  = (the row sums of d·d as a column) / (the divisor splat)
    r  = rsqrt(v + (the offset splat))
    result = d · (r repeated across the lanes) · (g as a row, repeated down the rows) + (β likewise).
  Read at an entry (p, c): μ at (p, 0) is `mean` of row p, v at (p, 0) is `variance` of row p, and the result is
  (h[p,c] − mean) · rsqrt(variance + ε) · g[c] + β[c], which is `norm` of h with the rows `row g`, `row β`.
  The row extent R and the lane extent C are assumed ≠ 1: an operand axis of extent one is read at coordinate zero by a
  broadcast, so the axes that are carried through must not be unit axes.
-/
import Idealize.ShloMosaic.PureOps.Ideal.Laws
import Idealize.ShloMosaic.Lib.Pipeline.Value
import Idealize.ShloMosaic.Lib.ValueIdx
import proofs.«152614_j19232863552107_2_alg».proof.Proof.LibDenseLayer
import proofs.«152614_j19232863552107_2_alg».proof.Proof.LibBroadcast
import proofs.«152614_j19232863552107_2_alg».proof.Proof.LibHostRowFold
import proofs.«152614_j19232863552107_2_alg».proof.Proof.LibLayerNorm

noncomputable section

open scoped BigOperators

namespace Cert.LayerNorm

open Idealize.ShloMosaic Idealize.ShloMosaic.ValueIdx Cert.DenseLayer

section Host
variable {R C : Nat}

/-- The host's quotient of two arrays at an entry is the extended reals' quotient of the entries. -/
theorem host_divf_apply {s : Shape} (a b : FVec Ideal s .f32) (i : s.Idx) : Host.divf a b i = Ideal.div (a i) (b i) := rfl

/-- The host's inverse square root of an array at an entry is the extended reals' of the entry. -/
theorem host_rsqrt_apply {s : Shape} (a : FVec Ideal s .f32) (i : s.Idx) : Host.rsqrt a i = Ideal.rsqrt (a i) := rfl

/-- The row sums of x as a column, divided by the splat of a float word: at (p, 0) the sum of row p over the word. -/
theorem host_row_avg_apply (hR : R ≠ 1) (x : FVec Ideal ⟨2, ![R, C]⟩ .f32) (nw : BitVec 32)
    (hred : (⟨2, ![R, C]⟩ : Shape).ReducesTo [1] ⟨1, ![R]⟩) (hu : 0 < (⟨0, ![]⟩ : Shape).numel)
    (hcol : (⟨1, ![R]⟩ : Shape).BroadcastsInDim ⟨2, ![R, 1]⟩ ![0])
    (hs1 : (⟨0, ![]⟩ : Shape).BroadcastsInDim ⟨2, ![R, 1]⟩ ![]) (p : Fin R) (u : Fin 1) :
    Host.divf
        (broadcastInDim ⟨2, ![R, 1]⟩ ![0] hcol (Host.reduceAdd x (constant (F := Ideal) ⟨0, ![]⟩ .f32 0x00000000#32) hred hu))
        (broadcastInDim ⟨2, ![R, 1]⟩ ![] hs1 (constant (F := Ideal) ⟨0, ![]⟩ .f32 nw)) (ix2 p u)
      = Ideal.div (∑ k : Fin C, x (ix2 p k)) (Ideal.ofBits .f32 nw) := by
  rw [host_divf_apply, Cert.Bcast.col_apply hR, Cert.HostRowFold.row_sum_zero, Cert.Bcast.scalar_apply, constant_apply]

/-- h minus its row means repeated across the lanes: at (p, c) the entry minus the mean of row p. -/
theorem host_centered_apply (hR : R ≠ 1) (h : FVec Ideal ⟨2, ![R, C]⟩ .f32) (nw : BitVec 32)
    (hred : (⟨2, ![R, C]⟩ : Shape).ReducesTo [1] ⟨1, ![R]⟩) (hu : 0 < (⟨0, ![]⟩ : Shape).numel)
    (hcol : (⟨1, ![R]⟩ : Shape).BroadcastsInDim ⟨2, ![R, 1]⟩ ![0])
    (hs1 : (⟨0, ![]⟩ : Shape).BroadcastsInDim ⟨2, ![R, 1]⟩ ![])
    (hacr : (⟨2, ![R, 1]⟩ : Shape).BroadcastsInDim ⟨2, ![R, C]⟩ ![0, 1]) (p : Fin R) (c : Fin C) :
    subf h (broadcastInDim ⟨2, ![R, C]⟩ ![0, 1] hacr
        (Host.divf
          (broadcastInDim ⟨2, ![R, 1]⟩ ![0] hcol (Host.reduceAdd h (constant (F := Ideal) ⟨0, ![]⟩ .f32 0x00000000#32) hred hu))
          (broadcastInDim ⟨2, ![R, 1]⟩ ![] hs1 (constant (F := Ideal) ⟨0, ![]⟩ .f32 nw)))) (ix2 p c)
      = h (ix2 p c) - mean (Ideal.ofBits .f32 nw) h p := by
  rw [subf_apply, Cert.Bcast.rows_of_col_apply hR, host_row_avg_apply hR]
  rfl

/-- The host's layer normalisation of h with gain g and offset β is `norm` of h with the rows of g and β. -/
theorem norm_host_eq (hR : R ≠ 1) (hC : C ≠ 1) (h : FVec Ideal ⟨2, ![R, C]⟩ .f32) (g β : FVec Ideal ⟨1, ![C]⟩ .f32)
    (nw εw : BitVec 32)
    (hred : (⟨2, ![R, C]⟩ : Shape).ReducesTo [1] ⟨1, ![R]⟩) (hu : 0 < (⟨0, ![]⟩ : Shape).numel)
    (hcol : (⟨1, ![R]⟩ : Shape).BroadcastsInDim ⟨2, ![R, 1]⟩ ![0])
    (hs1 : (⟨0, ![]⟩ : Shape).BroadcastsInDim ⟨2, ![R, 1]⟩ ![])
    (hacr : (⟨2, ![R, 1]⟩ : Shape).BroadcastsInDim ⟨2, ![R, C]⟩ ![0, 1])
    (h1 : (⟨1, ![C]⟩ : Shape).BroadcastsInDim ⟨2, ![1, C]⟩ ![1])
    (h2 : (⟨2, ![1, C]⟩ : Shape).BroadcastsInDim ⟨2, ![R, C]⟩ ![0, 1]) :
    addf
        (mulf
          (mulf
            (subf h (broadcastInDim ⟨2, ![R, C]⟩ ![0, 1] hacr
              (Host.divf
                (broadcastInDim ⟨2, ![R, 1]⟩ ![0] hcol (Host.reduceAdd h (constant (F := Ideal) ⟨0, ![]⟩ .f32 0x00000000#32) hred hu))
                (broadcastInDim ⟨2, ![R, 1]⟩ ![] hs1 (constant (F := Ideal) ⟨0, ![]⟩ .f32 nw)))))
            (broadcastInDim ⟨2, ![R, C]⟩ ![0, 1] hacr
              (Host.rsqrt
                (addf
                  (Host.divf
                    (broadcastInDim ⟨2, ![R, 1]⟩ ![0] hcol
                      (Host.reduceAdd
                        (mulf
                          (subf h (broadcastInDim ⟨2, ![R, C]⟩ ![0, 1] hacr
                            (Host.divf
                              (broadcastInDim ⟨2, ![R, 1]⟩ ![0] hcol (Host.reduceAdd h (constant (F := Ideal) ⟨0, ![]⟩ .f32 0x00000000#32) hred hu))
                              (broadcastInDim ⟨2, ![R, 1]⟩ ![] hs1 (constant (F := Ideal) ⟨0, ![]⟩ .f32 nw)))))
                          (subf h (broadcastInDim ⟨2, ![R, C]⟩ ![0, 1] hacr
                            (Host.divf
                              (broadcastInDim ⟨2, ![R, 1]⟩ ![0] hcol (Host.reduceAdd h (constant (F := Ideal) ⟨0, ![]⟩ .f32 0x00000000#32) hred hu))
                              (broadcastInDim ⟨2, ![R, 1]⟩ ![] hs1 (constant (F := Ideal) ⟨0, ![]⟩ .f32 nw))))))
                        (constant (F := Ideal) ⟨0, ![]⟩ .f32 0x00000000#32) hred hu))
                    (broadcastInDim ⟨2, ![R, 1]⟩ ![] hs1 (constant (F := Ideal) ⟨0, ![]⟩ .f32 nw)))
                  (broadcastInDim ⟨2, ![R, 1]⟩ ![] hs1 (constant (F := Ideal) ⟨0, ![]⟩ .f32 εw))))))
          (broadcastInDim ⟨2, ![R, C]⟩ ![0, 1] h2 (broadcastInDim ⟨2, ![1, C]⟩ ![1] h1 g)))
        (broadcastInDim ⟨2, ![R, C]⟩ ![0, 1] h2 (broadcastInDim ⟨2, ![1, C]⟩ ![1] h1 β))
      = norm (Ideal.ofBits .f32 nw) (Ideal.ofBits .f32 εw) h (row g) (row β) := by
  funext j
  obtain ⟨p, c, rfl⟩ : ∃ (p : Fin R) (c : Fin C), j = ix2 p c := ⟨j 0, j 1, eq_ix2 j⟩
  rw [addf_apply, mulf_apply, mulf_apply, host_centered_apply hR, Cert.Bcast.bias_rows_apply hC, Cert.Bcast.bias_rows_apply hC,
    Cert.Bcast.rows_of_col_apply hR, host_rsqrt_apply, addf_apply, host_row_avg_apply hR, Cert.Bcast.scalar_apply, constant_apply,
    norm_apply, row_apply, row_apply]
  have hv : (∑ k : Fin C,
      mulf
        (subf h (broadcastInDim ⟨2, ![R, C]⟩ ![0, 1] hacr
          (Host.divf
            (broadcastInDim ⟨2, ![R, 1]⟩ ![0] hcol (Host.reduceAdd h (constant (F := Ideal) ⟨0, ![]⟩ .f32 0x00000000#32) hred hu))
            (broadcastInDim ⟨2, ![R, 1]⟩ ![] hs1 (constant (F := Ideal) ⟨0, ![]⟩ .f32 nw)))))
        (subf h (broadcastInDim ⟨2, ![R, C]⟩ ![0, 1] hacr
          (Host.divf
            (broadcastInDim ⟨2, ![R, 1]⟩ ![0] hcol (Host.reduceAdd h (constant (F := Ideal) ⟨0, ![]⟩ .f32 0x00000000#32) hred hu))
            (broadcastInDim ⟨2, ![R, 1]⟩ ![] hs1 (constant (F := Ideal) ⟨0, ![]⟩ .f32 nw))))) (ix2 p k))
      = ∑ k : Fin C, (h (ix2 p k) - mean (Ideal.ofBits .f32 nw) h p) * (h (ix2 p k) - mean (Ideal.ofBits .f32 nw) h p) :=
    Finset.sum_congr rfl fun k _ => by rw [mulf_apply, host_centered_apply hR]
  rw [hv]
  rfl

end Host

end Cert.LayerNorm

end
-- ==== Proof.RefValue.lean ====
/-
  The reference program's two results as the specification's function `Cert.Spec.side` of the arguments.

  The reference is a straight line of whole-array host operations. Stage by stage, over arbitrary argument arrays on
  the extended reals: a product plus a bias broadcast twice is a dense layer (`affine`); the compare / add / select on
  the edge indices, the gather, the product with the edge rows and the scatter-add from the zero array are literally the
  specification's `aggregate`; the row sums, the quotients by the lane count, the inverse square root and the gain and
  offset rows are `Cert.LayerNorm.norm` (the host's spelling, read as a whole array); and the final sum onto the
  embedding is `residual`. Composed, each result is `side` of its direction's arguments; read at the launch memory,
  that is the statement about the program's run.
-/
import proofs.«152614_j19232863552107_2_alg».proof.Proof.Gen.ReferenceIdeal.Read
import proofs.«152614_j19232863552107_2_alg».proof.Proof.LibDenseLayer
import proofs.«152614_j19232863552107_2_alg».proof.Proof.LibHostDense
import proofs.«152614_j19232863552107_2_alg».proof.Proof.LibLayerNorm
import proofs.«152614_j19232863552107_2_alg».proof.Proof.LibLayerNormHost
import proofs.«152614_j19232863552107_2_alg».proof.Proof.Spec

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx Cert.DenseLayer Cert.LayerNorm

/-- The argument arrays on the extended reals: node features, edge features, edge indices, the two kinds of weight
    matrices, a bias (or gain, or offset) vector. -/
abbrev Nodes : Type := (⟨S8192x128, .f32⟩ : BufTy).Contents (Elt Ideal)
abbrev EdgeFeat : Type := (⟨S524288x64, .f32⟩ : BufTy).Contents (Elt Ideal)
abbrev EdgeIdx : Type := (⟨S524288, .i32⟩ : BufTy).Contents (Elt Ideal)
abbrev Weights : Type := (⟨S128x128, .f32⟩ : BufTy).Contents (Elt Ideal)
abbrev EdgeWeights : Type := (⟨S64x128, .f32⟩ : BufTy).Contents (Elt Ideal)
abbrev Lanes : Type := (⟨S128, .f32⟩ : BufTy).Contents (Elt Ideal)

/-! ## The first result: node features %arg0, edge features %arg3, edge indices %arg5 -/

/-- The dense layer on the node features. -/
theorem node_out0 (x0 : Nodes) (x6 : Weights) (x7 : Lanes) :
    val_main_v3 (F := Ideal) x0 x6 x7 = affine x0 x6 (row x7) := by
  unfold val_main_v3 val_main_v2 val_main_v1 val_main_v0
  exact Cert.HostDense.affine_eq ⟨rfl, rfl, rfl, rfl, rfl, rfl⟩ (by decide) none _ _ _ _ _

/-- The dense layer on the edge features. -/
theorem msg_out0 (x3 : EdgeFeat) (x12 : EdgeWeights) (x13 : Lanes) :
    val_main_v15 (F := Ideal) x3 x12 x13 = affine x3 x12 (row x13) := by
  unfold val_main_v15 val_main_v14 val_main_v13 val_main_v12
  exact Cert.HostDense.affine_eq ⟨rfl, rfl, rfl, rfl, rfl, rfl⟩ (by decide) none _ _ _ _ _

/-- The gather of the transformed node rows (indices below zero wrapped), the product with the edge rows and the
    scatter-add from the zero array are the specification's aggregation. -/
theorem agg_out0 (x0 : Nodes) (x3 : EdgeFeat) (x5 : EdgeIdx) (x6 : Weights) (x7 : Lanes) (x12 : EdgeWeights) (x13 : Lanes) :
    val_main_v37 (F := Ideal) x0 x3 x5 x6 x7 x12 x13
      = Cert.Spec.aggregate gather_S8192x128_S524288x1_S524288x128_1_0_n_n_0_1_1128 scatter_S8192x128_S524288x1_S524288x128_1_0_0_1
        bcast_S_S524288 bcast_S524288_S524288x1_0 bcast_S_S8192x128
        (affine x0 x6 (row x7)) (affine x3 x12 (row x13)) x5 := by
  unfold val_main_v37 val_main_v36 val_main_v35 val_main_cst_3 val_main_v34 val_main_v33 val_main_v32 val_main_v31 val_main_v30 val_main_v29 val_main_c_2 val_main_v28 val_main_v27 val_main_c_1
  rw [node_out0, msg_out0]
  rfl

/-- The first dense layer of the residual block. -/
theorem dense1_out0 (x0 : Nodes) (x3 : EdgeFeat) (x5 : EdgeIdx) (x6 : Weights) (x7 : Lanes) (x12 : EdgeWeights) (x13 : Lanes) (x14 : Weights) (x15 : Lanes) :
    val_main_v41 (F := Ideal) x0 x3 x5 x6 x7 x12 x13 x14 x15 = affine (val_main_v37 (F := Ideal) x0 x3 x5 x6 x7 x12 x13) x14 (row x15) := by
  unfold val_main_v41 val_main_v40 val_main_v39 val_main_v38
  exact Cert.HostDense.affine_eq ⟨rfl, rfl, rfl, rfl, rfl, rfl⟩ (by decide) none _ _ _ _ _

/-- The layer normalisation along the lanes. -/
theorem norm_out0 (x0 : Nodes) (x3 : EdgeFeat) (x5 : EdgeIdx) (x6 : Weights) (x7 : Lanes) (x12 : EdgeWeights) (x13 : Lanes) (x14 : Weights) (x15 : Lanes) (x16 : Lanes) (x17 : Lanes) :
    val_main_v65 (F := Ideal) x0 x3 x5 x6 x7 x12 x13 x14 x15 x16 x17
      = norm Cert.Spec.laneCount Cert.Spec.offset (val_main_v41 (F := Ideal) x0 x3 x5 x6 x7 x12 x13 x14 x15) (row x16) (row x17) := by
  unfold val_main_v65 val_main_v64 val_main_v63 val_main_v62 val_main_v61 val_main_v60 val_main_v59 val_main_v58 val_main_v57 val_main_v56 val_main_v55 val_main_cst_8 val_main_v54 val_main_v53 val_main_v52 val_main_v51 val_main_cst_7 val_main_v50 val_main_v49 val_main_cst_6 val_main_v48 val_main_v47 val_main_v46 val_main_v45 val_main_v44 val_main_cst_5 val_main_v43 val_main_v42 val_main_cst_4
  exact norm_host_eq (by decide) (by decide) _ _ _ _ _ _ _ _ _ _ _ _

/-- The second dense layer of the residual block. -/
theorem dense2_out0 (x0 : Nodes) (x3 : EdgeFeat) (x5 : EdgeIdx) (x6 : Weights) (x7 : Lanes) (x12 : EdgeWeights) (x13 : Lanes) (x14 : Weights) (x15 : Lanes) (x16 : Lanes) (x17 : Lanes) (x18 : Weights) (x19 : Lanes) :
    val_main_v69 (F := Ideal) x0 x3 x5 x6 x7 x12 x13 x14 x15 x16 x17 x18 x19 = affine (val_main_v65 (F := Ideal) x0 x3 x5 x6 x7 x12 x13 x14 x15 x16 x17) x18 (row x19) := by
  unfold val_main_v69 val_main_v68 val_main_v67 val_main_v66
  exact Cert.HostDense.affine_eq ⟨rfl, rfl, rfl, rfl, rfl, rfl⟩ (by decide) none _ _ _ _ _

/-- The embedding plus the block's result is the specification's function of the arguments. -/
theorem stage_out0 (x0 : Nodes) (x3 : EdgeFeat) (x5 : EdgeIdx) (x6 : Weights) (x7 : Lanes) (x12 : EdgeWeights) (x13 : Lanes) (x14 : Weights) (x15 : Lanes) (x16 : Lanes) (x17 : Lanes) (x18 : Weights) (x19 : Lanes) :
    val_main_v70 (F := Ideal) x0 x3 x5 x6 x7 x12 x13 x14 x15 x16 x17 x18 x19
      = Cert.Spec.side gather_S8192x128_S524288x1_S524288x128_1_0_n_n_0_1_1128 scatter_S8192x128_S524288x1_S524288x128_1_0_0_1
        bcast_S_S524288 bcast_S524288_S524288x1_0 bcast_S_S8192x128
        x0 x6 x7 x3 x12 x13 x5 x0 x14 x15 x16 x17 x18 x19 := by
  unfold val_main_v70
  rw [dense2_out0, norm_out0, dense1_out0, agg_out0]
  rfl

/-! ## The second result: node features %arg1, edge features %arg2, edge indices %arg4 -/

/-- The dense layer on the node features. -/
theorem node_out1 (x1 : Nodes) (x8 : Weights) (x9 : Lanes) :
    val_main_v7 (F := Ideal) x1 x8 x9 = affine x1 x8 (row x9) := by
  unfold val_main_v7 val_main_v6 val_main_v5 val_main_v4
  exact Cert.HostDense.affine_eq ⟨rfl, rfl, rfl, rfl, rfl, rfl⟩ (by decide) none _ _ _ _ _

/-- The dense layer on the edge features. -/
theorem msg_out1 (x2 : EdgeFeat) (x10 : EdgeWeights) (x11 : Lanes) :
    val_main_v11 (F := Ideal) x2 x10 x11 = affine x2 x10 (row x11) := by
  unfold val_main_v11 val_main_v10 val_main_v9 val_main_v8
  exact Cert.HostDense.affine_eq ⟨rfl, rfl, rfl, rfl, rfl, rfl⟩ (by decide) none _ _ _ _ _

/-- The gather of the transformed node rows (indices below zero wrapped), the product with the edge rows and the
    scatter-add from the zero array are the specification's aggregation. -/
theorem agg_out1 (x1 : Nodes) (x2 : EdgeFeat) (x4 : EdgeIdx) (x8 : Weights) (x9 : Lanes) (x10 : EdgeWeights) (x11 : Lanes) :
    val_main_v26 (F := Ideal) x1 x2 x4 x8 x9 x10 x11
      = Cert.Spec.aggregate gather_S8192x128_S524288x1_S524288x128_1_0_n_n_0_1_1128 scatter_S8192x128_S524288x1_S524288x128_1_0_0_1
        bcast_S_S524288 bcast_S524288_S524288x1_0 bcast_S_S8192x128
        (affine x1 x8 (row x9)) (affine x2 x10 (row x11)) x4 := by
  unfold val_main_v26 val_main_v25 val_main_v24 val_main_cst val_main_v23 val_main_v22 val_main_v21 val_main_v20 val_main_v19 val_main_v18 val_main_c_0 val_main_v17 val_main_v16 val_main_c
  rw [node_out1, msg_out1]
  rfl

/-- The first dense layer of the residual block. -/
theorem dense1_out1 (x1 : Nodes) (x2 : EdgeFeat) (x4 : EdgeIdx) (x8 : Weights) (x9 : Lanes) (x10 : EdgeWeights) (x11 : Lanes) (x20 : Weights) (x21 : Lanes) :
    val_main_v74 (F := Ideal) x1 x2 x4 x8 x9 x10 x11 x20 x21 = affine (val_main_v26 (F := Ideal) x1 x2 x4 x8 x9 x10 x11) x20 (row x21) := by
  unfold val_main_v74 val_main_v73 val_main_v72 val_main_v71
  exact Cert.HostDense.affine_eq ⟨rfl, rfl, rfl, rfl, rfl, rfl⟩ (by decide) none _ _ _ _ _

/-- The layer normalisation along the lanes. -/
theorem norm_out1 (x1 : Nodes) (x2 : EdgeFeat) (x4 : EdgeIdx) (x8 : Weights) (x9 : Lanes) (x10 : EdgeWeights) (x11 : Lanes) (x20 : Weights) (x21 : Lanes) (x22 : Lanes) (x23 : Lanes) :
    val_main_v98 (F := Ideal) x1 x2 x4 x8 x9 x10 x11 x20 x21 x22 x23
      = norm Cert.Spec.laneCount Cert.Spec.offset (val_main_v74 (F := Ideal) x1 x2 x4 x8 x9 x10 x11 x20 x21) (row x22) (row x23) := by
  unfold val_main_v98 val_main_v97 val_main_v96 val_main_v95 val_main_v94 val_main_v93 val_main_v92 val_main_v91 val_main_v90 val_main_v89 val_main_v88 val_main_cst_13 val_main_v87 val_main_v86 val_main_v85 val_main_v84 val_main_cst_12 val_main_v83 val_main_v82 val_main_cst_11 val_main_v81 val_main_v80 val_main_v79 val_main_v78 val_main_v77 val_main_cst_10 val_main_v76 val_main_v75 val_main_cst_9
  exact norm_host_eq (by decide) (by decide) _ _ _ _ _ _ _ _ _ _ _ _

/-- The second dense layer of the residual block. -/
theorem dense2_out1 (x1 : Nodes) (x2 : EdgeFeat) (x4 : EdgeIdx) (x8 : Weights) (x9 : Lanes) (x10 : EdgeWeights) (x11 : Lanes) (x20 : Weights) (x21 : Lanes) (x22 : Lanes) (x23 : Lanes) (x24 : Weights) (x25 : Lanes) :
    val_main_v102 (F := Ideal) x1 x2 x4 x8 x9 x10 x11 x20 x21 x22 x23 x24 x25 = affine (val_main_v98 (F := Ideal) x1 x2 x4 x8 x9 x10 x11 x20 x21 x22 x23) x24 (row x25) := by
  unfold val_main_v102 val_main_v101 val_main_v100 val_main_v99
  exact Cert.HostDense.affine_eq ⟨rfl, rfl, rfl, rfl, rfl, rfl⟩ (by decide) none _ _ _ _ _

/-- The embedding plus the block's result is the specification's function of the arguments. -/
theorem stage_out1 (x1 : Nodes) (x2 : EdgeFeat) (x4 : EdgeIdx) (x8 : Weights) (x9 : Lanes) (x10 : EdgeWeights) (x11 : Lanes) (x20 : Weights) (x21 : Lanes) (x22 : Lanes) (x23 : Lanes) (x24 : Weights) (x25 : Lanes) :
    val_main_v103 (F := Ideal) x1 x2 x4 x8 x9 x10 x11 x20 x21 x22 x23 x24 x25
      = Cert.Spec.side gather_S8192x128_S524288x1_S524288x128_1_0_n_n_0_1_1128 scatter_S8192x128_S524288x1_S524288x128_1_0_0_1
        bcast_S_S524288 bcast_S524288_S524288x1_0 bcast_S_S8192x128
        x1 x8 x9 x2 x10 x11 x4 x1 x20 x21 x22 x23 x24 x25 := by
  unfold val_main_v103
  rw [dense2_out1, norm_out1, dense1_out1, agg_out1]
  rfl

/-! ## The results at the launch memory -/

/-- The reference program's result 0 is the specification's function of the launch contents of the arguments. -/
theorem out0_eq (m : (ℓ : Loc nD τ sig) → Buf (Elt Ideal) ℓ) (c : Dev nD) :
    Cert.ReferenceIdeal.Value.res_out0 (F := Ideal) m c
      = Cert.Spec.side gather_S8192x128_S524288x1_S524288x128_1_0_n_n_0_1_1128 scatter_S8192x128_S524288x1_S524288x128_1_0_0_1
        bcast_S_S524288 bcast_S524288_S524288x1_0 bcast_S_S8192x128
        (m ((c.tc : Thread nD τ).loc main_arg0)) (m ((c.tc : Thread nD τ).loc main_arg6)) (m ((c.tc : Thread nD τ).loc main_arg7)) (m ((c.tc : Thread nD τ).loc main_arg3)) (m ((c.tc : Thread nD τ).loc main_arg12)) (m ((c.tc : Thread nD τ).loc main_arg13)) (m ((c.tc : Thread nD τ).loc main_arg5)) (m ((c.tc : Thread nD τ).loc main_arg0)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) :=
  (val_main_v70_eq (F := Ideal) m c).trans (stage_out0 _ _ _ _ _ _ _ _ _ _ _ _ _)

/-- The reference program's result 1 is the specification's function of the launch contents of the arguments. -/
theorem out1_eq (m : (ℓ : Loc nD τ sig) → Buf (Elt Ideal) ℓ) (c : Dev nD) :
    Cert.ReferenceIdeal.Value.res_out1 (F := Ideal) m c
      = Cert.Spec.side gather_S8192x128_S524288x1_S524288x128_1_0_n_n_0_1_1128 scatter_S8192x128_S524288x1_S524288x128_1_0_0_1
        bcast_S_S524288 bcast_S524288_S524288x1_0 bcast_S_S8192x128
        (m ((c.tc : Thread nD τ).loc main_arg1)) (m ((c.tc : Thread nD τ).loc main_arg8)) (m ((c.tc : Thread nD τ).loc main_arg9)) (m ((c.tc : Thread nD τ).loc main_arg2)) (m ((c.tc : Thread nD τ).loc main_arg10)) (m ((c.tc : Thread nD τ).loc main_arg11)) (m ((c.tc : Thread nD τ).loc main_arg4)) (m ((c.tc : Thread nD τ).loc main_arg1)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (val_main_v103_eq (F := Ideal) m c).trans (stage_out1 _ _ _ _ _ _ _ _ _ _ _ _ _)

end Cert.ReferenceIdeal.RefValue

end
-- ==== Proof.lean ====
/-
  The proof of `Cert.Claim` for a two-sided graph layer: node and edge dense layers, a gather–multiply–scatter-add
  aggregation over the edges, and a residual block (dense layer, layer normalisation, dense layer) onto the embedding.

  The three frames. The kernel's and the idealized kernel's are the imported generated frame certificates; the
  reference has no pipelined call, and its frame is its run with the results dropped.

  `preserves` is `True`: the idealization rewrote nothing.

  `algebraic`. On the extended reals both programs end with each result at ONE function of the argument arrays,
  `Cert.Spec.side` of the direction's arguments: for the idealized kernel by reading its six calls' result arrays off
  their blocks and carrying every buffer across the segments that do not write it (`Cert.KernelIdeal.Hand.run_sides`);
  for the reference by reading its straight line of host operations stage by stage (`RefValue.out0_eq`, `out1_eq`).
  The matrix products are the same finite sums, the changes of float format the identity, the layer normalisation the
  same expression of the row sums in both spellings, and the aggregation is the same host operations in both programs;
  no law that needs finiteness is used, so the precondition is never opened. The memories agree on the arguments, and the
  two programs' gather and scatter records have the same fields.
-/
import proofs.«152614_j19232863552107_2_alg».proof.Defs
import proofs.«152614_j19232863552107_2_alg».proof.Proof.Gen.Kernel
import proofs.«152614_j19232863552107_2_alg».proof.Proof.Gen.Kernel.Skeleton
import proofs.«152614_j19232863552107_2_alg».proof.Proof.Gen.Kernel.Launch
import proofs.«152614_j19232863552107_2_alg».proof.Proof.Gen.Kernel.Points
import proofs.«152614_j19232863552107_2_alg».proof.Proof.Gen.Kernel.Frame
import proofs.«152614_j19232863552107_2_alg».proof.Proof.Gen.KernelIdeal
import proofs.«152614_j19232863552107_2_alg».proof.Proof.Gen.KernelIdeal.Skeleton
import proofs.«152614_j19232863552107_2_alg».proof.Proof.Gen.KernelIdeal.Launch
import proofs.«152614_j19232863552107_2_alg».proof.Proof.Gen.KernelIdeal.Points
import proofs.«152614_j19232863552107_2_alg».proof.Proof.Gen.KernelIdeal.Frame
import proofs.«152614_j19232863552107_2_alg».proof.Proof.Gen.ReferenceIdeal
import proofs.«152614_j19232863552107_2_alg».proof.Proof.Gen.ReferenceIdeal.Run
import proofs.«152614_j19232863552107_2_alg».proof.Proof.Gen.ReferenceIdeal.Read
import proofs.«152614_j19232863552107_2_alg».proof.Proof.Gen.Pre_finite_inputs
import proofs.«152614_j19232863552107_2_alg».proof.Proof.KernelValue
import proofs.«152614_j19232863552107_2_alg».proof.Proof.RefValue
import Idealize.ShloMosaic.Adequacy
import Idealize.ShloMosaic.Init

noncomputable section

namespace Cert.Proof

open Idealize.ShloMosaic Idealize.SL.Sem

namespace Claims

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with each result at `Cert.Spec.side` of its direction's arguments, read at memories that agree
    on the arguments. -/
theorem algebraic : Cert.algebraic_KernelIdeal_ReferenceIdeal := by
  intro m ρ m' ρ' _ hagree
  refine ⟨fun c => Cert.KernelIdeal.Hand.rowSide m c, fun c => Cert.KernelIdeal.Hand.colSide m c,
    Cert.KernelIdeal.Hand.run_sides m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18, a19, a20, a21, a22, a23, a24, a25⟩ := hagree c
    refine (Cert.ReferenceIdeal.RefValue.out0_eq m' c).trans ?_
    rw [a0, a3, a5, a6, a7, a12, a13, a14, a15, a16, a17, a18, a19]
    rfl
  · obtain ⟨a0, a1, a2, a3, a4, a5, a6, a7, a8, a9, a10, a11, a12, a13, a14, a15, a16, a17, a18, a19, a20, a21, a22, a23, a24, a25⟩ := hagree c
    refine (Cert.ReferenceIdeal.RefValue.out1_eq m' c).trans ?_
    rw [a1, a2, a4, a8, a9, a10, a11, a20, a21, a22, a23, a24, a25]
    rfl

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
